-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048 .f32) (main_arg1 : FVec F S8x2048 .f32) (main_arg2 : IVec S8x2048 32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S8x2048 : Shape := ⟨2, ![8, 2048]⟩
abbrev S8x1x2048 : Shape := ⟨3, ![8, 1, 2048]⟩
abbrev S1x1x512 : Shape := ⟨3, ![1, 1, 512]⟩
abbrev S1x1x2048 : Shape := ⟨3, ![1, 1, 2048]⟩
abbrev S512 : Shape := ⟨1, ![512]⟩
abbrev S2048 : Shape := ⟨1, ![2048]⟩
abbrev S512x1 : Shape := ⟨2, ![512, 1]⟩
abbrev S1x2048 : Shape := ⟨2, ![1, 2048]⟩
abbrev S512x2048 : Shape := ⟨2, ![512, 2048]⟩
abbrev S_ : Shape := ⟨0, ![]⟩
abbrev S8 : Shape := ⟨1, ![8]⟩
abbrev S1x1 : Shape := ⟨2, ![1, 1]⟩
abbrev S1 : Shape := ⟨1, ![1]⟩
abbrev S6 : Shape := ⟨1, ![6]⟩

abbrev nBuf : Space → Nat
  | .hbm => 122
  | .vmem => 10
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .i32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S1x1, .f32⟩
  | .hbm, ⟨71, _⟩ => ⟨S_, .f32⟩
  | .hbm, ⟨72, _⟩ => ⟨S1x1, .f32⟩
  | .hbm, ⟨73, _⟩ => ⟨S1x1, .f32⟩
  | .hbm, ⟨74, _⟩ => ⟨S8x2048, .f32⟩
  | .hbm, ⟨75, _⟩ => ⟨S8x2048, .f32⟩
  | .hbm, ⟨76, _⟩ => ⟨S8x2048, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .i32⟩
  | .hbm, ⟨94, _⟩ => ⟨S_, .f32⟩
  | .hbm, ⟨95, _⟩ => ⟨S_, .f32⟩
  | .hbm, ⟨96, _⟩ => ⟨S1x1, .f32⟩
  | .hbm, ⟨97, _⟩ => ⟨S_, .f32⟩
  | .hbm, ⟨98, _⟩ => ⟨S1x1, .f32⟩
  | .hbm, ⟨99, _⟩ => ⟨S1x1, .f32⟩
  | .hbm, ⟨100, _⟩ => ⟨S8x2048, .f32⟩
  | .hbm, ⟨101, _⟩ => ⟨S8x2048, .f32⟩
  | .hbm, ⟨102, _⟩ => ⟨S8x2048, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .i1⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S1, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S1, .f32⟩
  | .hbm, ⟨120, _⟩ => ⟨S1, .f32⟩
  | .hbm, ⟨121, _⟩ => ⟨S6, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x512, .f32⟩
  | .local _ .vmem, ⟨9, _⟩ => ⟨S1x1x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_cst_12 : Ref sig .tc := ⟨.hbm, 54, rfl⟩
abbrev main_call0_v0 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_call1_v0 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_cst_16 : Ref sig .tc := ⟨.hbm, 65, rfl⟩
abbrev main_v43 : Ref sig .tc := ⟨.hbm, 66, rfl⟩
abbrev main_c : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_cst_0 : Ref sig .tc := ⟨.hbm, 71, rfl⟩
abbrev main_call2_call0_v2 : Ref sig .tc := ⟨.hbm, 72, rfl⟩
abbrev main_call2_call0_v3 : Ref sig .tc := ⟨.hbm, 73, rfl⟩
abbrev main_call2_call0_v4 : Ref sig .tc := ⟨.hbm, 74, rfl⟩
abbrev main_call2_call0_v5 : Ref sig .tc := ⟨.hbm, 75, rfl⟩
abbrev main_call2_call0_v6 : Ref sig .tc := ⟨.hbm, 76, rfl⟩
abbrev main_call2_call0_v7 : Ref sig .tc := ⟨.hbm, 77, rfl⟩
abbrev main_call2_call0_cst_1 : Ref sig .tc := ⟨.hbm, 78, rfl⟩
abbrev main_call2_call0_v8 : Ref sig .tc := ⟨.hbm, 79, rfl⟩
abbrev main_call2_call0_cst_2 : Ref sig .tc := ⟨.hbm, 80, rfl⟩
abbrev main_call2_call0_v9 : Ref sig .tc := ⟨.hbm, 81, rfl⟩
abbrev main_call2_call0_v10 : Ref sig .tc := ⟨.hbm, 82, rfl⟩
abbrev main_call2_call0_cst_3 : Ref sig .tc := ⟨.hbm, 83, rfl⟩
abbrev main_call2_call0_v11 : Ref sig .tc := ⟨.hbm, 84, rfl⟩
abbrev main_call2_call0_cst_4 : Ref sig .tc := ⟨.hbm, 85, rfl⟩
abbrev main_call2_call0_call0_v0 : Ref sig .tc := ⟨.hbm, 86, rfl⟩
abbrev main_call2_v0 : Ref sig .tc := ⟨.hbm, 87, rfl⟩
abbrev main_v44 : Ref sig .tc := ⟨.hbm, 88, rfl⟩
abbrev main_cst_17 : Ref sig .tc := ⟨.hbm, 89, rfl⟩
abbrev main_v45 : Ref sig .tc := ⟨.hbm, 90, rfl⟩
abbrev main_cst_18 : Ref sig .tc := ⟨.hbm, 91, rfl⟩
abbrev main_v46 : Ref sig .tc := ⟨.hbm, 92, rfl⟩
abbrev main_c_19 : Ref sig .tc := ⟨.hbm, 93, rfl⟩
abbrev main_call3_call0_cst : Ref sig .tc := ⟨.hbm, 94, rfl⟩
abbrev main_call3_call0_v0 : Ref sig .tc := ⟨.hbm, 95, rfl⟩
abbrev main_call3_call0_v1 : Ref sig .tc := ⟨.hbm, 96, rfl⟩
abbrev main_call3_call0_cst_0 : Ref sig .tc := ⟨.hbm, 97, rfl⟩
abbrev main_call3_call0_v2 : Ref sig .tc := ⟨.hbm, 98, rfl⟩
abbrev main_call3_call0_v3 : Ref sig .tc := ⟨.hbm, 99, rfl⟩
abbrev main_call3_call0_v4 : Ref sig .tc := ⟨.hbm, 100, rfl⟩
abbrev main_call3_call0_v5 : Ref sig .tc := ⟨.hbm, 101, rfl⟩
abbrev main_call3_call0_v6 : Ref sig .tc := ⟨.hbm, 102, rfl⟩
abbrev main_call3_call0_v7 : Ref sig .tc := ⟨.hbm, 103, rfl⟩
abbrev main_call3_call0_cst_1 : Ref sig .tc := ⟨.hbm, 104, rfl⟩
abbrev main_call3_call0_v8 : Ref sig .tc := ⟨.hbm, 105, rfl⟩
abbrev main_call3_call0_cst_2 : Ref sig .tc := ⟨.hbm, 106, rfl⟩
abbrev main_call3_call0_v9 : Ref sig .tc := ⟨.hbm, 107, rfl⟩
abbrev main_call3_call0_v10 : Ref sig .tc := ⟨.hbm, 108, rfl⟩
abbrev main_call3_call0_cst_3 : Ref sig .tc := ⟨.hbm, 109, rfl⟩
abbrev main_call3_call0_v11 : Ref sig .tc := ⟨.hbm, 110, rfl⟩
abbrev main_call3_call0_cst_4 : Ref sig .tc := ⟨.hbm, 111, rfl⟩
abbrev main_call3_call0_call0_v0 : Ref sig .tc := ⟨.hbm, 112, rfl⟩
abbrev main_call3_v0 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048_S8x1x2048 : S8x2048.ShapeCasts S8x1x2048
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S512_S512x1 : S512.ShapeCasts S512x1
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S1x1x512 : S512.ShapeCasts S1x1x512
  shapeCasts_S8x1x2048_S8x2048 : S8x1x2048.ShapeCasts S8x2048
  reducesTo_S8x2048_S8_d1 : S8x2048.ReducesTo [1] S8
  h_S_ : 0 < S_.numel
  bcast_S_S8 : S_.BroadcastsInDim S8 (![] : Fin 0 → Fin S8.rank)
  reducesTo_S8_S_d0 : S8.ReducesTo [0] S_
  reducesTo_S8x2048_S_d0_1 : S8x2048.ReducesTo [0, 1] S_
  bcast_S_S8x2048 : S_.BroadcastsInDim S8x2048 (![] : Fin 0 → Fin S8x2048.rank)
  bcast_S_S1x1 : S_.BroadcastsInDim S1x1 (![] : Fin 0 → Fin S1x1.rank)
  bcast_S1x1_S8x2048_0_1 : S1x1.BroadcastsInDim S8x2048 (![0, 1] : Fin 2 → Fin S8x2048.rank)
  bcast_S_S1 : S_.BroadcastsInDim S1 (![] : Fin 0 → Fin S1.rank)
  concatenates_S1_S1_S1_S1_S1_S1_S6_d0 : Shape.Concatenates [S1, S1, S1, S1, S1, S1] S6 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S8x1x2048.size a
  hwx0_0 : ∀ i : grid0.Coords, EltTy.bits .f32 = 32 ∨ (Rect.block (s := S8x1x2048) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x2048.size a
  hwx0_1 : ∀ i : grid0.Coords, EltTy.bits .f32 = 32 ∨ (Rect.block (s := S8x1x2048) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x2048.size a
  hwx0_4 : ∀ i : grid0.Coords, EltTy.bits .f32 = 32 ∨ (Rect.block (s := S8x1x2048) S1x1x512.size (cc0_transform_4 i) (hinb0_4 i)).WholeWords (EltTy.packing .f32)

variable [Facts₀]

abbrev win0_0 : Pipeline.Window sig grid0 :=
  Pipeline.Window.ofSpec (Memref.whole main_v3) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8 : Shape := ⟨1, ![8]⟩
abbrev S1x1 : Shape := ⟨2, ![1, 1]⟩
abbrev S1 : Shape := ⟨1, ![1]⟩
abbrev S6 : Shape := ⟨1, ![6]⟩

abbrev nBuf : Space → Nat
  | .hbm => 154
  | .vmem => 0
  | .smem => 0
  | _ => 0

abbrev hbmTy0_0 (i : Nat) : BufTy := match i % 128 with
  | 0 => ⟨S8x2048, .f32⟩
  | 1 => ⟨S8x2048, .f32⟩
  | 2 => ⟨S8x2048, .i32⟩
  | 3 => ⟨S8x2048, .f32⟩
  | 4 => ⟨S8x2048, .f32⟩
  | 5 => ⟨S8x2048, .f32⟩
  | 6 => ⟨S8x2048x1, .f32⟩
  | 7 => ⟨S8x1x2048, .f32⟩
  | 8 => ⟨S8x2048x2048, .f32⟩
  | 9 => ⟨S8x2048x2048, .f32⟩
  | 10 => ⟨S8x2048x2048, .f32⟩
  | 11 => ⟨S8x2048x1, .f32⟩
  | 12 => ⟨S8x1x2048, .f32⟩
  | 13 => ⟨S8x2048x2048, .f32⟩
  | 14 => ⟨S8x2048x2048, .f32⟩
  | 15 => ⟨S8x2048x2048, .f32⟩
  | 16 => ⟨S8x2048x2048, .f32⟩
  | 17 => ⟨S8x2048x2048, .f32⟩
  | 18 => ⟨S_, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S2048x2048, .i32⟩
  | 25 => ⟨S2048x2048, .i32⟩
  | 26 => ⟨S_, .i32⟩
  | 27 => ⟨S2048x2048, .i32⟩
  | 28 => ⟨S2048x2048, .i32⟩
  | 29 => ⟨S2048x2048, .i1⟩
  | 30 => ⟨S2048x2048, .f32⟩
  | 31 => ⟨S_, .f32⟩
  | 32 => ⟨S2048x2048, .f32⟩
  | 33 => ⟨S2048x2048, .f32⟩
  | 34 => ⟨S1x2048x2048, .f32⟩
  | 35 => ⟨S8x2048x2048, .f32⟩
  | 36 => ⟨S8x2048x2048, .f32⟩
  | 37 => ⟨S_, .f32⟩
  | 38 => ⟨S8x2048, .f32⟩
  | 39 => ⟨S_, .f32⟩
  | 40 => ⟨S8x2048, .f32⟩
  | 41 => ⟨S8x2048, .f32⟩
  | 42 => ⟨S8x2048, .f32⟩
  | 43 => ⟨S_, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S8x2048, .f32⟩
  | 60 => ⟨S_, .f32⟩
  | 61 => ⟨S_, .f32⟩
  | 62 => ⟨S_, .f32⟩
  | 63 => ⟨S8x2048, .f32⟩
  | 64 => ⟨S_, .f32⟩
  | 65 => ⟨S_, .f32⟩
  | 66 => ⟨S_, .f32⟩
  | 67 => ⟨S8x2048, .f32⟩
  | 68 => ⟨S8x2048, .f32⟩
  | 69 => ⟨S8x2048, .f32⟩
  | 70 => ⟨S8x2048, .f32⟩
  | 71 => ⟨S8x2048, .f32⟩
  | 72 => ⟨S8x2048, .f32⟩
  | 73 => ⟨S8x2048, .f32⟩
  | 74 => ⟨S_, .f32⟩
  | 75 => ⟨S_, .f32⟩
  | 76 => ⟨S8x2048, .f32⟩
  | 77 => ⟨S_, .f32⟩
  | 78 => ⟨S_, .f32⟩
  | 79 => ⟨S8x2048, .f32⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .i32⟩
  | 100 => ⟨S_, .f32⟩
  | 101 => ⟨S_, .f32⟩
  | 102 => ⟨S1x1, .f32⟩
  | 103 => ⟨S_, .f32⟩
  | 104 => ⟨S1x1, .f32⟩
  | 105 => ⟨S1x1, .f32⟩
  | 106 => ⟨S8x2048, .f32⟩
  | 107 => ⟨S8x2048, .f32⟩
  | 108 => ⟨S8x2048, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .i32⟩
  | 126 => ⟨S_, .f32⟩
  | 127 => ⟨S_, .f32⟩
  | _ => ⟨S8x2048, .f32⟩

abbrev hbmTy0_1 (i : Nat) : BufTy := match i % 128 with
  | 0 => ⟨S1x1, .f32⟩
  | 1 => ⟨S_, .f32⟩
  | 2 => ⟨S1x1, .f32⟩
  | 3 => ⟨S1x1, .f32⟩
  | 4 => ⟨S8x2048, .f32⟩
  | 5 => ⟨S8x2048, .f32⟩
  | 6 => ⟨S8x2048, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .i1⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S6, .f32⟩
  | _ => ⟨S8x2048, .f32⟩

abbrev hbmTy (i : Nat) : BufTy := match i / 128 with
  | 0 => hbmTy0_0 i
  | 1 => hbmTy0_1 i
  | _ => ⟨S8x2048, .f32⟩

abbrev bufTy : (tb : Table) → Fin (tcTables nBuf tb) → BufTy
  | .hbm, ⟨i, _⟩ => hbmTy i
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_16 : Ref sig .tc := ⟨.hbm, 84, rfl⟩
abbrev main_v63 : Ref sig .tc := ⟨.hbm, 85, rfl⟩
abbrev main_cst_17 : Ref sig .tc := ⟨.hbm, 86, rfl⟩
abbrev main_call0_v0 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_call1_v0 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_cst_21 : Ref sig .tc := ⟨.hbm, 97, rfl⟩
abbrev main_v69 : Ref sig .tc := ⟨.hbm, 98, rfl⟩
abbrev main_c_22 : Ref sig .tc := ⟨.hbm, 99, rfl⟩
abbrev main_call2_call0_cst : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_call0_cst_0 : Ref sig .tc := ⟨.hbm, 103, rfl⟩
abbrev main_call2_call0_v2 : Ref sig .tc := ⟨.hbm, 104, rfl⟩
abbrev main_call2_call0_v3 : Ref sig .tc := ⟨.hbm, 105, rfl⟩
abbrev main_call2_call0_v4 : Ref sig .tc := ⟨.hbm, 106, rfl⟩
abbrev main_call2_call0_v5 : Ref sig .tc := ⟨.hbm, 107, rfl⟩
abbrev main_call2_call0_v6 : Ref sig .tc := ⟨.hbm, 108, rfl⟩
abbrev main_call2_call0_v7 : Ref sig .tc := ⟨.hbm, 109, rfl⟩
abbrev main_call2_call0_cst_1 : Ref sig .tc := ⟨.hbm, 110, rfl⟩
abbrev main_call2_call0_v8 : Ref sig .tc := ⟨.hbm, 111, rfl⟩
abbrev main_call2_call0_cst_2 : Ref sig .tc := ⟨.hbm, 112, rfl⟩
abbrev main_call2_call0_v9 : Ref sig .tc := ⟨.hbm, 113, rfl⟩
abbrev main_call2_call0_v10 : Ref sig .tc := ⟨.hbm, 114, rfl⟩
abbrev main_call2_call0_cst_3 : Ref sig .tc := ⟨.hbm, 115, rfl⟩
abbrev main_call2_call0_v11 : Ref sig .tc := ⟨.hbm, 116, rfl⟩
abbrev main_call2_call0_cst_4 : Ref sig .tc := ⟨.hbm, 117, rfl⟩
abbrev main_call2_call0_call0_v0 : Ref sig .tc := ⟨.hbm, 118, rfl⟩
abbrev main_call2_v0 : Ref sig .tc := ⟨.hbm, 119, rfl⟩
abbrev main_v70 : Ref sig .tc := ⟨.hbm, 120, rfl⟩
abbrev main_cst_23 : Ref sig .tc := ⟨.hbm, 121, rfl⟩
abbrev main_v71 : Ref sig .tc := ⟨.hbm, 122, rfl⟩
abbrev main_cst_24 : Ref sig .tc := ⟨.hbm, 123, rfl⟩
abbrev main_v72 : Ref sig .tc := ⟨.hbm, 124, rfl⟩
abbrev main_c_25 : Ref sig .tc := ⟨.hbm, 125, rfl⟩
abbrev main_call3_call0_cst : Ref sig .tc := ⟨.hbm, 126, rfl⟩
abbrev main_call3_call0_v0 : Ref sig .tc := ⟨.hbm, 127, rfl⟩
abbrev main_call3_call0_v1 : Ref sig .tc := ⟨.hbm, 128, rfl⟩
abbrev main_call3_call0_cst_0 : Ref sig .tc := ⟨.hbm, 129, rfl⟩
abbrev main_call3_call0_v2 : Ref sig .tc := ⟨.hbm, 130, rfl⟩
abbrev main_call3_call0_v3 : Ref sig .tc := ⟨.hbm, 131, rfl⟩
abbrev main_call3_call0_v4 : Ref sig .tc := ⟨.hbm, 132, rfl⟩
abbrev main_call3_call0_v5 : Ref sig .tc := ⟨.hbm, 133, rfl⟩
abbrev main_call3_call0_v6 : Ref sig .tc := ⟨.hbm, 134, rfl⟩
abbrev main_call3_call0_v7 : Ref sig .tc := ⟨.hbm, 135, rfl⟩
abbrev main_call3_call0_cst_1 : Ref sig .tc := ⟨.hbm, 136, rfl⟩
abbrev main_call3_call0_v8 : Ref sig .tc := ⟨.hbm, 137, rfl⟩
abbrev main_call3_call0_cst_2 : Ref sig .tc := ⟨.hbm, 138, rfl⟩
abbrev main_call3_call0_v9 : Ref sig .tc := ⟨.hbm, 139, rfl⟩
abbrev main_call3_call0_v10 : Ref sig .tc := ⟨.hbm, 140, rfl⟩
abbrev main_call3_call0_cst_3 : Ref sig .tc := ⟨.hbm, 141, rfl⟩
abbrev main_call3_call0_v11 : Ref sig .tc := ⟨.hbm, 142, rfl⟩
abbrev main_call3_call0_cst_4 : Ref sig .tc := ⟨.hbm, 143, rfl⟩
abbrev main_call3_call0_call0_v0 : Ref sig .tc := ⟨.hbm, 144, rfl⟩
abbrev main_call3_v0 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  reducesTo_S8x2048_S8_d1 : S8x2048.ReducesTo [1] S8
  bcast_S_S8 : S_.BroadcastsInDim S8 (![] : Fin 0 → Fin S8.rank)
  reducesTo_S8_S_d0 : S8.ReducesTo [0] S_
  reducesTo_S8x2048_S_d0_1 : S8x2048.ReducesTo [0, 1] S_
  bcast_S_S1x1 : S_.BroadcastsInDim S1x1 (![] : Fin 0 → Fin S1x1.rank)
  bcast_S1x1_S8x2048_0_1 : S1x1.BroadcastsInDim S8x2048 (![0, 1] : Fin 2 → Fin S8x2048.rank)
  bcast_S_S1 : S_.BroadcastsInDim S1 (![] : Fin 0 → Fin S1.rank)
  concatenates_S1_S1_S1_S1_S1_S1_S6_d0 : Shape.Concatenates [S1, S1, S1, S1, S1, S1] S6 0

variable [Facts₀]

class Facts : Prop extends Facts₀ where

variable [Facts]
-- ==== Proof.KBodyB.lean ====
/-
  The pallas_call of this program: a grid of 8 × 4 points; at point (b, q) the body reads a block of 512 query
  entries of each of two [8,1,2048] arrays (windows 0 and 1, block index (b, 0, q)) and the whole 2048-entry key
  row b of the SAME two arrays (windows 2 and 3, block index (b, 0, 0)), and stores one block of 512 results
  (window 4, block index (b, 0, q)). Here: the arrays as the region finds them, each window's block at a point,
  what the body leaves in the output's buffer as a function of the four input blocks, the body's triple, and the
  body obligation of the pipeline's proof data. Two windows read one array, so an input window holds its array at
  HALF the full share: windows 0 and 2 the two halves of the first array, 1 and 3 of the second.
-/
import proofs.«121960_j87024627352243_2_alg».proof.Proof.Gen.Kernel.Launch
import proofs.«121960_j87024627352243_2_alg».proof.Proof.Gen.Kernel.Skeleton
import proofs.«121960_j87024627352243_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The program around its region -/

/-- Core c's buffer contents when the region is entered: the five host operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor

/-- The program reduces to its region continued by the later host operations, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (a window that is not
    fetched at a point has not moved its block index). One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole query block and the whole key row, as rectangles of their buffers. -/
abbrev rq : Rect S1x1x512 := Rect.unit (s := S1x1x512) ![0, 0, 0] S1x1x512.size Gen.inb_S1x1x512_S1x1x512_0_0_0
abbrev rk : Rect S1x1x2048 := Rect.unit (s := S1x1x2048) ![0, 0, 0] S1x1x2048.size Gen.inb_S1x1x2048_S1x1x2048_0_0_0

/-- The output buffer after the body: its one store of the body's arithmetic on the two query blocks and the two key rows. -/
def out4 (x0 x1 : Vec F S1x1x512 .f32) (x2 x3 : Vec F S1x1x2048 .f32) : Vec F S1x1x512 .f32 :=
  View.canon [⟨rq, k0_pay1 (k0_pay2 (View.ld x0 rq) (View.ld x1 rq) (View.ld x2 rk) (View.ld x3 rk))⟩]

/-- The store fills the buffer. -/
theorem cover4 (p0 : Vec F S1x1x512 .f32) (y : S1x1x512.Idx) :
    ∃ pc ∈ ([⟨rq, p0⟩] : List (View.Piece (Elt F) S1x1x512 .f32)), y ∈ pc.1.set :=
  View.cover_of_tiled [⟨rq, p0⟩] S1x1x512.size (by rfl) y

/-! ## The body's triple -/

set_option maxHeartbeats 1000000 in
/-- On whole staging buffers, the four inputs' at contents x0 … x3 and the output's at anything, the body runs to the
    continuation holding the inputs' as they were and the output's at out4 of them. -/
theorem sound_kernel (c : Dev nD) (E : Set ℕ) (i : grid0.Coords)
    (arg2 : Memref sig .tc .vmem S1x1x512 .f32) (harg2 : arg2.IsWhole) (arg3 : Memref sig .tc .vmem S1x1x512 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S1x1x512 .f32) (harg6 : arg6.IsWhole)
    (x0 x1 : Vec F S1x1x512 .f32) (x2 x3 : Vec F S1x1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out4 x0 x1 x2 x3)) -∗ K ⟨⟩))
      ⊢ wp frame (wpE (defs₀ (F := F)) Variants.none c none) E (cc0__hinge_kernel i arg2 harg2 arg3 harg3 arg4 harg4 arg5 harg5 arg6 harg6) K := by
  simp only [cc0__hinge_kernel_eq_skeleton]; unfold cc0__hinge_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data on core c: the arrays as the region finds them; after the body at point t each input's buffer at
    its block and the output's at out4 of the four input blocks; the scoped buffers no window stages pass
    through; nothing owed; the two windows on one array hold its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KExitB.lean ====
/-
  The launch of the program around its one region, for a pipeline in which two windows read one array.
  The three distinct buffers behind the five windows, each whole at the full share, ARE the pipeline's five
  windowed arrays at their shares (each twice-read array split into its two halves), in both directions; with
  that, the region is entered from every unscoped buffer held at the entry contents, and the host operations after
  it run from every unscoped buffer held at the exit contents (the output array as the write-backs left it, every
  other buffer as at entry).
-/
import proofs.«121960_j87024627352243_2_alg».proof.Proof.KBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## Three buffers behind five windows -/

/-- The windows' arrays are three buffers: the two reshaped inputs and the result. -/
theorem arrImage : Finset.univ.image (Pipeline.arrRef spec0) = [main_v3, main_v4, main_v5].toFinset := by decide

/-- A conjunction over the windows' arrays is one over those three buffers. -/
theorem bigSep_arrs {M : Type} [URA M] (Φ : Ref sig .tc → sProp M) :
    bigSep (Finset.univ.image (Pipeline.arrRef spec0)) Φ = iprop(Φ main_v3 ∗ Φ main_v4 ∗ Φ main_v5) :=
  bigSep_eq_bigSepL_of_eq [main_v3, main_v4, main_v5] arrImage (by decide) Φ

theorem share0 (c : Dev nD) : (dats m 0 c).share 0 = fullShare.left := rfl
theorem share1 (c : Dev nD) : (dats m 0 c).share 1 = fullShare.left := rfl
theorem share2 (c : Dev nD) : (dats m 0 c).share 2 = fullShare.right := rfl
theorem share3 (c : Dev nD) : (dats m 0 c).share 3 = fullShare.right := rfl
theorem share4 (c : Dev nD) : (dats m 0 c).share 4 = fullShare := rfl

/-- The three buffers whole at contents W give the five windowed arrays at W: each twice-read buffer splits into halves. -/
theorem arrays_of_bufs (c : Dev nD) (W : (b : Ref sig .tc) → Buf (Elt F) ((c : Thread nD τ).loc b)) :
    (Pipeline.arrBufs spec0 c W : sProp 𝕄) ⊢ (dats m 0 c).arrays (fun w => W (Pipeline.arrRef spec0 w)) := by
  unfold Pipeline.arrBufs Dat.arrays
  rw [bigSep_arrs, bigSep_W0]
  rw [(arr_whole0 0).set_eq_univ, (arr_whole0 1).set_eq_univ, (arr_whole0 4).set_eq_univ,
    share0, share1, share2, share3, share4]
  iintro ⟨H3, H4, H5⟩
  ihave H3' := (pointsTo_share (PosShare.mem_left_op_right fullShare)).1 $$ H3
  icases H3' with ⟨H3l, H3r⟩
  ihave H4' := (pointsTo_share (PosShare.mem_left_op_right fullShare)).1 $$ H4
  icases H4' with ⟨H4l, H4r⟩
  isplitl [H3l]; · iexact H3l
  isplitl [H4l]; · iexact H4l
  isplitl [H3r]; · iexact H3r
  isplitl [H4r]; · iexact H4r
  iexact H5

/-- And back: the halves of one buffer, at one contents, join. -/
theorem bufs_of_arrays (c : Dev nD) (W : (b : Ref sig .tc) → Buf (Elt F) ((c : Thread nD τ).loc b)) :
    (dats m 0 c).arrays (fun w => W (Pipeline.arrRef spec0 w)) ⊢ (Pipeline.arrBufs spec0 c W : sProp 𝕄) := by
  unfold Pipeline.arrBufs Dat.arrays
  rw [bigSep_arrs, bigSep_W0]
  rw [(arr_whole0 0).set_eq_univ, (arr_whole0 1).set_eq_univ, (arr_whole0 4).set_eq_univ,
    share0, share1, share2, share3, share4]
  iintro ⟨H3l, H4l, H3r, H4r, H5⟩
  isplitl [H3l H3r]
  · iapply (pointsTo_share (PosShare.mem_left_op_right fullShare)).2
    isplitl [H3l]; · iexact H3l
    iexact H3r
  isplitl [H4l H4r]
  · iapply (pointsTo_share (PosShare.mem_left_op_right fullShare)).2
    isplitl [H4l]; · iexact H4l
    iexact H4r
  iexact H5

/-! ## The contents at the region's exit and after the later host operations -/

open Classical in
/-- Core c's buffer contents when the region is left: the result array as the write-backs left it, every other
    buffer as at entry. -/
def Wmid (c : Dev nD) : Valuation τ sig (Elt F) :=
  Function.update (V0 m c) (Proc.devRef .tc main_v5) ((dats m 0 c).arrAt 4 cfg0.N)

/-- And after the host operations that follow the region. -/
def Wout (c : Dev nD) : Valuation τ sig (Elt F) := StableHlo.after (tailOps (F := F)).flatten (Wmid m c)

theorem Wmid_v5 (c : Dev nD) : Wmid m c (Proc.devRef .tc main_v5) = (dats m 0 c).arrAt 4 cfg0.N := by
  unfold Wmid; exact Function.update_self ..

theorem Wmid_ne (c : Dev nD) (b : Ref sig .tc) (hb : b ≠ main_v5) : Wmid m c (Proc.devRef .tc b) = V m c b := by
  unfold Wmid; exact Function.update_of_ne (StableHlo.devRef_ne_of_ne hb) _ _

/-- Every window's array at the exit is the exit contents read at its buffer: an input array is never written. -/
theorem arrAt_eq_Wmid (c : Dev nD) : ∀ w : Fin cfg0.W,
    (dats m 0 c).arrAt w cfg0.N = Wmid m c (Proc.devRef .tc (Pipeline.arrRef spec0 w))
  | 0 => ((dats m 0 c).arrAt_in 0 rfl _).trans ((A_eq m c 0).trans (Wmid_ne m c _ (by decide)).symm)
  | 1 => ((dats m 0 c).arrAt_in 1 rfl _).trans ((A_eq m c 1).trans (Wmid_ne m c _ (by decide)).symm)
  | 2 => ((dats m 0 c).arrAt_in 2 rfl _).trans ((A_eq m c 2).trans (Wmid_ne m c _ (by decide)).symm)
  | 3 => ((dats m 0 c).arrAt_in 3 rfl _).trans ((A_eq m c 3).trans (Wmid_ne m c _ (by decide)).symm)
  | 4 => (Wmid_v5 m c).symm
  | ⟨_ + 5, h⟩ => absurd h (Nat.not_lt.2 (Nat.le_add_left _ _))

/-- No host operation after the region writes the first reshaped input, -/
theorem tail_keeps_v3 : ∀ op ∈ (tailOps (F := F)).flatten, Proc.devRef (τ := τ) .tc main_v3 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor the second, -/
theorem tail_keeps_v4 : ∀ op ∈ (tailOps (F := F)).flatten, Proc.devRef (τ := τ) .tc main_v4 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor the region's result, -/
theorem tail_keeps_v5 : ∀ op ∈ (tailOps (F := F)).flatten, Proc.devRef (τ := τ) .tc main_v5 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor an argument of the program. -/
theorem tail_keeps_arg0 : ∀ op ∈ (tailOps (F := F)).flatten, Proc.devRef (τ := τ) .tc main_arg0 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/--  -/
theorem tail_keeps_arg1 : ∀ op ∈ (tailOps (F := F)).flatten, Proc.devRef (τ := τ) .tc main_arg1 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/--  -/
theorem tail_keeps_arg2 : ∀ op ∈ (tailOps (F := F)).flatten, Proc.devRef (τ := τ) .tc main_arg2 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.Kernel.Hand

end
-- ==== Proof.KTailRunB.lean ====
/-
  The host operations after the region run from every unscoped buffer held at the exit contents and hand back the
  windowed arrays and the bypassing buffers; with the body obligation, the entry split of the shared arrays and
  this, the launch theorem for a pipeline whose windows share arrays gives the program's run.
-/
import proofs.«121960_j87024627352243_2_alg».proof.Proof.KExitB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A window's array after the later host operations is as the region left it. -/
theorem Wout_arr (c : Dev nD) : ∀ w : Fin cfg0.W,
    Wout m c (Proc.devRef .tc (Pipeline.arrRef spec0 w)) = (dats m 0 c).arrAt w cfg0.N
  | 0 => (StableHlo.after_of_forall_not_mem _ _ tail_keeps_v3).trans (arrAt_eq_Wmid m c 0).symm
  | 1 => (StableHlo.after_of_forall_not_mem _ _ tail_keeps_v4).trans (arrAt_eq_Wmid m c 1).symm
  | 2 => (StableHlo.after_of_forall_not_mem _ _ tail_keeps_v3).trans (arrAt_eq_Wmid m c 2).symm
  | 3 => (StableHlo.after_of_forall_not_mem _ _ tail_keeps_v4).trans (arrAt_eq_Wmid m c 3).symm
  | 4 => (StableHlo.after_of_forall_not_mem _ _ tail_keeps_v5).trans (arrAt_eq_Wmid m c 4).symm
  | ⟨_ + 5, h⟩ => absurd h (Nat.not_lt.2 (Nat.le_add_left _ _))

/-! ## The host operations after the region -/

/-- What bypasses the region: every unscoped buffer that is no window's array, at the entry contents; -/
abbrev Zin (c : Dev nD) : sProp 𝕄 := Pipeline.unscopedRest spec0 c (V m c)
/-- and after the later host operations. -/
abbrev Zout (c : Dev nD) : sProp 𝕄 := Pipeline.unscopedRest spec0 c (fun b => Wout m c (Proc.devRef .tc b))

/-- A buffer that is no window's array holds at the exit what it held at entry. -/
theorem Zin_eq (c : Dev nD) :
    (Zin m c : sProp 𝕄) = Pipeline.unscopedRest spec0 c (fun b => Wmid m c (Proc.devRef .tc b)) := by
  unfold Pipeline.unscopedRest
  exact bigSep_congr fun b hb => by
    beta_reduce
    rw [Wmid_ne m c b (fun e => (Finset.mem_sdiff.mp hb).2 (Finset.mem_image.mpr ⟨4, Finset.mem_univ _, by subst e; rfl⟩))]

/-- At the region's exit the five windowed arrays and the bypassing buffers are every unscoped buffer, held at the exit contents. -/
theorem enter_tail (c : Dev nD) :
    iprop((dats m 0 c).arrays ((dats m 0 c).arrAt · cfg0.N) ∗ Zin m c)
      ⊢ (StableHlo.held (c.tc : Thread nD τ) (Pipeline.ucRefs τ sig) (Wmid m c) : sProp 𝕄) := by
  have h1 : (dats m 0 c).arrays ((dats m 0 c).arrAt · cfg0.N)
      ⊢ (Pipeline.arrBufs spec0 c (fun b => Wmid m c (Proc.devRef .tc b)) : sProp 𝕄) := by
    have h := bufs_of_arrays m c (fun b => Wmid m c (Proc.devRef .tc b))
    have e : (fun w => (fun b : Ref sig .tc => Wmid m c (Proc.devRef .tc b)) (Pipeline.arrRef spec0 w))
        = ((dats m 0 c).arrAt · cfg0.N) := funext fun w => (arrAt_eq_Wmid m c w).symm
    rw [e] at h
    exact h
  have h2 : (unscopedBufs (Ix := Unit) (Name := ℕ) (U := UR sig nD τ) (Lvl := ℕ) c (fun b => Wmid m c (Proc.devRef .tc b)) : sProp 𝕄)
      = StableHlo.held (c.tc : Thread nD τ) (Pipeline.ucRefs τ sig) (Wmid m c) :=
    Pipeline.unscopedBufs_held (Ix := Unit) (Name := ℕ) (U := UR sig nD τ) (Lvl := ℕ) c (Wmid m c)
  have h3 : (unscopedBufs (Ix := Unit) (Name := ℕ) (U := UR sig nD τ) (Lvl := ℕ) c (fun b => Wmid m c (Proc.devRef .tc b)) : sProp 𝕄)
      = iprop(Pipeline.arrBufs spec0 c (fun b => Wmid m c (Proc.devRef .tc b)) ∗ Pipeline.unscopedRest spec0 c (fun b => Wmid m c (Proc.devRef .tc b))) :=
    Pipeline.unscopedBufs_split₀ (Ix := Unit) (Name := ℕ) (U := UR sig nD τ) (Lvl := ℕ) cfgs 0 winFacts₀0.arr_unscoped c _
  rw [← h2, h3, Zin_eq]
  exact sep_mono h1 .rfl

/-- And after the later host operations every unscoped buffer, held at their contents, is the five windowed arrays as
    the region left them and the bypassing buffers. -/
theorem leave_tail (c : Dev nD) :
    (StableHlo.held (c.tc : Thread nD τ) (Pipeline.ucRefs τ sig) (Wout m c) : sProp 𝕄)
      ⊢ iprop((dats m 0 c).arrays ((dats m 0 c).arrAt · cfg0.N) ∗ Zout m c) := by
  have h1 : (Pipeline.arrBufs spec0 c (fun b => Wout m c (Proc.devRef .tc b)) : sProp 𝕄)
      ⊢ (dats m 0 c).arrays ((dats m 0 c).arrAt · cfg0.N) := by
    have h := arrays_of_bufs m c (fun b => Wout m c (Proc.devRef .tc b))
    have e : (fun w => (fun b : Ref sig .tc => Wout m c (Proc.devRef .tc b)) (Pipeline.arrRef spec0 w))
        = ((dats m 0 c).arrAt · cfg0.N) := funext fun w => Wout_arr m c w
    rw [e] at h
    exact h
  have h2 : (unscopedBufs (Ix := Unit) (Name := ℕ) (U := UR sig nD τ) (Lvl := ℕ) c (fun b => Wout m c (Proc.devRef .tc b)) : sProp 𝕄)
      = StableHlo.held (c.tc : Thread nD τ) (Pipeline.ucRefs τ sig) (Wout m c) :=
    Pipeline.unscopedBufs_held (Ix := Unit) (Name := ℕ) (U := UR sig nD τ) (Lvl := ℕ) c (Wout m c)
  have h3 : (unscopedBufs (Ix := Unit) (Name := ℕ) (U := UR sig nD τ) (Lvl := ℕ) c (fun b => Wout m c (Proc.devRef .tc b)) : sProp 𝕄)
      = iprop(Pipeline.arrBufs spec0 c (fun b => Wout m c (Proc.devRef .tc b)) ∗ Pipeline.unscopedRest spec0 c (fun b => Wout m c (Proc.devRef .tc b))) :=
    Pipeline.unscopedBufs_split₀ (Ix := Unit) (Name := ℕ) (U := UR sig nD τ) (Lvl := ℕ) cfgs 0 winFacts₀0.arr_unscoped c _
  rw [← h2, h3]
  exact sep_mono h1 .rfl

theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem tail_fresh : ∀ op ∈ (tailOps (F := F)).flatten, op.fresh = ∅ :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall]
    repeat' constructor)

set_option backward.isDefEq.respectTransparency.types false in
/-- From the region's exit the later host operations run, within every unscoped buffer, and hand back the five
    windowed arrays as the region left them and the bypassing buffers at what the operations leave. -/
theorem tail_run (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) (defs₀ (F := F))) (Variants.lift Variants.none) (c.tc : Thread nD τ) none) Set.univ
          (Pipeline.chain ((tailOps (F := F)).map StableHlo.seq)) Q' := by
  rw [← List.append_nil ((tailOps (F := F)).map StableHlo.seq)]
  iintro ⟨Hk, Hb, Ha, Hz⟩
  ihave Hh := (enter_tail m c) $$ [Ha Hz]
  · isplitl [Ha]; · iexact Ha
    iexact Hz
  iapply (Pipeline.wp_seqs_then (fun q => Cfg.toPCfg (Val := Elt F) (cfgs q)) defs₀ Variants.none c (Pipeline.ucRefs τ sig) [] tailOps tail_sub
    (fun ops hops op hop => tail_fresh op (List.mem_flatten.mpr ⟨ops, hops, hop⟩)) (Wmid m c)) $$ [Hb Hh]
  · isplitl [Hb]; · iexact Hb
    iexact Hh
  iintro ⟨-, Hh⟩
  rw [Pipeline.chain_nil, wp_pure]
  imodintro
  iapply Hk
  iapply (leave_tail m c)
  iexact Hh

/-! ## The launch's small obligations -/

/-- What is read at the end: every buffer that bypasses the region holds what the later host operations leave. -/
def QY (c : Dev nD) (s : MemSt nD τ sig (Elt F)) : Prop :=
  ∀ b ∈ Pipeline.restRefs sig spec0, s.mem ((c.tc : Thread nD τ).loc b) = Wout m c (Proc.devRef .tc b)

/-- Nothing of the bypassing buffers enters the region's invariant. -/
theorem rest_bypasses (c : Dev nD) :
    (Pipeline.unscopedRestP (Ix := Unit) (Name := ℕ) (U := UR sig nD τ) (Lvl := ℕ) Pipeline.Prefetch.none spec0 c (V m c) : sProp 𝕄)
      ⊢ iprop(emp ∗ Zin m c) := by
  rw [Pipeline.unscopedRestP_none]
  iintro H
  isplitr; · iempintro
  iexact H

/-- The invariant is the scoped buffers no window stages, at both ends of the region. -/
theorem inv_in (c : Dev nD) (P : sProp 𝕄) : iprop(emp ∗ P ∗ Pipeline.scopedRest (Ix := Unit) (Name := ℕ) (U := UR sig nD τ) (Lvl := ℕ) (Val := Elt F) spec0 c) ⊢ (dats m 0 c).Φ 0 := by
  show iprop(emp ∗ P ∗ Pipeline.scopedRest (Ix := Unit) (Name := ℕ) (U := UR sig nD τ) (Lvl := ℕ) (Val := Elt F) spec0 c) ⊢ Pipeline.scopedRest (Ix := Unit) (Name := ℕ) (U := UR sig nD τ) (Lvl := ℕ) (Val := Elt F) spec0 c
  iintro ⟨-, -, H⟩
  iexact H

theorem inv_out (c : Dev nD) : (dats m 0 c).Φ (Fin.last cfg0.N) ⊢ iprop(emp ∗ Pipeline.scopedRest (Ix := Unit) (Name := ℕ) (U := UR sig nD τ) (Lvl := ℕ) (Val := Elt F) spec0 c) := by
  show (Pipeline.scopedRest (Ix := Unit) (Name := ℕ) (U := UR sig nD τ) (Lvl := ℕ) (Val := Elt F) spec0 c : sProp 𝕄) ⊢ iprop(emp ∗ Pipeline.scopedRest (Ix := Unit) (Name := ℕ) (U := UR sig nD τ) (Lvl := ℕ) (Val := Elt F) spec0 c)
  iintro H
  isplitr; · iempintro
  iexact H

/-- The bypassing buffers, held beside the state interpretation of a final state, say what its memory holds there. -/
theorem read_rest (c : Dev nD) (s' : Phys nD τ sig (Elt F)) :
    iprop((emp : sProp 𝕄) ∗ Zout m c ∗ SI s') ⊢ |={Set.univ}=> iprop(⌜QY m c s'.mem⌝ ∗ SI s') := by
  unfold QY
  show iprop((emp : sProp 𝕄) ∗ Pipeline.unscopedRest spec0 c (fun b => Wout m c (Proc.devRef .tc b)) ∗ SI s') ⊢ _
  unfold Pipeline.unscopedRest
  iintro ⟨-, HU, HSI⟩
  imodintro
  iapply (pointsTo_read_all (Pipeline.restRefs sig spec0) (fun b => (c.tc : Thread nD τ).loc b) (fun b => Wout m c (Proc.devRef .tc b)) s')
  isplitl [HU] <;> iassumption

/-! ## The arguments end as launched -/

/-- No host operation before the region writes an argument of the program. -/
theorem head_keeps_arg0 : ∀ op ∈ (List.flatten [hostOps0 (F := F)]), Proc.devRef (τ := τ) .tc main_arg0 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem head_keeps_arg1 : ∀ op ∈ (List.flatten [hostOps0 (F := F)]), Proc.devRef (τ := τ) .tc main_arg1 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem head_keeps_arg2 : ∀ op ∈ (List.flatten [hostOps0 (F := F)]), Proc.devRef (τ := τ) .tc main_arg2 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- So each argument ends as launched: no host operation writes it and it is no window's array. -/
theorem Wout_arg0 (c : Dev nD) : Wout m c (Proc.devRef .tc main_arg0) = m ((c.tc : Thread nD τ).loc main_arg0) :=
  (StableHlo.after_of_forall_not_mem _ _ tail_keeps_arg0).trans
    ((Wmid_ne m c main_arg0 (by decide)).trans (StableHlo.after_of_forall_not_mem _ _ head_keeps_arg0))
theorem Wout_arg1 (c : Dev nD) : Wout m c (Proc.devRef .tc main_arg1) = m ((c.tc : Thread nD τ).loc main_arg1) :=
  (StableHlo.after_of_forall_not_mem _ _ tail_keeps_arg1).trans
    ((Wmid_ne m c main_arg1 (by decide)).trans (StableHlo.after_of_forall_not_mem _ _ head_keeps_arg1))
theorem Wout_arg2 (c : Dev nD) : Wout m c (Proc.devRef .tc main_arg2) = m ((c.tc : Thread nD τ).loc main_arg2) :=
  (StableHlo.after_of_forall_not_mem _ _ tail_keeps_arg2).trans
    ((Wmid_ne m c main_arg2 (by decide)).trans (StableHlo.after_of_forall_not_mem _ _ head_keeps_arg2))

end Cert.Kernel.Hand

end
-- ==== Proof.KRunB.lean ====
/-
  The program's run: the launch theorem for a pipeline whose windows share arrays, from the body obligation, the
  entry split of the shared arrays into half shares, and the run of the host operations after the region.
-/
import proofs.«121960_j87024627352243_2_alg».proof.Proof.KTailRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The launch -/

set_option maxHeartbeats 4000000 in
set_option backward.isDefEq.respectTransparency.types false in
/-- At the compiled mesh, from any memory with zero counters: every weakly fair execution of the program terminates,
    nothing faulting, and the final memory has each window's array as the write-backs left it and every other unscoped
    buffer as the later host operations leave it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N) ∧ QY m c r.2) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main (fun _ => Pipeline.chain ((tailOps (F := F)).map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => arrays_of_bufs m c (V m c))
    (hpf := fun _ k => k.elim0)
    (X := fun _ => iprop(emp)) (Y := fun _ => iprop(emp)) (Z := Zin m) (Z' := Zout m)
    (hX := fun c => rest_bypasses m c)
    (hin := fun c => inv_in m c _)
    (hout := fun c => inv_out m c)
    (htail := fun c Q' => tail_run m c Q')
    (QY := QY m)
    (hY := fun c s' => read_rest m c s')
    (hQ := fun s h c => ⟨(h c).1, (h c).2.2⟩)

/-! ## The arguments end as launched, and the result -/

/-- The program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (Wout_arg0 m c),
     ((h c).2 main_arg1 (Pipeline.mem_restRefs_of main_arg1 (by decide) (by decide))).trans (Wout_arg1 m c),
     ((h c).2 main_arg2 (Pipeline.mem_restRefs_of main_arg2 (by decide) (by decide))).trans (Wout_arg2 m c)⟩) (run_main m ρ)

/-- The program runs; its result buffer ends at what the later host operations leave there, its arguments unchanged. -/
theorem run_out : θ_run defs (onTc (τ := τ) (main (F := F))) ⟨m, fun _ => 0, ρ⟩ (fun r => ∀ c : Dev nD,
      r.2.mem ((c.tc : Thread nD τ).loc main_v54) = Wout m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v54 (Pipeline.mem_restRefs_of main_v54 (by decide) (by decide)),
     ((h c).2 main_arg0 (Pipeline.mem_restRefs_of main_arg0 (by decide) (by decide))).trans (Wout_arg0 m c),
     ((h c).2 main_arg1 (Pipeline.mem_restRefs_of main_arg1 (by decide) (by decide))).trans (Wout_arg1 m c),
     ((h c).2 main_arg2 (Pipeline.mem_restRefs_of main_arg2 (by decide) (by decide))).trans (Wout_arg2 m c)⟩) (run_main m ρ)

end Cert.Kernel.Hand

end
-- ==== Proof.KBodyI.lean ====
/-
  The pallas_call of this program: a grid of 8 × 4 points; at point (b, q) the body reads a block of 512 query
  entries of each of two [8,1,2048] arrays (windows 0 and 1, block index (b, 0, q)) and the whole 2048-entry key
  row b of the SAME two arrays (windows 2 and 3, block index (b, 0, 0)), and stores one block of 512 results
  (window 4, block index (b, 0, q)). Here: the arrays as the region finds them, each window's block at a point,
  what the body leaves in the output's buffer as a function of the four input blocks, the body's triple, and the
  body obligation of the pipeline's proof data. Two windows read one array, so an input window holds its array at
  HALF the full share: windows 0 and 2 the two halves of the first array, 1 and 3 of the second.
-/
import proofs.«121960_j87024627352243_2_alg».proof.Proof.Gen.KernelIdeal.Launch
import proofs.«121960_j87024627352243_2_alg».proof.Proof.Gen.KernelIdeal.Skeleton
import proofs.«121960_j87024627352243_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core c's buffer contents when the region is entered: the five host operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor

/-- The program reduces to its region continued by the later host operations, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (a window that is not
    fetched at a point has not moved its block index). One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole query block and the whole key row, as rectangles of their buffers. -/
abbrev rq : Rect S1x1x512 := Rect.unit (s := S1x1x512) ![0, 0, 0] S1x1x512.size Gen.inb_S1x1x512_S1x1x512_0_0_0
abbrev rk : Rect S1x1x2048 := Rect.unit (s := S1x1x2048) ![0, 0, 0] S1x1x2048.size Gen.inb_S1x1x2048_S1x1x2048_0_0_0

/-- The output buffer after the body: its one store of the body's arithmetic on the two query blocks and the two key rows. -/
def out4 (x0 x1 : Vec F S1x1x512 .f32) (x2 x3 : Vec F S1x1x2048 .f32) : Vec F S1x1x512 .f32 :=
  View.canon [⟨rq, k0_pay1 (k0_pay2 (View.ld x0 rq) (View.ld x1 rq) (View.ld x2 rk) (View.ld x3 rk))⟩]

/-- The store fills the buffer. -/
theorem cover4 (p0 : Vec F S1x1x512 .f32) (y : S1x1x512.Idx) :
    ∃ pc ∈ ([⟨rq, p0⟩] : List (View.Piece (Elt F) S1x1x512 .f32)), y ∈ pc.1.set :=
  View.cover_of_tiled [⟨rq, p0⟩] S1x1x512.size (by rfl) y

/-! ## The body's triple -/

set_option maxHeartbeats 1000000 in
/-- On whole staging buffers, the four inputs' at contents x0 … x3 and the output's at anything, the body runs to the
    continuation holding the inputs' as they were and the output's at out4 of them. -/
theorem sound_kernel (c : Dev nD) (E : Set ℕ) (i : grid0.Coords)
    (arg2 : Memref sig .tc .vmem S1x1x512 .f32) (harg2 : arg2.IsWhole) (arg3 : Memref sig .tc .vmem S1x1x512 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S1x1x512 .f32) (harg6 : arg6.IsWhole)
    (x0 x1 : Vec F S1x1x512 .f32) (x2 x3 : Vec F S1x1x2048 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out4 x0 x1 x2 x3)) -∗ K ⟨⟩))
      ⊢ wp frame (wpE (defs₀ (F := F)) Variants.none c none) E (cc0__hinge_kernel i arg2 harg2 arg3 harg3 arg4 harg4 arg5 harg5 arg6 harg6) K := by
  simp only [cc0__hinge_kernel_eq_skeleton]; unfold cc0__hinge_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data on core c: the arrays as the region finds them; after the body at point t each input's buffer at
    its block and the output's at out4 of the four input blocks; the scoped buffers no window stages pass
    through; nothing owed; the two windows on one array hold its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KExitI.lean ====
/-
  The launch of the program around its one region, for a pipeline in which two windows read one array.
  The three distinct buffers behind the five windows, each whole at the full share, ARE the pipeline's five
  windowed arrays at their shares (each twice-read array split into its two halves), in both directions; with
  that, the region is entered from every unscoped buffer held at the entry contents, and the host operations after
  it run from every unscoped buffer held at the exit contents (the output array as the write-backs left it, every
  other buffer as at entry).
-/
import proofs.«121960_j87024627352243_2_alg».proof.Proof.KBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Three buffers behind five windows -/

/-- The windows' arrays are three buffers: the two reshaped inputs and the result. -/
theorem arrImage : Finset.univ.image (Pipeline.arrRef spec0) = [main_v3, main_v4, main_v5].toFinset := by decide

/-- A conjunction over the windows' arrays is one over those three buffers. -/
theorem bigSep_arrs {M : Type} [URA M] (Φ : Ref sig .tc → sProp M) :
    bigSep (Finset.univ.image (Pipeline.arrRef spec0)) Φ = iprop(Φ main_v3 ∗ Φ main_v4 ∗ Φ main_v5) :=
  bigSep_eq_bigSepL_of_eq [main_v3, main_v4, main_v5] arrImage (by decide) Φ

theorem share0 (c : Dev nD) : (dats m 0 c).share 0 = fullShare.left := rfl
theorem share1 (c : Dev nD) : (dats m 0 c).share 1 = fullShare.left := rfl
theorem share2 (c : Dev nD) : (dats m 0 c).share 2 = fullShare.right := rfl
theorem share3 (c : Dev nD) : (dats m 0 c).share 3 = fullShare.right := rfl
theorem share4 (c : Dev nD) : (dats m 0 c).share 4 = fullShare := rfl

/-- The three buffers whole at contents W give the five windowed arrays at W: each twice-read buffer splits into halves. -/
theorem arrays_of_bufs (c : Dev nD) (W : (b : Ref sig .tc) → Buf (Elt F) ((c : Thread nD τ).loc b)) :
    (Pipeline.arrBufs spec0 c W : sProp 𝕄) ⊢ (dats m 0 c).arrays (fun w => W (Pipeline.arrRef spec0 w)) := by
  unfold Pipeline.arrBufs Dat.arrays
  rw [bigSep_arrs, bigSep_W0]
  rw [(arr_whole0 0).set_eq_univ, (arr_whole0 1).set_eq_univ, (arr_whole0 4).set_eq_univ,
    share0, share1, share2, share3, share4]
  iintro ⟨H3, H4, H5⟩
  ihave H3' := (pointsTo_share (PosShare.mem_left_op_right fullShare)).1 $$ H3
  icases H3' with ⟨H3l, H3r⟩
  ihave H4' := (pointsTo_share (PosShare.mem_left_op_right fullShare)).1 $$ H4
  icases H4' with ⟨H4l, H4r⟩
  isplitl [H3l]; · iexact H3l
  isplitl [H4l]; · iexact H4l
  isplitl [H3r]; · iexact H3r
  isplitl [H4r]; · iexact H4r
  iexact H5

/-- And back: the halves of one buffer, at one contents, join. -/
theorem bufs_of_arrays (c : Dev nD) (W : (b : Ref sig .tc) → Buf (Elt F) ((c : Thread nD τ).loc b)) :
    (dats m 0 c).arrays (fun w => W (Pipeline.arrRef spec0 w)) ⊢ (Pipeline.arrBufs spec0 c W : sProp 𝕄) := by
  unfold Pipeline.arrBufs Dat.arrays
  rw [bigSep_arrs, bigSep_W0]
  rw [(arr_whole0 0).set_eq_univ, (arr_whole0 1).set_eq_univ, (arr_whole0 4).set_eq_univ,
    share0, share1, share2, share3, share4]
  iintro ⟨H3l, H4l, H3r, H4r, H5⟩
  isplitl [H3l H3r]
  · iapply (pointsTo_share (PosShare.mem_left_op_right fullShare)).2
    isplitl [H3l]; · iexact H3l
    iexact H3r
  isplitl [H4l H4r]
  · iapply (pointsTo_share (PosShare.mem_left_op_right fullShare)).2
    isplitl [H4l]; · iexact H4l
    iexact H4r
  iexact H5

/-! ## The contents at the region's exit and after the later host operations -/

open Classical in
/-- Core c's buffer contents when the region is left: the result array as the write-backs left it, every other
    buffer as at entry. -/
def Wmid (c : Dev nD) : Valuation τ sig (Elt F) :=
  Function.update (V0 m c) (Proc.devRef .tc main_v5) ((dats m 0 c).arrAt 4 cfg0.N)

/-- And after the host operations that follow the region. -/
def Wout (c : Dev nD) : Valuation τ sig (Elt F) := StableHlo.after (tailOps (F := F)).flatten (Wmid m c)

theorem Wmid_v5 (c : Dev nD) : Wmid m c (Proc.devRef .tc main_v5) = (dats m 0 c).arrAt 4 cfg0.N := by
  unfold Wmid; exact Function.update_self ..

theorem Wmid_ne (c : Dev nD) (b : Ref sig .tc) (hb : b ≠ main_v5) : Wmid m c (Proc.devRef .tc b) = V m c b := by
  unfold Wmid; exact Function.update_of_ne (StableHlo.devRef_ne_of_ne hb) _ _

/-- Every window's array at the exit is the exit contents read at its buffer: an input array is never written. -/
theorem arrAt_eq_Wmid (c : Dev nD) : ∀ w : Fin cfg0.W,
    (dats m 0 c).arrAt w cfg0.N = Wmid m c (Proc.devRef .tc (Pipeline.arrRef spec0 w))
  | 0 => ((dats m 0 c).arrAt_in 0 rfl _).trans ((A_eq m c 0).trans (Wmid_ne m c _ (by decide)).symm)
  | 1 => ((dats m 0 c).arrAt_in 1 rfl _).trans ((A_eq m c 1).trans (Wmid_ne m c _ (by decide)).symm)
  | 2 => ((dats m 0 c).arrAt_in 2 rfl _).trans ((A_eq m c 2).trans (Wmid_ne m c _ (by decide)).symm)
  | 3 => ((dats m 0 c).arrAt_in 3 rfl _).trans ((A_eq m c 3).trans (Wmid_ne m c _ (by decide)).symm)
  | 4 => (Wmid_v5 m c).symm
  | ⟨_ + 5, h⟩ => absurd h (Nat.not_lt.2 (Nat.le_add_left _ _))

/-- No host operation after the region writes the first reshaped input, -/
theorem tail_keeps_v3 : ∀ op ∈ (tailOps (F := F)).flatten, Proc.devRef (τ := τ) .tc main_v3 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor the second, -/
theorem tail_keeps_v4 : ∀ op ∈ (tailOps (F := F)).flatten, Proc.devRef (τ := τ) .tc main_v4 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor the region's result, -/
theorem tail_keeps_v5 : ∀ op ∈ (tailOps (F := F)).flatten, Proc.devRef (τ := τ) .tc main_v5 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- nor an argument of the program. -/
theorem tail_keeps_arg0 : ∀ op ∈ (tailOps (F := F)).flatten, Proc.devRef (τ := τ) .tc main_arg0 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/--  -/
theorem tail_keeps_arg1 : ∀ op ∈ (tailOps (F := F)).flatten, Proc.devRef (τ := τ) .tc main_arg1 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/--  -/
theorem tail_keeps_arg2 : ∀ op ∈ (tailOps (F := F)).flatten, Proc.devRef (τ := τ) .tc main_arg2 ∉ op.writes :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.KernelIdeal.Hand

end
-- ==== Proof.KTailRunI.lean ====
/-
  The host operations after the region run from every unscoped buffer held at the exit contents and hand back the
  windowed arrays and the bypassing buffers; with the body obligation, the entry split of the shared arrays and
  this, the launch theorem for a pipeline whose windows share arrays gives the program's run.
-/
import proofs.«121960_j87024627352243_2_alg».proof.Proof.KExitI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array after the later host operations is as the region left it. -/
theorem Wout_arr (c : Dev nD) : ∀ w : Fin cfg0.W,
    Wout m c (Proc.devRef .tc (Pipeline.arrRef spec0 w)) = (dats m 0 c).arrAt w cfg0.N
  | 0 => (StableHlo.after_of_forall_not_mem _ _ tail_keeps_v3).trans (arrAt_eq_Wmid m c 0).symm
  | 1 => (StableHlo.after_of_forall_not_mem _ _ tail_keeps_v4).trans (arrAt_eq_Wmid m c 1).symm
  | 2 => (StableHlo.after_of_forall_not_mem _ _ tail_keeps_v3).trans (arrAt_eq_Wmid m c 2).symm
  | 3 => (StableHlo.after_of_forall_not_mem _ _ tail_keeps_v4).trans (arrAt_eq_Wmid m c 3).symm
  | 4 => (StableHlo.after_of_forall_not_mem _ _ tail_keeps_v5).trans (arrAt_eq_Wmid m c 4).symm
  | ⟨_ + 5, h⟩ => absurd h (Nat.not_lt.2 (Nat.le_add_left _ _))

/-! ## The host operations after the region -/

/-- What bypasses the region: every unscoped buffer that is no window's array, at the entry contents; -/
abbrev Zin (c : Dev nD) : sProp 𝕄 := Pipeline.unscopedRest spec0 c (V m c)
/-- and after the later host operations. -/
abbrev Zout (c : Dev nD) : sProp 𝕄 := Pipeline.unscopedRest spec0 c (fun b => Wout m c (Proc.devRef .tc b))

/-- A buffer that is no window's array holds at the exit what it held at entry. -/
theorem Zin_eq (c : Dev nD) :
    (Zin m c : sProp 𝕄) = Pipeline.unscopedRest spec0 c (fun b => Wmid m c (Proc.devRef .tc b)) := by
  unfold Pipeline.unscopedRest
  exact bigSep_congr fun b hb => by
    beta_reduce
    rw [Wmid_ne m c b (fun e => (Finset.mem_sdiff.mp hb).2 (Finset.mem_image.mpr ⟨4, Finset.mem_univ _, by subst e; rfl⟩))]

/-- At the region's exit the five windowed arrays and the bypassing buffers are every unscoped buffer, held at the exit contents. -/
theorem enter_tail (c : Dev nD) :
    iprop((dats m 0 c).arrays ((dats m 0 c).arrAt · cfg0.N) ∗ Zin m c)
      ⊢ (StableHlo.held (c.tc : Thread nD τ) (Pipeline.ucRefs τ sig) (Wmid m c) : sProp 𝕄) := by
  have h1 : (dats m 0 c).arrays ((dats m 0 c).arrAt · cfg0.N)
      ⊢ (Pipeline.arrBufs spec0 c (fun b => Wmid m c (Proc.devRef .tc b)) : sProp 𝕄) := by
    have h := bufs_of_arrays m c (fun b => Wmid m c (Proc.devRef .tc b))
    have e : (fun w => (fun b : Ref sig .tc => Wmid m c (Proc.devRef .tc b)) (Pipeline.arrRef spec0 w))
        = ((dats m 0 c).arrAt · cfg0.N) := funext fun w => (arrAt_eq_Wmid m c w).symm
    rw [e] at h
    exact h
  have h2 : (unscopedBufs (Ix := Unit) (Name := ℕ) (U := UR sig nD τ) (Lvl := ℕ) c (fun b => Wmid m c (Proc.devRef .tc b)) : sProp 𝕄)
      = StableHlo.held (c.tc : Thread nD τ) (Pipeline.ucRefs τ sig) (Wmid m c) :=
    Pipeline.unscopedBufs_held (Ix := Unit) (Name := ℕ) (U := UR sig nD τ) (Lvl := ℕ) c (Wmid m c)
  have h3 : (unscopedBufs (Ix := Unit) (Name := ℕ) (U := UR sig nD τ) (Lvl := ℕ) c (fun b => Wmid m c (Proc.devRef .tc b)) : sProp 𝕄)
      = iprop(Pipeline.arrBufs spec0 c (fun b => Wmid m c (Proc.devRef .tc b)) ∗ Pipeline.unscopedRest spec0 c (fun b => Wmid m c (Proc.devRef .tc b))) :=
    Pipeline.unscopedBufs_split₀ (Ix := Unit) (Name := ℕ) (U := UR sig nD τ) (Lvl := ℕ) cfgs 0 winFacts₀0.arr_unscoped c _
  rw [← h2, h3, Zin_eq]
  exact sep_mono h1 .rfl

/-- And after the later host operations every unscoped buffer, held at their contents, is the five windowed arrays as
    the region left them and the bypassing buffers. -/
theorem leave_tail (c : Dev nD) :
    (StableHlo.held (c.tc : Thread nD τ) (Pipeline.ucRefs τ sig) (Wout m c) : sProp 𝕄)
      ⊢ iprop((dats m 0 c).arrays ((dats m 0 c).arrAt · cfg0.N) ∗ Zout m c) := by
  have h1 : (Pipeline.arrBufs spec0 c (fun b => Wout m c (Proc.devRef .tc b)) : sProp 𝕄)
      ⊢ (dats m 0 c).arrays ((dats m 0 c).arrAt · cfg0.N) := by
    have h := arrays_of_bufs m c (fun b => Wout m c (Proc.devRef .tc b))
    have e : (fun w => (fun b : Ref sig .tc => Wout m c (Proc.devRef .tc b)) (Pipeline.arrRef spec0 w))
        = ((dats m 0 c).arrAt · cfg0.N) := funext fun w => Wout_arr m c w
    rw [e] at h
    exact h
  have h2 : (unscopedBufs (Ix := Unit) (Name := ℕ) (U := UR sig nD τ) (Lvl := ℕ) c (fun b => Wout m c (Proc.devRef .tc b)) : sProp 𝕄)
      = StableHlo.held (c.tc : Thread nD τ) (Pipeline.ucRefs τ sig) (Wout m c) :=
    Pipeline.unscopedBufs_held (Ix := Unit) (Name := ℕ) (U := UR sig nD τ) (Lvl := ℕ) c (Wout m c)
  have h3 : (unscopedBufs (Ix := Unit) (Name := ℕ) (U := UR sig nD τ) (Lvl := ℕ) c (fun b => Wout m c (Proc.devRef .tc b)) : sProp 𝕄)
      = iprop(Pipeline.arrBufs spec0 c (fun b => Wout m c (Proc.devRef .tc b)) ∗ Pipeline.unscopedRest spec0 c (fun b => Wout m c (Proc.devRef .tc b))) :=
    Pipeline.unscopedBufs_split₀ (Ix := Unit) (Name := ℕ) (U := UR sig nD τ) (Lvl := ℕ) cfgs 0 winFacts₀0.arr_unscoped c _
  rw [← h2, h3]
  exact sep_mono h1 .rfl

theorem tail_sub : ∀ ops ∈ (tailOps : List (List (HloOp τ sig (Elt F)))), ∀ op ∈ ops, op.bufs ⊆ Pipeline.ucRefs τ sig := by
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem tail_fresh : ∀ op ∈ (tailOps (F := F)).flatten, op.fresh = ∅ :=
  List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall]
    repeat' constructor)

set_option backward.isDefEq.respectTransparency.types false in
/-- From the region's exit the later host operations run, within every unscoped buffer, and hand back the five
    windowed arrays as the region left them and the bypassing buffers at what the operations leave. -/
theorem tail_run (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) (defs₀ (F := F))) (Variants.lift Variants.none) (c.tc : Thread nD τ) none) Set.univ
          (Pipeline.chain ((tailOps (F := F)).map StableHlo.seq)) Q' := by
  rw [← List.append_nil ((tailOps (F := F)).map StableHlo.seq)]
  iintro ⟨Hk, Hb, Ha, Hz⟩
  ihave Hh := (enter_tail m c) $$ [Ha Hz]
  · isplitl [Ha]; · iexact Ha
    iexact Hz
  iapply (Pipeline.wp_seqs_then (fun q => Cfg.toPCfg (Val := Elt F) (cfgs q)) defs₀ Variants.none c (Pipeline.ucRefs τ sig) [] tailOps tail_sub
    (fun ops hops op hop => tail_fresh op (List.mem_flatten.mpr ⟨ops, hops, hop⟩)) (Wmid m c)) $$ [Hb Hh]
  · isplitl [Hb]; · iexact Hb
    iexact Hh
  iintro ⟨-, Hh⟩
  rw [Pipeline.chain_nil, wp_pure]
  imodintro
  iapply Hk
  iapply (leave_tail m c)
  iexact Hh

/-! ## The launch's small obligations -/

/-- What is read at the end: every buffer that bypasses the region holds what the later host operations leave. -/
def QY (c : Dev nD) (s : MemSt nD τ sig (Elt F)) : Prop :=
  ∀ b ∈ Pipeline.restRefs sig spec0, s.mem ((c.tc : Thread nD τ).loc b) = Wout m c (Proc.devRef .tc b)

/-- Nothing of the bypassing buffers enters the region's invariant. -/
theorem rest_bypasses (c : Dev nD) :
    (Pipeline.unscopedRestP (Ix := Unit) (Name := ℕ) (U := UR sig nD τ) (Lvl := ℕ) Pipeline.Prefetch.none spec0 c (V m c) : sProp 𝕄)
      ⊢ iprop(emp ∗ Zin m c) := by
  rw [Pipeline.unscopedRestP_none]
  iintro H
  isplitr; · iempintro
  iexact H

/-- The invariant is the scoped buffers no window stages, at both ends of the region. -/
theorem inv_in (c : Dev nD) (P : sProp 𝕄) : iprop(emp ∗ P ∗ Pipeline.scopedRest (Ix := Unit) (Name := ℕ) (U := UR sig nD τ) (Lvl := ℕ) (Val := Elt F) spec0 c) ⊢ (dats m 0 c).Φ 0 := by
  show iprop(emp ∗ P ∗ Pipeline.scopedRest (Ix := Unit) (Name := ℕ) (U := UR sig nD τ) (Lvl := ℕ) (Val := Elt F) spec0 c) ⊢ Pipeline.scopedRest (Ix := Unit) (Name := ℕ) (U := UR sig nD τ) (Lvl := ℕ) (Val := Elt F) spec0 c
  iintro ⟨-, -, H⟩
  iexact H

theorem inv_out (c : Dev nD) : (dats m 0 c).Φ (Fin.last cfg0.N) ⊢ iprop(emp ∗ Pipeline.scopedRest (Ix := Unit) (Name := ℕ) (U := UR sig nD τ) (Lvl := ℕ) (Val := Elt F) spec0 c) := by
  show (Pipeline.scopedRest (Ix := Unit) (Name := ℕ) (U := UR sig nD τ) (Lvl := ℕ) (Val := Elt F) spec0 c : sProp 𝕄) ⊢ iprop(emp ∗ Pipeline.scopedRest (Ix := Unit) (Name := ℕ) (U := UR sig nD τ) (Lvl := ℕ) (Val := Elt F) spec0 c)
  iintro H
  isplitr; · iempintro
  iexact H

/-- The bypassing buffers, held beside the state interpretation of a final state, say what its memory holds there. -/
theorem read_rest (c : Dev nD) (s' : Phys nD τ sig (Elt F)) :
    iprop((emp : sProp 𝕄) ∗ Zout m c ∗ SI s') ⊢ |={Set.univ}=> iprop(⌜QY m c s'.mem⌝ ∗ SI s') := by
  unfold QY
  show iprop((emp : sProp 𝕄) ∗ Pipeline.unscopedRest spec0 c (fun b => Wout m c (Proc.devRef .tc b)) ∗ SI s') ⊢ _
  unfold Pipeline.unscopedRest
  iintro ⟨-, HU, HSI⟩
  imodintro
  iapply (pointsTo_read_all (Pipeline.restRefs sig spec0) (fun b => (c.tc : Thread nD τ).loc b) (fun b => Wout m c (Proc.devRef .tc b)) s')
  isplitl [HU] <;> iassumption

/-! ## The arguments end as launched -/

/-- No host operation before the region writes an argument of the program. -/
theorem head_keeps_arg0 : ∀ op ∈ (List.flatten [hostOps0 (F := F)]), Proc.devRef (τ := τ) .tc main_arg0 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem head_keeps_arg1 : ∀ op ∈ (List.flatten [hostOps0 (F := F)]), Proc.devRef (τ := τ) .tc main_arg1 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem head_keeps_arg2 : ∀ op ∈ (List.flatten [hostOps0 (F := F)]), Proc.devRef (τ := τ) .tc main_arg2 ∉ op.writes :=
  List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- So each argument ends as launched: no host operation writes it and it is no window's array. -/
theorem Wout_arg0 (c : Dev nD) : Wout m c (Proc.devRef .tc main_arg0) = m ((c.tc : Thread nD τ).loc main_arg0) :=
  (StableHlo.after_of_forall_not_mem _ _ tail_keeps_arg0).trans
    ((Wmid_ne m c main_arg0 (by decide)).trans (StableHlo.after_of_forall_not_mem _ _ head_keeps_arg0))
theorem Wout_arg1 (c : Dev nD) : Wout m c (Proc.devRef .tc main_arg1) = m ((c.tc : Thread nD τ).loc main_arg1) :=
  (StableHlo.after_of_forall_not_mem _ _ tail_keeps_arg1).trans
    ((Wmid_ne m c main_arg1 (by decide)).trans (StableHlo.after_of_forall_not_mem _ _ head_keeps_arg1))
theorem Wout_arg2 (c : Dev nD) : Wout m c (Proc.devRef .tc main_arg2) = m ((c.tc : Thread nD τ).loc main_arg2) :=
  (StableHlo.after_of_forall_not_mem _ _ tail_keeps_arg2).trans
    ((Wmid_ne m c main_arg2 (by decide)).trans (StableHlo.after_of_forall_not_mem _ _ head_keeps_arg2))

end Cert.KernelIdeal.Hand

end
-- ==== Proof.KRunI.lean ====
/-
  The program's run: the launch theorem for a pipeline whose windows share arrays, from the body obligation, the
  entry split of the shared arrays into half shares, and the run of the host operations after the region.
-/
import proofs.«121960_j87024627352243_2_alg».proof.Proof.KTailRunI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

set_option maxHeartbeats 4000000 in
set_option backward.isDefEq.respectTransparency.types false in
/-- At the compiled mesh, from any memory with zero counters: every weakly fair execution of the program terminates,
    nothing faulting, and the final memory has each window's array as the write-backs left it and every other unscoped
    buffer as the later host operations leave it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N) ∧ QY m c r.2) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main (fun _ => Pipeline.chain ((tailOps (F := F)).map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := fun c => arrays_of_bufs m c (V m c))
    (hpf := fun _ k => k.elim0)
    (X := fun _ => iprop(emp)) (Y := fun _ => iprop(emp)) (Z := Zin m) (Z' := Zout m)
    (hX := fun c => rest_bypasses m c)
    (hin := fun c => inv_in m c _)
    (hout := fun c => inv_out m c)
    (htail := fun c Q' => tail_run m c Q')
    (QY := QY m)
    (hY := fun c s' => read_rest m c s')
    (hQ := fun s h c => ⟨(h c).1, (h c).2.2⟩)

/-! ## The arguments end as launched, and the result -/

/-- The program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (Wout_arg0 m c),
     ((h c).2 main_arg1 (Pipeline.mem_restRefs_of main_arg1 (by decide) (by decide))).trans (Wout_arg1 m c),
     ((h c).2 main_arg2 (Pipeline.mem_restRefs_of main_arg2 (by decide) (by decide))).trans (Wout_arg2 m c)⟩) (run_main m ρ)

/-- The program runs; its result buffer ends at what the later host operations leave there, its arguments unchanged. -/
theorem run_out : θ_run defs (onTc (τ := τ) (main (F := F))) ⟨m, fun _ => 0, ρ⟩ (fun r => ∀ c : Dev nD,
      r.2.mem ((c.tc : Thread nD τ).loc main_v54) = Wout m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v54 (Pipeline.mem_restRefs_of main_v54 (by decide) (by decide)),
     ((h c).2 main_arg0 (Pipeline.mem_restRefs_of main_arg0 (by decide) (by decide))).trans (Wout_arg0 m c),
     ((h c).2 main_arg1 (Pipeline.mem_restRefs_of main_arg1 (by decide) (by decide))).trans (Wout_arg1 m c),
     ((h c).2 main_arg2 (Pipeline.mem_restRefs_of main_arg2 (by decide) (by decide))).trans (Wout_arg2 m c)⟩) (run_main m ρ)

end Cert.KernelIdeal.Hand

end
-- ==== Proof.RefSpec.lean ====
/-
  The reference program's arithmetic as pure terms of its inputs: the per-token hinge loss
  (the all-pairs hinge summed over the off-diagonal keys, divided by 2047) and the statistics
  both programs compute from it. Every line is one printed operation, with the printed side
  conditions and the printed order of operands.
-/
import proofs.«121960_j87024627352243_2_alg».proof.ReferenceIdeal
import Idealize.ShloMosaic.PureOps

noncomputable section

namespace Cert.Hinge

open Idealize.ShloMosaic Cert.ReferenceIdeal

variable {F : FTy → Type} [FloatOps F]
variable [Cert.ReferenceIdeal.Facts]
open Cert.ReferenceIdeal.Facts₀ Cert.ReferenceIdeal.Facts

/-- The reference's per-token loss: with dv[b,i,j] = vm[b,i] − vm[b,j] and dr[b,i,j] = rm[b,i] − rm[b,j],
    L'[b,i] = (0 + Σ_j max(M − dv·sign(dr), 0)·(1 − [i = j])) / 2047. -/
noncomputable def lossRef (vm rm : FVec F S8x2048 .f32) : FVec F S8x2048 .f32 :=
  have v3 : FVec F S8x2048x1 .f32 := broadcastInDim S8x2048x1 ![0, 1] bcast_S8x2048_S8x2048x1_0_1 rm
  have v4 : FVec F S8x1x2048 .f32 := broadcastInDim S8x1x2048 ![0, 2] bcast_S8x2048_S8x1x2048_0_2 rm
  have v5 : FVec F S8x2048x2048 .f32 := broadcastInDim S8x2048x2048 ![0, 1, 2] bcast_S8x2048x1_S8x2048x2048_0_1_2 v3
  have v6 : FVec F S8x2048x2048 .f32 := broadcastInDim S8x2048x2048 ![0, 1, 2] bcast_S8x1x2048_S8x2048x2048_0_1_2 v4
  have v7 : FVec F S8x2048x2048 .f32 := subf v5 v6
  have v8 : FVec F S8x2048x1 .f32 := broadcastInDim S8x2048x1 ![0, 1] bcast_S8x2048_S8x2048x1_0_1 vm
  have v9 : FVec F S8x1x2048 .f32 := broadcastInDim S8x1x2048 ![0, 2] bcast_S8x2048_S8x1x2048_0_2 vm
  have v10 : FVec F S8x2048x2048 .f32 := broadcastInDim S8x2048x2048 ![0, 1, 2] bcast_S8x2048x1_S8x2048x2048_0_1_2 v8
  have v11 : FVec F S8x2048x2048 .f32 := broadcastInDim S8x2048x2048 ![0, 1, 2] bcast_S8x1x2048_S8x2048x2048_0_1_2 v9
  have v12 : FVec F S8x2048x2048 .f32 := subf v10 v11
  have v13 : FVec F S8x2048x2048 .f32 := Host.sign v7
  have v14 : FVec F S8x2048x2048 .f32 := mulf v12 v13
  have cst : FVec F S_ .f32 := constant S_ .f32 0x3DCCCCCD#32
  have v15 : FVec F S8x2048x2048 .f32 := broadcastInDim S8x2048x2048 ![] bcast_S_S8x2048x2048 cst
  have v16 : FVec F S8x2048x2048 .f32 := subf v15 v14
  have cst_0 : FVec F S_ .f32 := constant S_ .f32 0x00000000#32
  have v17 : FVec F S8x2048x2048 .f32 := broadcastInDim S8x2048x2048 ![] bcast_S_S8x2048x2048 cst_0
  have v18 : FVec F S8x2048x2048 .f32 := maximumf v16 v17
  have v19 : IVec S2048x2048 32 := iotaInDim S2048x2048 32 0
  have v20 : IVec S2048x2048 32 := iotaInDim S2048x2048 32 1
  have c : IVec S_ 32 := constantI S_ 32 0#32
  have v21 : IVec S2048x2048 32 := broadcastInDim S2048x2048 ![] bcast_S_S2048x2048 c
  have v22 : IVec S2048x2048 32 := addi v19 v21
  have v23 : IVec S2048x2048 1 := cmpi .eq v22 v20
  have v24 : FVec F S2048x2048 .f32 := uitofp .f32 v23
  have cst_1 : FVec F S_ .f32 := constant S_ .f32 0x3F800000#32
  have v25 : FVec F S2048x2048 .f32 := broadcastInDim S2048x2048 ![] bcast_S_S2048x2048 cst_1
  have v26 : FVec F S2048x2048 .f32 := subf v25 v24
  have v27 : FVec F S1x2048x2048 .f32 := broadcastInDim S1x2048x2048 ![1, 2] bcast_S2048x2048_S1x2048x2048_1_2 v26
  have v28 : FVec F S8x2048x2048 .f32 := broadcastInDim S8x2048x2048 ![0, 1, 2] bcast_S1x2048x2048_S8x2048x2048_0_1_2 v27
  have v29 : FVec F S8x2048x2048 .f32 := mulf v18 v28
  have cst_2 : FVec F S_ .f32 := constant S_ .f32 0x00000000#32
  have v30 : FVec F S8x2048 .f32 := Host.reduceAdd v29 cst_2 reducesTo_S8x2048x2048_S8x2048_d2 h_S_
  have cst_3 : FVec F S_ .f32 := constant S_ .f32 0x44FFE000#32
  have v31 : FVec F S8x2048 .f32 := broadcastInDim S8x2048 ![] bcast_S_S8x2048 cst_3
  have v32 : FVec F S8x2048 .f32 := Host.divf v30 v31
  v32

/-- The unbiased standard deviation the reference's outlined functions compute of one array:
    sqrt( select(n−1 > 0, Σ (x − Σx/n)² / (n − 1), NaN) ) with n the word 16384.0 and the 1 an i32 converted. -/
noncomputable def stdFn (x : FVec F S8x2048 .f32) : FVec F S_ .f32 :=
  have c1 : IVec S_ 32 := constantI S_ 32 1#32
  have cst : FVec F S_ .f32 := constant S_ .f32 0x00000000#32
  have v0 : FVec F S_ .f32 := Host.reduceAdd x cst reducesTo_S8x2048_S_d0_1 h_S_
  have v1 : FVec F S1x1 .f32 := broadcastInDim S1x1 ![] bcast_S_S1x1 v0
  have cst_0 : FVec F S_ .f32 := constant S_ .f32 0x46800000#32
  have v2 : FVec F S1x1 .f32 := broadcastInDim S1x1 ![] bcast_S_S1x1 cst_0
  have v3 : FVec F S1x1 .f32 := Host.divf v1 v2
  have v4 : FVec F S8x2048 .f32 := broadcastInDim S8x2048 ![0, 1] bcast_S1x1_S8x2048_0_1 v3
  have v5 : FVec F S8x2048 .f32 := subf x v4
  have v6 : FVec F S8x2048 .f32 := mulf v5 v5
  have v7 : FVec F S_ .f32 := sitofp .f32 c1
  have cst_1 : FVec F S_ .f32 := constant S_ .f32 0x46800000#32
  have v8 : FVec F S_ .f32 := subf cst_1 v7
  have cst_2 : FVec F S_ .f32 := constant S_ .f32 0x00000000#32
  have v9 : FVec F S_ .f32 := Host.reduceAdd v6 cst_2 reducesTo_S8x2048_S_d0_1 h_S_
  have v10 : FVec F S_ .f32 := Host.divf v9 v8
  have cst_3 : FVec F S_ .f32 := constant S_ .f32 0x00000000#32
  have v11 : IVec S_ 1 := cmpf .ogt v8 cst_3
  have cst_4 : FVec F S_ .f32 := constant S_ .f32 0x7FC00000#32
  have w0 : FVec F S_ .f32 := id cst_4
  have w1 : FVec F S_ .f32 := select v11 v10 w0
  Host.sqrt w1

/-- The six statistics both programs return, of the per-token loss L, the mask mk and the masked
    arrays vm, rm: the mean over rows of Σ(L·mk)/max(Σ mk, 1), the masked Pearson correlation of vm
    and rm, and the mean and unbiased standard deviation of each. -/
noncomputable def tailFn (L mk vm rm : FVec F S8x2048 .f32) : FVec F S6 .f32 :=
  have v33 : FVec F S8x2048 .f32 := mulf L mk
  have cst_4 : FVec F S_ .f32 := constant S_ .f32 0x00000000#32
  have v34 : FVec F S8 .f32 := Host.reduceAdd mk cst_4 reducesTo_S8x2048_S8_d1 h_S_
  have cst_5 : FVec F S_ .f32 := constant S_ .f32 0x3F800000#32
  have v35 : FVec F S8 .f32 := broadcastInDim S8 ![] bcast_S_S8 cst_5
  have v36 : FVec F S8 .f32 := maximumf v34 v35
  have cst_6 : FVec F S_ .f32 := constant S_ .f32 0x00000000#32
  have v37 : FVec F S8 .f32 := Host.reduceAdd v33 cst_6 reducesTo_S8x2048_S8_d1 h_S_
  have v38 : FVec F S8 .f32 := Host.divf v37 v36
  have cst_7 : FVec F S_ .f32 := constant S_ .f32 0x00000000#32
  have v39 : FVec F S_ .f32 := Host.reduceAdd v38 cst_7 reducesTo_S8_S_d0 h_S_
  have cst_8 : FVec F S_ .f32 := constant S_ .f32 0x41000000#32
  have v40 : FVec F S_ .f32 := Host.divf v39 cst_8
  have cst_9 : FVec F S_ .f32 := constant S_ .f32 0x00000000#32
  have v41 : FVec F S_ .f32 := Host.reduceAdd mk cst_9 reducesTo_S8x2048_S_d0_1 h_S_
  have cst_10 : FVec F S_ .f32 := constant S_ .f32 0x3F800000#32
  have v42 : FVec F S_ .f32 := maximumf v41 cst_10
  have v43 : FVec F S8x2048 .f32 := mulf vm mk
  have cst_11 : FVec F S_ .f32 := constant S_ .f32 0x00000000#32
  have v44 : FVec F S_ .f32 := Host.reduceAdd v43 cst_11 reducesTo_S8x2048_S_d0_1 h_S_
  have v45 : FVec F S_ .f32 := Host.divf v44 v42
  have v46 : FVec F S8x2048 .f32 := mulf rm mk
  have cst_12 : FVec F S_ .f32 := constant S_ .f32 0x00000000#32
  have v47 : FVec F S_ .f32 := Host.reduceAdd v46 cst_12 reducesTo_S8x2048_S_d0_1 h_S_
  have v48 : FVec F S_ .f32 := Host.divf v47 v42
  have v49 : FVec F S8x2048 .f32 := broadcastInDim S8x2048 ![] bcast_S_S8x2048 v45
  have v50 : FVec F S8x2048 .f32 := subf vm v49
  have v51 : FVec F S8x2048 .f32 := mulf v50 mk
  have v52 : FVec F S8x2048 .f32 := broadcastInDim S8x2048 ![] bcast_S_S8x2048 v48
  have v53 : FVec F S8x2048 .f32 := subf rm v52
  have v54 : FVec F S8x2048 .f32 := mulf v53 mk
  have v55 : FVec F S8x2048 .f32 := mulf v51 v54
  have cst_13 : FVec F S_ .f32 := constant S_ .f32 0x00000000#32
  have v56 : FVec F S_ .f32 := Host.reduceAdd v55 cst_13 reducesTo_S8x2048_S_d0_1 h_S_
  have v57 : FVec F S8x2048 .f32 := mulf v51 v51
  have cst_14 : FVec F S_ .f32 := constant S_ .f32 0x00000000#32
  have v58 : FVec F S_ .f32 := Host.reduceAdd v57 cst_14 reducesTo_S8x2048_S_d0_1 h_S_
  have v59 : FVec F S8x2048 .f32 := mulf v54 v54
  have cst_15 : FVec F S_ .f32 := constant S_ .f32 0x00000000#32
  have v60 : FVec F S_ .f32 := Host.reduceAdd v59 cst_15 reducesTo_S8x2048_S_d0_1 h_S_
  have v61 : FVec F S_ .f32 := mulf v58 v60
  have v62 : FVec F S_ .f32 := Host.sqrt v61
  have cst_16 : FVec F S_ .f32 := constant S_ .f32 0x00000000#32
  have v63 : IVec S_ 1 := cmpf .ogt v62 cst_16
  have cst_17 : FVec F S_ .f32 := constant S_ .f32 0x3F800000#32
  have call0_v0 : FVec F S_ .f32 := id cst_17
  have v64 : FVec F S_ .f32 := select v63 v62 call0_v0
  have cst_18 : FVec F S_ .f32 := constant S_ .f32 0x00000000#32
  have v65 : IVec S_ 1 := cmpf .ogt v62 cst_18
  have v66 : FVec F S_ .f32 := Host.divf v56 v64
  have cst_19 : FVec F S_ .f32 := constant S_ .f32 0x00000000#32
  have call1_v0 : FVec F S_ .f32 := id cst_19
  have v67 : FVec F S_ .f32 := select v65 v66 call1_v0
  have cst_20 : FVec F S_ .f32 := constant S_ .f32 0x00000000#32
  have v68 : FVec F S_ .f32 := Host.reduceAdd vm cst_20 reducesTo_S8x2048_S_d0_1 h_S_
  have cst_21 : FVec F S_ .f32 := constant S_ .f32 0x46800000#32
  have v69 : FVec F S_ .f32 := Host.divf v68 cst_21
  have v70 : FVec F S_ .f32 := stdFn vm
  have cst_23 : FVec F S_ .f32 := constant S_ .f32 0x00000000#32
  have v71 : FVec F S_ .f32 := Host.reduceAdd rm cst_23 reducesTo_S8x2048_S_d0_1 h_S_
  have cst_24 : FVec F S_ .f32 := constant S_ .f32 0x46800000#32
  have v72 : FVec F S_ .f32 := Host.divf v71 cst_24
  have v73 : FVec F S_ .f32 := stdFn rm
  have v74 : FVec F S1 .f32 := broadcastInDim S1 ![] bcast_S_S1 v40
  have v75 : FVec F S1 .f32 := broadcastInDim S1 ![] bcast_S_S1 v67
  have v76 : FVec F S1 .f32 := broadcastInDim S1 ![] bcast_S_S1 v69
  have v77 : FVec F S1 .f32 := broadcastInDim S1 ![] bcast_S_S1 v70
  have v78 : FVec F S1 .f32 := broadcastInDim S1 ![] bcast_S_S1 v72
  have v79 : FVec F S1 .f32 := broadcastInDim S1 ![] bcast_S_S1 v73
  concatenate S6 0 [⟨S1, v74⟩, ⟨S1, v75⟩, ⟨S1, v76⟩, ⟨S1, v77⟩, ⟨S1, v78⟩, ⟨S1, v79⟩] concatenates_S1_S1_S1_S1_S1_S1_S6_d0

/-- The reference's result as one pure term of its three argument arrays. -/
noncomputable def refOut (a0 a1 : FVec F S8x2048 .f32) (a2 : IVec S8x2048 32) : FVec F S6 .f32 :=
  tailFn (lossRef (mulf a0 (sitofp .f32 a2)) (mulf a1 (sitofp .f32 a2))) (sitofp .f32 a2)
    (mulf a0 (sitofp .f32 a2)) (mulf a1 (sitofp .f32 a2))

end Cert.Hinge

end
-- ==== Proof.KTail.lean ====
/-
  The kernel program's host side as pure terms: the three operations before the launch (the mask as
  floats, the two masked arrays, and their reshapes to [8,1,2048]) and the statistics after it, which
  are the reference's `Cert.Hinge.tailFn` of the launch's result reshaped to [8,2048], the mask and
  the masked arrays.
-/
import proofs.«121960_j87024627352243_2_alg».proof.Proof.Gen.KernelIdeal.Launch
import proofs.«121960_j87024627352243_2_alg».proof.Proof.RefSpec
import Idealize.ShloMosaic.Lib.StableHlo.Run

noncomputable section

namespace Cert.KernelIdeal.TailValue

open Cert.KernelIdeal Cert.KernelIdeal.Gen Idealize.ShloMosaic Idealize.ShloMosaic.TcCoe Idealize.SL.Sem Idealize.ShloMosaic.StableHlo

variable {F : FTy → Type} [FloatOps F]
variable [Cert.ReferenceIdeal.Facts]

/-- Two stretches run one after the other: the second from the contents the first leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

section Head
variable (V : Valuation τ sig (Elt F))

theorem head_v0 : after (List.flatten [hostOps0]) V (main_v0 : DevRef τ sig) = sitofp .f32 (V (main_arg2 : DevRef τ sig)) := by
  simp only [List.flatten_cons, List.flatten_nil, List.append_nil]
  after_results
theorem head_v1 : after (List.flatten [hostOps0]) V (main_v1 : DevRef τ sig) = mulf (V (main_arg0 : DevRef τ sig)) (sitofp .f32 (V (main_arg2 : DevRef τ sig))) := by
  simp only [List.flatten_cons, List.flatten_nil, List.append_nil]
  after_results
theorem head_v2 : after (List.flatten [hostOps0]) V (main_v2 : DevRef τ sig) = mulf (V (main_arg1 : DevRef τ sig)) (sitofp .f32 (V (main_arg2 : DevRef τ sig))) := by
  simp only [List.flatten_cons, List.flatten_nil, List.append_nil]
  after_results
theorem head_v3 : after (List.flatten [hostOps0]) V (main_v3 : DevRef τ sig)
    = shapeCast S8x1x2048 (mulf (V (main_arg0 : DevRef τ sig)) (sitofp .f32 (V (main_arg2 : DevRef τ sig)))) shapeCasts_S8x2048_S8x1x2048 := by
  simp only [List.flatten_cons, List.flatten_nil, List.append_nil]
  after_results
  try rfl
theorem head_v4 : after (List.flatten [hostOps0]) V (main_v4 : DevRef τ sig)
    = shapeCast S8x1x2048 (mulf (V (main_arg1 : DevRef τ sig)) (sitofp .f32 (V (main_arg2 : DevRef τ sig)))) shapeCasts_S8x2048_S8x1x2048 := by
  simp only [List.flatten_cons, List.flatten_nil, List.append_nil]
  after_results
  try rfl
theorem head_arg0 : after (List.flatten [hostOps0]) V (main_arg0 : DevRef τ sig) = V (main_arg0 : DevRef τ sig) := by
  simp only [List.flatten_cons, List.flatten_nil, List.append_nil]
  after_results
theorem head_arg1 : after (List.flatten [hostOps0]) V (main_arg1 : DevRef τ sig) = V (main_arg1 : DevRef τ sig) := by
  simp only [List.flatten_cons, List.flatten_nil, List.append_nil]
  after_results
theorem head_arg2 : after (List.flatten [hostOps0]) V (main_arg2 : DevRef τ sig) = V (main_arg2 : DevRef τ sig) := by
  simp only [List.flatten_cons, List.flatten_nil, List.append_nil]
  after_results

end Head

section Tail
variable (W : Valuation τ sig (Elt F))

set_option maxRecDepth 65536 in
set_option maxHeartbeats 4000000 in
/-- After the launch: the six statistics of the launch's result (reshaped to [8,2048]), the mask and the
    masked arrays — the same operations in the same order as the reference's. -/
theorem tail_v54 : after (List.flatten [hostOps1, hostOps1_1, hostOps1_2, hostOps1_3, hostOps1_4, hostOps1_5, hostOps1_6, hostOps1_7, hostOps1_8]) W (main_v54 : DevRef τ sig)
    = Cert.Hinge.tailFn (shapeCast S8x2048 (W (main_v5 : DevRef τ sig)) shapeCasts_S8x1x2048_S8x2048)
        (W (main_v0 : DevRef τ sig)) (W (main_v1 : DevRef τ sig)) (W (main_v2 : DevRef τ sig)) := by
  simp only [List.flatten_cons, List.flatten_nil, List.append_nil, after_append]
  after_results_simp
  rfl

end Tail

end Cert.KernelIdeal.TailValue

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.RealInputs.lean ====
/-
  From the finiteness test on the arguments to "every masked entry is a real number".

  The precondition is all(|values| < +inf) and all(|token_rewards| < +inf), as one bit. When it is 1 both tests are 1, so
  every entry of values and of token_rewards is a real number. The mask is an integer array, and an integer converted to
  a float is a real number; so every entry of values · float(mask) and of token_rewards · float(mask) is a product of two
  reals, a real.
-/
import proofs.«121960_j87024627352243_2_alg».proof.Defs
import proofs.«121960_j87024627352243_2_alg».proof.Proof.LibFinite
import proofs.«121960_j87024627352243_2_alg».proof.Proof.LibExtReals
import Idealize.ShloMosaic.Lib.Affine

noncomputable section

namespace Cert.Hinge

open Idealize.ShloMosaic Idealize.ShloMosaic.ValueIdx

/-- An integer entry converted to a float is a real number. -/
theorem real_sitofp {s : Shape} {w : ℕ} (a : IVec s w) (j : s.Idx) :
    ∃ x : ℝ, (sitofp .f32 a : FVec Ideal s .f32) j = (x : EReal) :=
  ⟨((a j).toInt : ℝ), rfl⟩

/-- Under the finiteness test, both masked arrays have only real entries. -/
theorem real_inputs [Cert.Pre_finite_inputs.Facts] (a0 a1 : FVec Ideal Cert.Pre_finite_inputs.S8x2048 .f32)
    (a2 : IVec Cert.Pre_finite_inputs.S8x2048 32)
    (h : Cert.Pre_finite_inputs.fn (F := Ideal) a0 a1 a2 = (fun _ => 1#1)) :
    (∀ j, ∃ x : ℝ, mulf a0 (sitofp .f32 a2) j = (x : EReal))
      ∧ (∀ j, ∃ x : ℝ, mulf a1 (sitofp .f32 a2) j = (x : EReal)) := by
  have h0 := congrFun h ix0
  dsimp only [Cert.Pre_finite_inputs.fn] at h0
  obtain ⟨e0, e1⟩ := IntOp.andi_eq_one.mp h0
  have r0 := Cert.LibFinite.real_of_all a0 _ _ _ ix0 e0
  have r1 := Cert.LibFinite.real_of_all a1 _ _ _ ix0 e1
  exact ⟨fun j => Cert.Net.real_mul (r0 j) (real_sitofp a2 j), fun j => Cert.Net.real_mul (r1 j) (real_sitofp a2 j)⟩

end Cert.Hinge

end
-- ==== Proof.HingeSpec.lean ====
/-
  The pairwise hinge loss of one query against a row of keys, as a formula on the extended reals, and the law
  between its two arrangements.

  For a query (vᵢ, rᵢ) and keys (vⱼ, rⱼ), j < 2048, the term of the pair is
      h(j) = max (M − (vᵢ − vⱼ) · sign (rᵢ − rⱼ), 0),
  M the margin. One arrangement sums every term and takes the query's own term away afterwards,
      ((Σⱼ h(j)) − M) / 2047;
  the other multiplies each term by 1 − [i = j] before summing,
      (0 + Σⱼ h(j) · (1 − [i = j])) / 2047.
  When the query is the row's i-th key and every entry is a real number the two agree: the query's own term is
  max (M − 0 · sign 0, 0) = M because M is a positive real, and in ℝ a sum with one term masked is the sum minus that
  term. (On the extended reals the step fails at an infinite entry, where the sum minus a term is junk.)
-/
import Idealize.ShloMosaic.PureOps.Ideal
import Idealize.ShloMosaic.PureOps.Ideal.Laws
import Idealize.ShloMosaic.Lib.ValueIdx
import proofs.«121960_j87024627352243_2_alg».proof.Proof.LibExtReals

noncomputable section

open scoped BigOperators

namespace Cert.Hinge

open Idealize.ShloMosaic

/-- The margin M: what the word 0x3DCCCCCD denotes. -/
def margin : EReal := Ideal.ofBits .f32 0x3DCCCCCD#32

/-- The number of other keys in a row, 2047: what the word 0x44FFE000 denotes. -/
def others : EReal := Ideal.ofBits .f32 0x44FFE000#32

/-- The hinge term of the query (vi, ri) against key j of the row (v, r). -/
def hinge (v r : Fin 2048 → EReal) (vi ri : EReal) (j : Fin 2048) : EReal :=
  max (margin - (vi - v j) * Ideal.sign (ri - r j)) 0

/-- The entry as the sum of every term less the margin, over 2047. -/
def kerEntry (v r : Fin 2048 → EReal) (vi ri : EReal) : EReal :=
  Ideal.div ((∑ j : Fin 2048, hinge v r vi ri j) - margin) others

/-- The entry as the sum of the terms masked off the diagonal, from zero, over 2047. -/
def refEntry (v r : Fin 2048 → EReal) (i : Fin 2048) : EReal :=
  Ideal.div (0 + ∑ j : Fin 2048, hinge v r (v i) (r i) j * (1 - if i = j then 1 else 0)) others

/-- The margin is a positive real. -/
theorem margin_word : ∃ m : ℝ, 0 < m ∧ margin = (m : EReal) := by
  refine ⟨13421773 * (2 ^ 27)⁻¹, by positivity, ?_⟩
  simp [margin, Ideal.ofBits, Ideal.ieee]

/-- In ℝ: a sum with the i-th term masked is the sum less that term. -/
theorem real_masked_sum (h : Fin 2048 → ℝ) (i : Fin 2048) :
    ∑ j : Fin 2048, h j * (1 - if i = j then 1 else 0) = (∑ j : Fin 2048, h j) - h i := by
  simp only [mul_sub, mul_one, mul_ite, mul_zero, Finset.sum_sub_distrib, Finset.sum_ite_eq, Finset.mem_univ, if_true]

/-- The law: for real entries, with the query the row's i-th key, the masked arrangement is the other one. -/
theorem law (v r : Fin 2048 → EReal) (hv : ∀ j, ∃ x : ℝ, v j = (x : EReal)) (hr : ∀ j, ∃ x : ℝ, r j = (x : EReal))
    (i : Fin 2048) : refEntry v r i = kerEntry v r (v i) (r i) := by
  choose v' hv' using hv
  choose r' hr' using hr
  obtain ⟨m, hm, hM⟩ := margin_word
  -- every term is the real number g j
  let g : Fin 2048 → ℝ := fun j => max (m - (v' i - v' j) * (SignType.sign (r' i - r' j) : ℝ)) 0
  have hg : ∀ j, hinge v r (v i) (r i) j = (g j : EReal) := by
    intro j
    simp only [hinge, hM, hv', hr', ← EReal.coe_sub, Ideal.sign_coe, ← EReal.coe_mul, ← EReal.coe_zero, ← Cert.Net.coe_max, g]
  -- the query's own term is the margin
  have hgi : g i = m := by
    simp only [g, sub_self, zero_mul, sub_zero]
    exact max_eq_left hm.le
  have hite : ∀ j, (1 : EReal) - (if i = j then (1 : EReal) else 0) = ((1 - (if i = j then 1 else 0) : ℝ) : EReal) := by
    intro j; split
    · rw [sub_self, EReal.coe_zero, ← EReal.coe_one, ← EReal.coe_sub, sub_self, EReal.coe_zero]
    · rw [sub_zero, sub_zero, EReal.coe_one]
  -- both sums are sums in ℝ
  have h1 : ∑ j : Fin 2048, hinge v r (v i) (r i) j * (1 - if i = j then 1 else 0)
      = ((∑ j : Fin 2048, g j * (1 - if i = j then 1 else 0) : ℝ) : EReal) := by
    rw [Cert.Net.coe_sum]; exact Finset.sum_congr rfl fun j _ => by rw [hg, hite, EReal.coe_mul]
  have h2 : ∑ j : Fin 2048, hinge v r (v i) (r i) j = ((∑ j : Fin 2048, g j : ℝ) : EReal) := by
    rw [Cert.Net.coe_sum]; exact Finset.sum_congr rfl fun j _ => hg j
  unfold refEntry kerEntry
  congr 1
  rw [zero_add, h1, h2, real_masked_sum, hgi, EReal.coe_sub, hM]

end Cert.Hinge

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelEntry.lean ====
/-
  The kernel's arithmetic on one block, read at one query row.

  The block holds 512 queries (their values x0 and rewards x2, as [1, 1, 512] windows) and the whole row of 2048 keys
  (values x4, rewards x6, as [1, 1, 2048] windows). The body spreads the queries down the rows and the keys along the
  columns of a [512, 2048] tile, forms the hinge term of every pair, sums each row over its 2048 lanes, takes the
  margin away and divides by 2047. Read at query p this is the entry `kerEntry` of the specification.
-/
import proofs.«121960_j87024627352243_2_alg».proof.Proof.Gen.KernelIdeal.Skeleton
import proofs.«121960_j87024627352243_2_alg».proof.Proof.HingeSpec
import proofs.«121960_j87024627352243_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.Hinge

open Idealize.ShloMosaic Idealize.ShloMosaic.ValueIdx Cert.KernelIdeal

section Layout
variable {α : Type}

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to a `[1, 1, a]` block reads, at `(u, w, i)`, the vector at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_one, Shape.rowMajor_val_three]
    show i.val = (u.val * 1 + w.val) * a + i.val
    rw [hu, hw]
    simp)

end Layout

/-- A lane sum of an `[A, C]` tile from the zero word: at row `a` the sum of that row's `C` entries. -/
theorem multiReduction_add_rows {A C : ℕ} (x : FVec Ideal ⟨2, ![A, C]⟩ .f32)
    (h : (⟨2, ![A, C]⟩ : Shape).Reduces [1] ⟨1, ![A]⟩) (hφ : FKind.Formats .f32)
    (hacc : (0x00000000#32 : BitVec 32) = FKind.add.neutral .f32 hφ) (a : Fin A) :
    multiReduction .add [1] ⟨1, ![A]⟩ x 0x00000000#32 h hφ hacc (ix1 a) = ∑ c : Fin C, x (ix2 a c) := by
  refine (Ideal.multiReduction_add_single x 0x00000000#32 h hφ hacc (ix1 a)).trans ?_
  exact Finset.sum_congr rfl fun c _ => congrArg x
    (funext fun ax => Fin.ext (by match ax with | ⟨0, _⟩ => rfl | ⟨1, _⟩ => rfl))

/-- The tile of differences "query p less key j": the queries (a `[1, 1, 512]` window) down the rows, the keys (a
    `[1, 1, 2048]` window) along the columns, subtracted. -/
theorem diff_apply (q : FVec Ideal S1x1x512 .f32) (k : FVec Ideal S1x1x2048 .f32)
    (h1 : S1x1x512.ShapeCasts S512) (h2 : S512.ShapeCasts S512x1) (h3 : S512x1.Broadcasts S512x2048)
    (h4 : S1x1x2048.ShapeCasts S2048) (h5 : S2048.ShapeCasts S1x2048) (h6 : S1x2048.Broadcasts S512x2048)
    (p : Fin 512) (j : Fin 2048) :
    subf (broadcastTo S512x2048 (shapeCast S512x1 (shapeCast S512 q h1) h2) h3)
        (broadcastTo S512x2048 (shapeCast S1x2048 (shapeCast S2048 k h4) h5) h6) (ix2 p j)
      = q (ix3 (0 : Fin 1) (0 : Fin 1) p) - k (ix3 (0 : Fin 1) (0 : Fin 1) j) := by
  rw [subf_apply, Cert.LibKeepdims.broadcastTo_a1_ab_apply, Cert.LibKeepdims.shapeCast_a_a1_apply, shapeCast_11a_a_apply,
    broadcastTo_1b_ab_apply, shapeCast_a_1a_apply, shapeCast_11a_a_apply]

/-- The sign as the body writes it — one carrying the operand's sign bit where the operand's magnitude is above zero,
    else the operand itself — is, at each entry, the sign of that entry. -/
theorem sign_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

/-- The body's result at query p of the block: the specification's entry of that query against the block's key row. -/
theorem pay_apply (x0 x2 : Vec Ideal S1x1x512 .f32) (x4 x6 : Vec Ideal S1x1x2048 .f32) (p : Fin 512) :
    Gen.k0_pay1 (F := Ideal) (Gen.k0_pay2 (F := Ideal) x0 x2 x4 x6) (ix3 (0 : Fin 1) (0 : Fin 1) p)
      = kerEntry (fun j => x4 (ix3 (0 : Fin 1) (0 : Fin 1) j)) (fun j => x6 (ix3 (0 : Fin 1) (0 : Fin 1) j))
          (x0 (ix3 (0 : Fin 1) (0 : Fin 1) p)) (x2 (ix3 (0 : Fin 1) (0 : Fin 1) p)) := by
  unfold Gen.k0_pay1 Gen.k0_pay2
  dsimp only []
  rw [shapeCast_a_11a_apply, divf_apply, subf_apply, broadcast_apply, broadcast_apply]
  unfold kerEntry margin others
  refine congrArg (fun t => Ideal.div (t - Ideal.ofBits .f32 0x3DCCCCCD#32) (Ideal.ofBits .f32 0x44FFE000#32)) ?_
  refine (multiReduction_add_rows _ _ _ _ p).trans ?_
  refine Finset.sum_congr rfl fun j _ => ?_
  rw [maximumf_apply, subf_apply, mulf_apply, broadcast_apply, broadcast_apply, sign_apply, diff_apply, diff_apply]
  unfold hinge margin
  rw [show Scalar.ofBits (F := Ideal) .f32 0x00000000#32 = 0 from Ideal.ofBits_zero_f32]
  rfl

end Cert.Hinge

end
-- ==== Proof.KSpec.lean ====
/-
  The launch's result array as one function of the two arrays it reads.

  Both arrays are [8, 1, 2048]: row b of the first holds the masked values, of the second the masked rewards. The entry
  of the result at (b, 0, i) is the hinge entry of query i of row b against the whole of row b.
-/
import proofs.«121960_j87024627352243_2_alg».proof.Proof.HingeSpec
import Idealize.ShloMosaic.Lib.ValueIdx

noncomputable section

namespace Cert.Hinge

open Idealize.ShloMosaic Idealize.ShloMosaic.ValueIdx

/-- The result array: at y = (b, 0, i) the entry of query y against row b of the two arrays. -/
def Gk (a3 a4 : FVec Ideal ⟨3, ![8, 1, 2048]⟩ .f32) : FVec Ideal ⟨3, ![8, 1, 2048]⟩ .f32 := fun y =>
  kerEntry (fun j => a3 (ix3 (y 0 : Fin 8) (0 : Fin 1) j)) (fun j => a4 (ix3 (y 0 : Fin 8) (0 : Fin 1) j)) (a3 y) (a4 y)

end Cert.Hinge

end
-- ==== Proof.KArray.lean ====
/-
  From blocks to the array: what the launch leaves in its result array.

  The grid has 8 × 4 points; point t = 4·b + q reads queries 512·q … 512·q + 511 of row b of the two [8, 1, 2048] arrays
  (windows 0 and 1), the whole of row b of the same arrays (windows 2 and 3), and writes back block (b, 0, q) of the
  result (window 4). What it writes is, entry by entry, the hinge entry of the query against the row: block t of the one
  function `Gk` of the two arrays. The 32 blocks tile the result array, so the array ends holding `Gk`.
-/
import proofs.«121960_j87024627352243_2_alg».proof.Proof.KBodyI
import proofs.«121960_j87024627352243_2_alg».proof.Proof.KernelEntry
import proofs.«121960_j87024627352243_2_alg».proof.Proof.KSpec
import Idealize.ShloMosaic.Lib.Pipeline.Value

noncomputable section

namespace Cert.Hinge

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

variable (m : (ℓ : Loc nD τ sig) → Buf (Elt Ideal) ℓ)

theorem zero_offsets : (![0, 0, 0] : Fin 3 → Nat) = fun _ => 0 := funext fun a => by fin_cases a <;> rfl

/-- The five index maps over the grid: the query windows and the result move together at block (t / 4, 0, t mod 4); the
    key-row windows sit at block (t / 4, 0, 0). -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 3) = win0_4.index t (0 : Fin 3) ∧ win0_2.index t (1 : Fin 3) = 0
    ∧ win0_2.index t (2 : Fin 3) = 0
    ∧ win0_3.index t (0 : Fin 3) = win0_4.index t (0 : Fin 3) ∧ win0_3.index t (1 : Fin 3) = 0
    ∧ win0_3.index t (2 : Fin 3) = 0
    ∧ win0_4.index t (0 : Fin 3) = t.val / 4 ∧ win0_4.index t (1 : Fin 3) = 0
    ∧ win0_4.index t (2 : Fin 3) = t.val % 4 :=
  (by decide +kernel : ∀ t : Fin grid0.N, _)

/-! ## One point, over variables -/

/-- If the two query blocks are queries 512·Q … of row B of the arrays a3, a4 and the two key blocks are the whole of
    row B, the body's result at block entry y is `Gk` at the array index k = (B, 0, 512·Q + y). -/
theorem point_eq (a3 a4 : FVec Ideal S8x1x2048 .f32) (x0 x1 : Vec Ideal S1x1x512 .f32) (x2 x3 : Vec Ideal S1x1x2048 .f32)
    (B Q : ℕ)
    (h0 : ∀ (p : Fin 512) (k : S8x1x2048.Idx), (k 0).val = B → (k 2).val = Q * 512 + p.val →
      x0 (ix3 (0 : Fin 1) (0 : Fin 1) p) = a3 k)
    (h1 : ∀ (p : Fin 512) (k : S8x1x2048.Idx), (k 0).val = B → (k 2).val = Q * 512 + p.val →
      x1 (ix3 (0 : Fin 1) (0 : Fin 1) p) = a4 k)
    (h2 : ∀ (j : Fin 2048) (k : S8x1x2048.Idx), (k 0).val = B → (k 2).val = j.val →
      x2 (ix3 (0 : Fin 1) (0 : Fin 1) j) = a3 k)
    (h3 : ∀ (j : Fin 2048) (k : S8x1x2048.Idx), (k 0).val = B → (k 2).val = j.val →
      x3 (ix3 (0 : Fin 1) (0 : Fin 1) j) = a4 k)
    (y : S1x1x512.Idx) (k : S8x1x2048.Idx) (hk0 : (k 0).val = B) (hk2 : (k 2).val = Q * 512 + (y 2).val) :
    k0_pay1 (F := Ideal) (k0_pay2 (F := Ideal) x0 x1 x2 x3) y = Gk a3 a4 k := by
  obtain ⟨u, w, p, rfl⟩ : ∃ (u w : Fin 1) (p : Fin 512), y = ix3 u w p := ⟨y 0, y 1, y 2, eq_ix3 y⟩
  obtain rfl : u = 0 := Subsingleton.elim _ _
  obtain rfl : w = 0 := Subsingleton.elim _ _
  have e2 : (fun j : Fin 2048 => x2 (ix3 (0 : Fin 1) (0 : Fin 1) j)) = fun j => a3 (ix3 (k 0 : Fin 8) (0 : Fin 1) j) :=
    funext fun j => h2 j _ hk0 rfl
  have e3 : (fun j : Fin 2048 => x3 (ix3 (0 : Fin 1) (0 : Fin 1) j)) = fun j => a4 (ix3 (k 0 : Fin 8) (0 : Fin 1) j) :=
    funext fun j => h3 j _ hk0 rfl
  rw [pay_apply, h0 p k hk0 hk2, h1 p k hk0 hk2]
  exact congrArg₂ (fun f g => kerEntry f g (a3 k) (a4 k)) e2 e3

/-! ## The input blocks as entries of their arrays -/

/-- Window 0's block at point t: queries of the first array. -/
theorem iblk0_apply (c : Dev nD) (t : Fin cfg0.N) (p : Fin 512) (k : S8x1x2048.Idx)
    (hk0 : (k 0).val = win0_4.index t (0 : Fin 3)) (hk2 : (k 2).val = win0_4.index t (2 : Fin 3) * 512 + p.val) :
    (iblk m c 0 t : Vec Ideal S1x1x512 .f32) (ix3 (0 : Fin 1) (0 : Fin 1) p)
      = (V m c main_v3 : S8x1x2048.Idx → Elt Ideal .f32) k := by
  obtain ⟨e0, e1, e2, -⟩ := idx_facts t
  have hk1 : (k 1).val < 1 := (k 1).isLt
  unfold iblk
  rw [View.read_apply]
  show V m c main_v3 _ = V m c main_v3 k
  refine congrArg _ (funext fun a => Fin.ext ?_)
  match a with
  | ⟨0, _⟩ => show win0_0.index t (0 : Fin 3) * 1 + 1 * 0 = (k 0).val; omega
  | ⟨1, _⟩ => show win0_0.index t (1 : Fin 3) * 1 + 1 * 0 = (k 1).val; omega
  | ⟨2, _⟩ => show win0_0.index t (2 : Fin 3) * 512 + 1 * p.val = (k 2).val; omega

/-- Window 1's block at point t: the same queries of the second array. -/
theorem iblk1_apply (c : Dev nD) (t : Fin cfg0.N) (p : Fin 512) (k : S8x1x2048.Idx)
    (hk0 : (k 0).val = win0_4.index t (0 : Fin 3)) (hk2 : (k 2).val = win0_4.index t (2 : Fin 3) * 512 + p.val) :
    (iblk m c 1 t : Vec Ideal S1x1x512 .f32) (ix3 (0 : Fin 1) (0 : Fin 1) p)
      = (V m c main_v4 : S8x1x2048.Idx → Elt Ideal .f32) k := by
  obtain ⟨-, -, -, e0, e1, e2, -⟩ := idx_facts t
  have hk1 : (k 1).val < 1 := (k 1).isLt
  unfold iblk
  rw [View.read_apply]
  show V m c main_v4 _ = V m c main_v4 k
  refine congrArg _ (funext fun a => Fin.ext ?_)
  match a with
  | ⟨0, _⟩ => show win0_1.index t (0 : Fin 3) * 1 + 1 * 0 = (k 0).val; omega
  | ⟨1, _⟩ => show win0_1.index t (1 : Fin 3) * 1 + 1 * 0 = (k 1).val; omega
  | ⟨2, _⟩ => show win0_1.index t (2 : Fin 3) * 512 + 1 * p.val = (k 2).val; omega

/-- Window 2's block at point t: the whole row of the first array. -/
theorem iblk2_apply (c : Dev nD) (t : Fin cfg0.N) (j : Fin 2048) (k : S8x1x2048.Idx)
    (hk0 : (k 0).val = win0_4.index t (0 : Fin 3)) (hk2 : (k 2).val = j.val) :
    (iblk m c 2 t : Vec Ideal S1x1x2048 .f32) (ix3 (0 : Fin 1) (0 : Fin 1) j)
      = (V m c main_v3 : S8x1x2048.Idx → Elt Ideal .f32) k := by
  obtain ⟨-, -, -, -, -, -, e0, e1, e2, -⟩ := idx_facts t
  have hk1 : (k 1).val < 1 := (k 1).isLt
  unfold iblk
  rw [View.read_apply]
  show V m c main_v3 _ = V m c main_v3 k
  refine congrArg _ (funext fun a => Fin.ext ?_)
  match a with
  | ⟨0, _⟩ => show win0_2.index t (0 : Fin 3) * 1 + 1 * 0 = (k 0).val; omega
  | ⟨1, _⟩ => show win0_2.index t (1 : Fin 3) * 1 + 1 * 0 = (k 1).val; omega
  | ⟨2, _⟩ => show win0_2.index t (2 : Fin 3) * 2048 + 1 * j.val = (k 2).val; omega

/-- Window 3's block at point t: the whole row of the second array. -/
theorem iblk3_apply (c : Dev nD) (t : Fin cfg0.N) (j : Fin 2048) (k : S8x1x2048.Idx)
    (hk0 : (k 0).val = win0_4.index t (0 : Fin 3)) (hk2 : (k 2).val = j.val) :
    (iblk m c 3 t : Vec Ideal S1x1x2048 .f32) (ix3 (0 : Fin 1) (0 : Fin 1) j)
      = (V m c main_v4 : S8x1x2048.Idx → Elt Ideal .f32) k := by
  obtain ⟨-, -, -, -, -, -, -, -, -, e0, e1, e2, -⟩ := idx_facts t
  have hk1 : (k 1).val < 1 := (k 1).isLt
  unfold iblk
  rw [View.read_apply]
  show V m c main_v4 _ = V m c main_v4 k
  refine congrArg _ (funext fun a => Fin.ext ?_)
  match a with
  | ⟨0, _⟩ => show win0_3.index t (0 : Fin 3) * 1 + 1 * 0 = (k 0).val; omega
  | ⟨1, _⟩ => show win0_3.index t (1 : Fin 3) * 1 + 1 * 0 = (k 1).val; omega
  | ⟨2, _⟩ => show win0_3.index t (2 : Fin 3) * 2048 + 1 * j.val = (k 2).val; omega

/-! ## What a point writes back, and the array -/

/-- What point t writes back is block t of `Gk` of the two arrays as the launch finds them. -/
theorem flushed4_eq (c : Dev nD) (t : Fin cfg0.N) :
    (dats m 0 c).flushed 4 t
      = ((cfg0.win 4).blk t).view.read (Elt Ideal) (Gk (V m c main_v3) (V m c main_v4)) := by
  show (cfg0.win 4).cut (grid0.coords t) ((dats m 0 c).after 4 t) = _
  rw [after4]
  unfold out4
  rw [View.canon_unit_zero zero_offsets]
  simp only [View.ld_unit_zero (S := S1x1x512) zero_offsets, View.ld_unit_zero (S := S1x1x2048) zero_offsets]
  funext y
  show k0_pay1 (F := Ideal) (k0_pay2 (F := Ideal) (iblk m c 0 t) (iblk m c 1 t) (iblk m c 2 t) (iblk m c 3 t)) y
    = Gk (V m c main_v3) (V m c main_v4) (((cfg0.win 4).blk t).view.emb y)
  have hy0 : (y 0).val < 1 := (y 0).isLt
  refine point_eq (V m c main_v3) (V m c main_v4) _ _ _ _ (win0_4.index t (0 : Fin 3)) (win0_4.index t (2 : Fin 3))
    (fun p k h0 h2 => iblk0_apply m c t p k h0 h2) (fun p k h0 h2 => iblk1_apply m c t p k h0 h2)
    (fun j k h0 h2 => iblk2_apply m c t j k h0 h2) (fun j k h0 h2 => iblk3_apply m c t j k h0 h2) y _ ?_ ?_
  · show win0_4.index t (0 : Fin 3) * 1 + 1 * (y 0).val = win0_4.index t (0 : Fin 3); omega
  · show win0_4.index t (2 : Fin 3) * 512 + 1 * (y 2).val = win0_4.index t (2 : Fin 3) * 512 + (y 2).val; omega

/-- An index of the result array is in point t's block iff each coordinate is in the block's range on its axis. -/
theorem mem_blk4 (t : Fin cfg0.N) (i : S8x1x2048.Idx) :
    i ∈ ((cfg0.win 4).blk t).view.set
      ↔ ∀ a : Fin 3, win0_4.index t a * S1x1x512.size a ≤ (i a).val
          ∧ (i a).val < win0_4.index t a * S1x1x512.size a + S1x1x512.size a := by
  show i ∈ ((View.whole main_v5).slice (win0_4.rect t)).set ↔ _
  rw [View.set_slice_whole, Rect.mem_set_unit]
  exact Iff.rfl

/-- Every index (b, 0, i) of the result array is in the block of point 4·b + i / 512, which is written back. -/
theorem covered (i : S8x1x2048.Idx) :
    ∃ t : Fin cfg0.N, (cfg0.win 4).flush t = true ∧ i ∈ ((cfg0.win 4).blk t).view.set := by
  have hN : grid0.N = 32 := N_0
  have h0 : (i 0).val < 8 := (i 0).isLt
  have h1 : (i 1).val < 1 := (i 1).isLt
  have h2 : (i 2).val < 2048 := (i 2).isLt
  have hlt : 4 * (i 0).val + (i 2).val / 512 < grid0.N := by omega
  obtain ⟨-, -, -, -, -, -, -, -, -, -, -, -, e0, e1, e2⟩ := idx_facts ⟨4 * (i 0).val + (i 2).val / 512, hlt⟩
  refine ⟨⟨4 * (i 0).val + (i 2).val / 512, hlt⟩, flush0_4 _, ?_⟩
  rw [mem_blk4]
  have e0' : win0_4.index ⟨4 * (i 0).val + (i 2).val / 512, hlt⟩ (0 : Fin 3) = (4 * (i 0).val + (i 2).val / 512) / 4 := e0
  have e2' : win0_4.index ⟨4 * (i 0).val + (i 2).val / 512, hlt⟩ (2 : Fin 3) = (4 * (i 0).val + (i 2).val / 512) % 4 := e2
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1 ≤ (i 1).val ∧ (i 1).val < win0_4.index _ (1 : Fin 3) * 1 + 1
    omega
  | ⟨2, _⟩ =>
    show win0_4.index _ (2 : Fin 3) * 512 ≤ (i 2).val ∧ (i 2).val < win0_4.index _ (2 : Fin 3) * 512 + 512
    omega

/-- The result array after the launch is `Gk` of the two arrays the launch reads. -/
theorem out_array (c : Dev nD) :
    (dats m 0 c).arrAt 4 cfg0.N = Gk (V m c main_v3) (V m c main_v4) :=
  (dats m 0 c).arrAt_eq_of_cover 4 (Gk (V m c main_v3) (V m c main_v4)) (fun t _ => flushed4_eq m c t) covered

end Cert.Hinge

end
-- ==== Proof.LibLastAxis.lean ====
/-
  Reductions along the LAST axis of a rank-3 array, and the keepdims forms around them, read at an index — generic in
  the three extents.

  For an [A, B, C] array x:
  * a lane reduction by maximum from the word of −∞ is, at (a, b), the fold of max over the C entries x(a, b, ·)
    (`multiReduction_max_last`), and a lane reduction by addition from the zero word is their sum
    (`multiReduction_add_last`);
  * the host's one-operand reduce along axis 2 with a commutative associative body is, at (a, b), the fold of the body
    from the initial value over those entries (`hostReduce_last`);
  * an [A, B] array cast to [A, B, 1] reads at (a, b, u) the operand at (a, b) (`shapeCast_ab_ab1_apply`);
  * an [A, B, 1] array broadcast to [A, B, D] reads at (a, b, d) the operand at (a, b, 0) (`broadcastTo_ab1_abd_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.LastAxis

open Idealize.ShloMosaic Idealize.ShloMosaic.ValueIdx

variable {A B C : Nat}

/-- The index over (a, b) with c inserted on the last axis is (a, b, c). -/
theorem lift_last (h : (⟨3, ![A, B, C]⟩ : Shape).Reduces [2] ⟨2, ![A, B]⟩) (a : Fin A) (b : Fin B) (c : Fin C) :
    h.lift (ix2 a b) c = ix3 a b c :=
  funext fun ax => Fin.ext (by match ax with | ⟨0, _⟩ => rfl | ⟨1, _⟩ => rfl | ⟨2, _⟩ => rfl)

/-- A lane reduction by maximum along the last axis, from the word of −∞: at (a, b) the fold of max over the entries
    x(a, b, ·), started from what that word denotes. -/
theorem multiReduction_max_last (x : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ x 0xFF800000#32 h hφ hacc (ix2 a b)
      = (Finset.univ : Finset (Fin C)).fold max (Ideal.ofBits .f32 0xFF800000#32) (fun c => x (ix3 a b c)) := by
  refine (Ideal.multiReduction_maximumf_single x 0xFF800000#32 h hφ hacc (ix2 a b)).trans ?_
  refine congrArg (fun g => (Finset.univ : Finset (Fin C)).fold max (Ideal.ofBits .f32 0xFF800000#32) g) (funext fun c => ?_)
  exact congrArg x (lift_last h a b c)

/-- A lane reduction by addition along the last axis, from the zero word: at (a, b) the sum of the entries x(a, b, ·). -/
theorem multiReduction_add_last (x : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction .add [2] ⟨2, ![A, B]⟩ x 0x00000000#32 h hφ hacc (ix2 a b) = ∑ c : Fin C, x (ix3 a b c) := by
  refine (Ideal.multiReduction_add_single x 0x00000000#32 h hφ hacc (ix2 a b)).trans ?_
  exact Finset.sum_congr rfl fun c _ => congrArg x (lift_last h a b c)

/-- The host's one-operand reduce along the last axis with a commutative associative body: at (a, b) the fold of the body
    from the initial value over the entries x(a, b, ·). -/
theorem hostReduce_last (f : EReal → EReal → EReal) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → EReal) (init : (⟨0, ![]⟩ : Shape).Idx → EReal)
    (hu : 0 < (⟨0, ![]⟩ : Shape).numel) (a : Fin A) (b : Fin B) :
    Host.reduce f x init h' hu (ix2 a b)
      = (Finset.univ : Finset (Fin C)).fold f (init (Shape.Idx.first hu)) (fun c => x (ix3 a b c)) := by
  rw [Host.reduce_eq_fold_single f x init h' h hu (ix2 a b)]
  refine congrArg (fun g => (Finset.univ : Finset (Fin C)).fold f (init (Shape.Idx.first hu)) g) (funext fun c => ?_)
  exact congrArg x (lift_last h a b c)

variable {α : Type}

/-- An [A, B] array cast to [A, B, 1] reads, at (a, b, u), the operand at (a, b): the two indices have one row-major
    position. -/
theorem shapeCast_ab_ab1_apply (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    omega)

/-- An [A, B, 1] array broadcast to [A, B, D] reads, at (a, b, d), the operand at (a, b, 0). -/
theorem broadcastTo_ab1_abd_apply {D : Nat} (v : (⟨3, ![A, B, 1]⟩ : Shape).Idx → α)
    (h : (⟨3, ![A, B, 1]⟩ : Shape).Broadcasts ⟨3, ![A, B, D]⟩) (a : Fin A) (b : Fin B) (d : Fin D) :
    broadcastTo ⟨3, ![A, B, D]⟩ v h (ix3 a b d) = v (ix3 a b (0 : Fin 1)) := by
  refine broadcastTo_apply v h (ix3 a b d) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.Lib.LastAxis

end
-- ==== Proof.RefEntry.lean ====
/-
  The reference's per-token loss read at one token.

  The reference spreads the masked values and rewards of a row over an [8, 2048, 2048] array of pairs (query i down
  axis 1, key j along axis 2), forms the hinge term of every pair, multiplies it by 1 − [i = j] (an iota compared with
  an iota, converted to a float and taken from one), sums along the key axis from zero and divides by 2047. Read at
  token (b, i) this is the masked arrangement `refEntry` of the specification; for real entries that is `kerEntry`,
  by the specification's law.
-/
import proofs.«121960_j87024627352243_2_alg».proof.Proof.RefSpec
import proofs.«121960_j87024627352243_2_alg».proof.Proof.HingeSpec
import proofs.«121960_j87024627352243_2_alg».proof.Proof.LibLastAxis
import proofs.«121960_j87024627352243_2_alg».proof.Proof.LibExtReals
import Idealize.ShloMosaic.Lib.IdealHost
import Idealize.ShloMosaic.Lib.Affine
import Idealize.ShloMosaic.Lib.Pipeline.Value

noncomputable section

open scoped BigOperators

namespace Cert.Hinge

open Idealize.ShloMosaic Idealize.ShloMosaic.ValueIdx Cert.ReferenceIdeal

/-! ## The broadcasts of the pair array, read at an index -/

section Layout
variable {α : Type}

/-- A row array [8, 2048] as a column per row, [8, 2048, 1]: at (b, i, u) the operand at (b, i). -/
theorem bcast_col_apply (x : S8x2048.Idx → α)
    (h : S8x2048.BroadcastsInDim S8x2048x1 (![0, 1] : Fin 2 → Fin S8x2048x1.rank)) (b : Fin 8) (i : Fin 2048) (u : Fin 1) :
    broadcastInDim S8x2048x1 ![0, 1] h x (ix3 b i u) = x (ix2 b i) :=
  broadcastInDim_apply _ h x _ _ fun a => match a with | ⟨0, _⟩ => rfl | ⟨1, _⟩ => rfl

/-- A row array [8, 2048] as one row per batch, [8, 1, 2048]: at (b, u, j) the operand at (b, j). -/
theorem bcast_row_apply (x : S8x2048.Idx → α)
    (h : S8x2048.BroadcastsInDim S8x1x2048 (![0, 2] : Fin 2 → Fin S8x1x2048.rank)) (b : Fin 8) (u : Fin 1) (j : Fin 2048) :
    broadcastInDim S8x1x2048 ![0, 2] h x (ix3 b u j) = x (ix2 b j) :=
  broadcastInDim_apply _ h x _ _ fun a => match a with | ⟨0, _⟩ => rfl | ⟨1, _⟩ => rfl

/-- The columns [8, 2048, 1] spread along the key axis: at (b, i, j) the operand at (b, i, 0). -/
theorem bcast_col_spread_apply (x : S8x2048x1.Idx → α)
    (h : S8x2048x1.BroadcastsInDim S8x2048x2048 (![0, 1, 2] : Fin 3 → Fin S8x2048x2048.rank))
    (b : Fin 8) (i j : Fin 2048) :
    broadcastInDim S8x2048x2048 ![0, 1, 2] h x (ix3 b i j) = x (ix3 b i (0 : Fin 1)) :=
  broadcastInDim_apply _ h x _ _ fun a => match a with | ⟨0, _⟩ => rfl | ⟨1, _⟩ => rfl | ⟨2, _⟩ => rfl

/-- The rows [8, 1, 2048] spread down the query axis: at (b, i, j) the operand at (b, 0, j). -/
theorem bcast_row_spread_apply (x : S8x1x2048.Idx → α)
    (h : S8x1x2048.BroadcastsInDim S8x2048x2048 (![0, 1, 2] : Fin 3 → Fin S8x2048x2048.rank))
    (b : Fin 8) (i j : Fin 2048) :
    broadcastInDim S8x2048x2048 ![0, 1, 2] h x (ix3 b i j) = x (ix3 b (0 : Fin 1) j) :=
  broadcastInDim_apply _ h x _ _ fun a => match a with | ⟨0, _⟩ => rfl | ⟨1, _⟩ => rfl | ⟨2, _⟩ => rfl

/-- A [2048, 2048] matrix given a leading unit axis: at (u, i, j) the operand at (i, j). -/
theorem bcast_lead_apply (x : S2048x2048.Idx → α)
    (h : S2048x2048.BroadcastsInDim S1x2048x2048 (![1, 2] : Fin 2 → Fin S1x2048x2048.rank))
    (u : Fin 1) (i j : Fin 2048) :
    broadcastInDim S1x2048x2048 ![1, 2] h x (ix3 u i j) = x (ix2 i j) :=
  broadcastInDim_apply _ h x _ _ fun a => match a with | ⟨0, _⟩ => rfl | ⟨1, _⟩ => rfl

/-- The one matrix [1, 2048, 2048] copied to every batch: at (b, i, j) the operand at (0, i, j). -/
theorem bcast_lead_spread_apply (x : S1x2048x2048.Idx → α)
    (h : S1x2048x2048.BroadcastsInDim S8x2048x2048 (![0, 1, 2] : Fin 3 → Fin S8x2048x2048.rank))
    (b : Fin 8) (i j : Fin 2048) :
    broadcastInDim S8x2048x2048 ![0, 1, 2] h x (ix3 b i j) = x (ix3 (0 : Fin 1) i j) :=
  broadcastInDim_apply _ h x _ _ fun a => match a with | ⟨0, _⟩ => rfl | ⟨1, _⟩ => rfl | ⟨2, _⟩ => rfl

end Layout

/-- The array of differences "query i less key j" of one row array. -/
theorem pair_diff_apply (x : FVec Ideal S8x2048 .f32)
    (h1 : S8x2048.BroadcastsInDim S8x2048x1 (![0, 1] : Fin 2 → Fin S8x2048x1.rank))
    (h2 : S8x2048.BroadcastsInDim S8x1x2048 (![0, 2] : Fin 2 → Fin S8x1x2048.rank))
    (h3 : S8x2048x1.BroadcastsInDim S8x2048x2048 (![0, 1, 2] : Fin 3 → Fin S8x2048x2048.rank))
    (h4 : S8x1x2048.BroadcastsInDim S8x2048x2048 (![0, 1, 2] : Fin 3 → Fin S8x2048x2048.rank))
    (b : Fin 8) (i j : Fin 2048) :
    subf (broadcastInDim S8x2048x2048 ![0, 1, 2] h3 (broadcastInDim S8x2048x1 ![0, 1] h1 x))
        (broadcastInDim S8x2048x2048 ![0, 1, 2] h4 (broadcastInDim S8x1x2048 ![0, 2] h2 x)) (ix3 b i j)
      = x (ix2 b i) - x (ix2 b j) := by
  rw [subf_apply, bcast_col_spread_apply, bcast_col_apply, bcast_row_spread_apply, bcast_row_apply]

/-- The host's sign at an entry is the sign of the entry. -/
theorem hostSign_apply {s : Shape} (x : FVec Ideal s .f32) (i : s.Idx) : Host.sign x i = Ideal.sign (x i) := rfl

/-! ## The mask off the diagonal -/

/-- Row number (plus the zero word) compared with column number, as words: the bit of i = j. -/
theorem eq_word (i j : Fin 2048) :
    IntOp.cmpi .eq (IntOp.addi (BitVec.ofNat 32 i.val) 0#32) (BitVec.ofNat 32 j.val) = if i = j then 1#1 else 0#1 := by
  have h0 : IntOp.addi (BitVec.ofNat 32 i.val) 0#32 = BitVec.ofNat 32 i.val := BitVec.add_zero _
  rw [h0]
  split
  · next h => subst h; exact IntOp.cmpi_eq.mpr rfl
  · next h =>
    refine eq_zero_of_ne_one fun hc => h ?_
    have h2 := congrArg BitVec.toNat (IntOp.cmpi_eq.mp hc)
    rw [BitVec.toNat_ofNat, BitVec.toNat_ofNat, Nat.mod_eq_of_lt (Nat.lt_trans i.isLt (by decide)),
      Nat.mod_eq_of_lt (Nat.lt_trans j.isLt (by decide))] at h2
    exact Fin.ext h2

/-- One less the float of "row = column": at (i, j) it is 1 − [i = j]. -/
theorem offdiag_apply (h : S_.BroadcastsInDim S2048x2048 (![] : Fin 0 → Fin S2048x2048.rank)) (i j : Fin 2048) :
    subf (broadcastInDim S2048x2048 ![] h (constant (F := Ideal) S_ .f32 0x3F800000#32))
        (uitofp .f32 (cmpi .eq (addi (iotaInDim S2048x2048 32 0) (broadcastInDim S2048x2048 ![] h (constantI S_ 32 0#32)))
          (iotaInDim S2048x2048 32 1))) (ix2 i j)
      = (1 : EReal) - if i = j then 1 else 0 := by
  rw [subf_apply, broadcastInDim_scalar_apply, constant_apply, Ideal.ofBits_one_f32]
  show (1 : EReal) - (((IntOp.cmpi .eq (IntOp.addi (BitVec.ofNat 32 i.val) 0#32) (BitVec.ofNat 32 j.val)).toNat : ℝ) : EReal) = _
  rw [eq_word]
  split <;> simp

/-! ## The sum along the key axis -/

/-- The host's sum along the last axis of an [A, B, C] array: at (a, b) the initial value plus the sum of the entries
    x(a, b, ·). -/
theorem hostReduceAdd_last {A B C : ℕ} (x : (⟨3, ![A, B, C]⟩ : Shape).Idx → EReal)
    (h' : (⟨3, ![A, B, C]⟩ : Shape).ReducesTo [2] ⟨2, ![A, B]⟩) (h : (⟨3, ![A, B, C]⟩ : Shape).Reduces [2] ⟨2, ![A, B]⟩)
    (init : EReal) (a : Fin A) (b : Fin B) :
    Ideal.hostReduceAdd h' x init (ix2 a b) = init + ∑ c : Fin C, x (ix3 a b c) := by
  refine (Ideal.hostReduceAdd_single h' h x init (ix2 a b)).trans ?_
  exact congrArg (init + ·) (Finset.sum_congr rfl fun c _ => congrArg x (Cert.Lib.LastAxis.lift_last h a b c))

/-! ## The loss at a token -/

/-- The reference's loss at token (b, i), for real entries: the specification's entry of the token against its row. -/
theorem lossRef_eq [Cert.ReferenceIdeal.Facts] (vm rm : FVec Ideal S8x2048 .f32)
    (hv : ∀ j, ∃ x : ℝ, vm j = (x : EReal)) (hr : ∀ j, ∃ x : ℝ, rm j = (x : EReal)) (b : Fin 8) (i : Fin 2048) :
    lossRef (F := Ideal) vm rm (ix2 b i)
      = kerEntry (fun j => vm (ix2 b j)) (fun j => rm (ix2 b j)) (vm (ix2 b i)) (rm (ix2 b i)) := by
  refine Eq.trans ?_ (law (fun j => vm (ix2 b j)) (fun j => rm (ix2 b j)) (fun j => hv _) (fun j => hr _) i)
  unfold lossRef refEntry
  dsimp only []
  rw [hostDivf_apply, broadcastInDim_scalar_apply, constant_apply, hostReduceAdd_apply, constant_apply]
  unfold others
  refine congrArg (fun t => Ideal.div t (Ideal.ofBits .f32 0x44FFE000#32)) ?_
  refine (hostReduceAdd_last _ _ (by decide) _ b i).trans ?_
  rw [Ideal.ofBits_zero_f32]
  refine congrArg (fun t => (0 : EReal) + t) (Finset.sum_congr rfl fun j _ => ?_)
  rw [mulf_apply, maximumf_apply, subf_apply, mulf_apply, hostSign_apply, pair_diff_apply, pair_diff_apply,
    broadcastInDim_scalar_apply, broadcastInDim_scalar_apply, constant_apply, constant_apply,
    bcast_lead_spread_apply, bcast_lead_apply, offdiag_apply, Ideal.ofBits_zero_f32]
  rfl

end Cert.Hinge

end
-- ==== Proof.KLoss.lean ====
/-
  The launch's result array, brought back to [8, 2048], is the reference's per-token loss.

  The program casts the masked arrays [8, 2048] to [8, 1, 2048] before the launch and the result back after it. A cast
  between these shapes keeps the row and the position in the row: (b, i) ↔ (b, 0, i). So the result read at (b, i) is the
  entry of query i of row b against row b of the masked arrays, which for real entries is the reference's loss there.
-/
import proofs.«121960_j87024627352243_2_alg».proof.Proof.KSpec
import proofs.«121960_j87024627352243_2_alg».proof.Proof.RefEntry
import Idealize.ShloMosaic.Lib.Pipeline.Value

noncomputable section

namespace Cert.Hinge

open Idealize.ShloMosaic Idealize.ShloMosaic.ValueIdx

section Layout
variable {α : Type}

/-- An `[A, B]` array cast to `[A, 1, B]` reads, at `(a, u, b)`, the operand at `(a, b)`. -/
theorem shapeCast_ab_a1b_apply {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) :=
  shapeCast_apply x h _ _ (by
    have hu : u.val = 0 := by omega
    rw [Shape.rowMajor_val_two, Shape.rowMajor_val_three]
    show a.val * B + b.val = (a.val * 1 + u.val) * B + b.val
    rw [hu]
    simp)

/-- An `[A, 1, B]` array cast to `[A, B]` reads, at `(a, b)`, the operand at `(a, 0, b)`. -/
theorem shapeCast_a1b_ab_apply {A B : ℕ} (x : (⟨3, ![A, 1, B]⟩ : Shape).Idx → α)
    (h : (⟨3, ![A, 1, B]⟩ : Shape).ShapeCasts ⟨2, ![A, B]⟩) (a : Fin A) (b : Fin B) :
    shapeCast ⟨2, ![A, B]⟩ x h (ix2 a b) = x (ix3 a (0 : Fin 1) b) :=
  shapeCast_apply x h _ _ (by
    rw [Shape.rowMajor_val_three, Shape.rowMajor_val_two]
    show (a.val * 1 + 0) * B + b.val = a.val * B + b.val
    simp)

end Layout

/-- The result array of the masked arrays cast to [8, 1, 2048], cast back to [8, 2048], is the reference's loss of the
    masked arrays, when their entries are real numbers. -/
theorem loss_eq [Cert.ReferenceIdeal.Facts] (vm rm : FVec Ideal ⟨2, ![8, 2048]⟩ .f32)
    (hv : ∀ j, ∃ x : ℝ, vm j = (x : EReal)) (hr : ∀ j, ∃ x : ℝ, rm j = (x : EReal))
    (h1 : (⟨2, ![8, 2048]⟩ : Shape).ShapeCasts ⟨3, ![8, 1, 2048]⟩)
    (h2 : (⟨3, ![8, 1, 2048]⟩ : Shape).ShapeCasts ⟨2, ![8, 2048]⟩) :
    shapeCast ⟨2, ![8, 2048]⟩ (Gk (shapeCast ⟨3, ![8, 1, 2048]⟩ vm h1) (shapeCast ⟨3, ![8, 1, 2048]⟩ rm h1)) h2
      = lossRef (F := Ideal) vm rm := by
  funext y
  obtain ⟨b, i, rfl⟩ : ∃ (b : Fin 8) (i : Fin 2048), y = ix2 b i := ⟨y 0, y 1, eq_ix2 y⟩
  rw [shapeCast_a1b_ab_apply, lossRef_eq vm rm hv hr b i]
  show kerEntry (fun j => shapeCast ⟨3, ![8, 1, 2048]⟩ vm h1 (ix3 b (0 : Fin 1) j))
      (fun j => shapeCast ⟨3, ![8, 1, 2048]⟩ rm h1 (ix3 b (0 : Fin 1) j))
      (shapeCast ⟨3, ![8, 1, 2048]⟩ vm h1 (ix3 b (0 : Fin 1) i)) (shapeCast ⟨3, ![8, 1, 2048]⟩ rm h1 (ix3 b (0 : Fin 1) i)) = _
  simp only [shapeCast_ab_a1b_apply]

end Cert.Hinge

end
-- ==== Proof.KValue.lean ====
/-
  The kernel program's result as the reference's pure term of the arguments.

  After the host operations that follow the launch, the result buffer holds the statistics (`tailFn`) of the
  launch's result array cast back to [8, 2048], the mask as floats and the two masked arrays. The launch's
  result array is `Gk` of the masked arrays cast to [8, 1, 2048]; cast back it is the reference's per-token loss
  of the masked arrays, because under the finiteness test every masked entry is a real number. So the result
  is `refOut` of the three arguments. -/
import proofs.«121960_j87024627352243_2_alg».proof.Proof.KExitI
import proofs.«121960_j87024627352243_2_alg».proof.Proof.KTail
import proofs.«121960_j87024627352243_2_alg».proof.Proof.RealInputs
import proofs.«121960_j87024627352243_2_alg».proof.Proof.KArray
import proofs.«121960_j87024627352243_2_alg».proof.Proof.KLoss

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

section Value
variable [Cert.ReferenceIdeal.Facts] [Cert.Pre_finite_inputs.Facts]
variable (m : (ℓ : Loc nD τ sig) → Buf (Elt Ideal) ℓ) (c : Dev nD)

/-- The mask of core c's arguments as floats, -/
abbrev mkOf : FVec Ideal S8x2048 .f32 := sitofp .f32 (m ((c.tc : Thread nD τ).loc main_arg2) : IVec S8x2048 32)
/-- the masked values, -/
abbrev vmOf : FVec Ideal S8x2048 .f32 := mulf (m ((c.tc : Thread nD τ).loc main_arg0) : FVec Ideal S8x2048 .f32) (mkOf m c)
/-- and the masked rewards. -/
abbrev rmOf : FVec Ideal S8x2048 .f32 := mulf (m ((c.tc : Thread nD τ).loc main_arg1) : FVec Ideal S8x2048 .f32) (mkOf m c)

/-- At the region's exit the mask as floats and the masked arrays are as the first host operations left them. -/
theorem Wmid_v0 : Wmid m c (Proc.devRef .tc main_v0) = mkOf m c :=
  (Wmid_ne m c main_v0 (by decide)).trans (Cert.KernelIdeal.TailValue.head_v0 (fun b => m (c, b)))
theorem Wmid_v1 : Wmid m c (Proc.devRef .tc main_v1) = vmOf m c :=
  (Wmid_ne m c main_v1 (by decide)).trans (Cert.KernelIdeal.TailValue.head_v1 (fun b => m (c, b)))
theorem Wmid_v2 : Wmid m c (Proc.devRef .tc main_v2) = rmOf m c :=
  (Wmid_ne m c main_v2 (by decide)).trans (Cert.KernelIdeal.TailValue.head_v2 (fun b => m (c, b)))

/-- The two arrays the launch reads are the masked arrays cast to [8, 1, 2048]. -/
theorem V_v3 : V m c main_v3
    = shapeCast S8x1x2048 (vmOf m c) shapeCasts_S8x2048_S8x1x2048 :=
  Cert.KernelIdeal.TailValue.head_v3 (fun b => m (c, b))
theorem V_v4 : V m c main_v4
    = shapeCast S8x1x2048 (rmOf m c) shapeCasts_S8x2048_S8x1x2048 :=
  Cert.KernelIdeal.TailValue.head_v4 (fun b => m (c, b))

/-- The launch's result array, cast back to [8, 2048], is the reference's per-token loss of the masked arrays. -/
theorem Wmid_v5_loss (hpre : Cert.Pre_KernelIdeal m) :
    shapeCast S8x2048 (Wmid m c (Proc.devRef .tc main_v5)) shapeCasts_S8x1x2048_S8x2048
      = Cert.Hinge.lossRef (F := Ideal) (vmOf m c) (rmOf m c) := by
  obtain ⟨hv, hr⟩ := Cert.Hinge.real_inputs _ _ _ (hpre c)
  rw [Wmid_v5, Cert.Hinge.out_array, V_v3, V_v4]
  exact Cert.Hinge.loss_eq _ _ hv hr _ _

end Value

end Cert.KernelIdeal.HandValue

namespace Cert.KernelIdeal.Hand

open Idealize.ShloMosaic Idealize.ShloMosaic.TcCoe Idealize.SL.Sem Idealize.ShloMosaic.StableHlo
open Cert.KernelIdeal Cert.KernelIdeal.Gen Cert.KernelIdeal.HandValue

section Value
variable [Cert.ReferenceIdeal.Facts] [Cert.Pre_finite_inputs.Facts]
variable (m : (ℓ : Loc nD τ sig) → Buf (Elt Ideal) ℓ) (c : Dev nD)

/-- The program's result buffer ends at the reference's pure term of the three arguments. -/
theorem Wout_v54 (hpre : Cert.Pre_KernelIdeal m) :
    Wout (F := Ideal) m c (Proc.devRef .tc main_v54)
      = Cert.Hinge.refOut (F := Ideal) (m ((c.tc : Thread nD τ).loc main_arg0)) (m ((c.tc : Thread nD τ).loc main_arg1)) (m ((c.tc : Thread nD τ).loc main_arg2)) := by
  have h := Cert.KernelIdeal.TailValue.tail_v54 (F := Ideal) (Wmid m c)
  rw [Wmid_v5_loss m c hpre, Wmid_v0, Wmid_v1, Wmid_v2] at h
  exact h

end Value

end Cert.KernelIdeal.Hand

end
-- ==== Proof.RefRun.lean ====
/-
  The reference program run: its @main is a straight line of host operations (the outlined functions'
  bodies listed at their calls), every weakly fair execution terminates, and the result buffer ends at
  the pure term `Cert.Hinge.refOut` of the three argument arrays, the arguments unchanged.
-/
import proofs.«121960_j87024627352243_2_alg».proof.Proof.RefSpec
import Idealize.ShloMosaic.Lib.StableHlo.Run
import Idealize.ShloMosaic.Lib.Pipeline.Regions

noncomputable section

namespace Cert.ReferenceIdeal.RefValue

open Cert.ReferenceIdeal Idealize.ShloMosaic Idealize.ShloMosaic.TcCoe Idealize.SL.Sem Idealize.ShloMosaic.StableHlo

variable {F : FTy → Type} [FloatOps F]
variable [Cert.ReferenceIdeal.Facts]
open Cert.ReferenceIdeal.Facts₀ Cert.ReferenceIdeal.Facts

/-- @main's 151 operations, in order, the outlined functions' at their calls. -/
abbrev ops : List (HloOp τ sig (Elt F)) :=
  [ StableHlo.unary main_arg2 main_v0 (sitofp .f32 : (⟨S8x2048, .i32⟩ : BufTy).Contents (Elt F) → (⟨S8x2048, .f32⟩ : BufTy).Contents (Elt F)),
    StableHlo.binary main_arg0 main_v0 main_v1 (mulf : (⟨S8x2048, .f32⟩ : BufTy).Contents (Elt F) → (⟨S8x2048, .f32⟩ : BufTy).Contents (Elt F) → (⟨S8x2048, .f32⟩ : BufTy).Contents (Elt F)),
    StableHlo.binary main_arg1 main_v0 main_v2 (mulf : (⟨S8x2048, .f32⟩ : BufTy).Contents (Elt F) → (⟨S8x2048, .f32⟩ : BufTy).Contents (Elt F) → (⟨S8x2048, .f32⟩ : BufTy).Contents (Elt F)),
    StableHlo.unary main_v2 main_v3 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v2 main_v4 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v3 main_v5 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v4 main_v6 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v5 main_v6 main_v7 (subf : (⟨S8x2048x2048, .f32⟩ : BufTy).Contents (Elt F) → (⟨S8x2048x2048, .f32⟩ : BufTy).Contents (Elt F) → (⟨S8x2048x2048, .f32⟩ : BufTy).Contents (Elt F)),
    StableHlo.unary main_v1 main_v8 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v1 main_v9 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v8 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v9 main_v11 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v10 main_v11 main_v12 (subf : (⟨S8x2048x2048, .f32⟩ : BufTy).Contents (Elt F) → (⟨S8x2048x2048, .f32⟩ : BufTy).Contents (Elt F) → (⟨S8x2048x2048, .f32⟩ : BufTy).Contents (Elt F)),
    StableHlo.unary main_v7 main_v13 (Host.sign : (⟨S8x2048x2048, .f32⟩ : BufTy).Contents (Elt F) → (⟨S8x2048x2048, .f32⟩ : BufTy).Contents (Elt F)),
    StableHlo.binary main_v12 main_v13 main_v14 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst (constant S_ .f32 0x3DCCCCCD#32),
    StableHlo.unary main_cst main_v15 (broadcastInDim S8x2048x2048 ![] bcast_S_S8x2048x2048 : (⟨S_, .f32⟩ : BufTy).Contents (Elt F) → (⟨S8x2048x2048, .f32⟩ : BufTy).Contents (Elt F)),
    StableHlo.binary main_v15 main_v14 main_v16 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_0 (constant S_ .f32 0x00000000#32),
    StableHlo.unary main_cst_0 main_v17 (broadcastInDim S8x2048x2048 ![] bcast_S_S8x2048x2048 : (⟨S_, .f32⟩ : BufTy).Contents (Elt F) → (⟨S8x2048x2048, .f32⟩ : BufTy).Contents (Elt F)),
    StableHlo.binary main_v16 main_v17 main_v18 (maximumf : (⟨S8x2048x2048, .f32⟩ : BufTy).Contents (Elt F) → (⟨S8x2048x2048, .f32⟩ : BufTy).Contents (Elt F) → (⟨S8x2048x2048, .f32⟩ : BufTy).Contents (Elt F)),
    StableHlo.nullary main_v19 (iotaInDim S2048x2048 32 0),
    StableHlo.nullary main_v20 (iotaInDim S2048x2048 32 1),
    StableHlo.nullary main_c (constantI S_ 32 0#32),
    StableHlo.unary main_c main_v21 (broadcastInDim S2048x2048 ![] bcast_S_S2048x2048 : (⟨S_, .i32⟩ : BufTy).Contents (Elt F) → (⟨S2048x2048, .i32⟩ : BufTy).Contents (Elt F)),
    StableHlo.binary main_v19 main_v21 main_v22 (addi : (⟨S2048x2048, .i32⟩ : BufTy).Contents (Elt F) → (⟨S2048x2048, .i32⟩ : BufTy).Contents (Elt F) → (⟨S2048x2048, .i32⟩ : BufTy).Contents (Elt F)),
    StableHlo.binary main_v22 main_v20 main_v23 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v23 main_v24 (uitofp .f32 : (⟨S2048x2048, .i1⟩ : BufTy).Contents (Elt F) → (⟨S2048x2048, .f32⟩ : BufTy).Contents (Elt F)),
    StableHlo.nullary main_cst_1 (constant S_ .f32 0x3F800000#32),
    StableHlo.unary main_cst_1 main_v25 (broadcastInDim S2048x2048 ![] bcast_S_S2048x2048 : (⟨S_, .f32⟩ : BufTy).Contents (Elt F) → (⟨S2048x2048, .f32⟩ : BufTy).Contents (Elt F)),
    StableHlo.binary main_v25 main_v24 main_v26 (subf : (⟨S2048x2048, .f32⟩ : BufTy).Contents (Elt F) → (⟨S2048x2048, .f32⟩ : BufTy).Contents (Elt F) → (⟨S2048x2048, .f32⟩ : BufTy).Contents (Elt F)),
    StableHlo.unary main_v26 main_v27 (broadcastInDim S1x2048x2048 ![1, 2] bcast_S2048x2048_S1x2048x2048_1_2 : (⟨S2048x2048, .f32⟩ : BufTy).Contents (Elt F) → (⟨S1x2048x2048, .f32⟩ : BufTy).Contents (Elt F)),
    StableHlo.unary main_v27 main_v28 (broadcastInDim S8x2048x2048 ![0, 1, 2] bcast_S1x2048x2048_S8x2048x2048_0_1_2 : (⟨S1x2048x2048, .f32⟩ : BufTy).Contents (Elt F) → (⟨S8x2048x2048, .f32⟩ : BufTy).Contents (Elt F)),
    StableHlo.binary main_v18 main_v28 main_v29 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_2 (constant S_ .f32 0x00000000#32),
    StableHlo.binary main_v29 main_cst_2 main_v30 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    StableHlo.nullary main_cst_3 (constant S_ .f32 0x44FFE000#32),
    StableHlo.unary main_cst_3 main_v31 (broadcastInDim S8x2048 ![] bcast_S_S8x2048 : (⟨S_, .f32⟩ : BufTy).Contents (Elt F) → (⟨S8x2048, .f32⟩ : BufTy).Contents (Elt F)),
    StableHlo.binary main_v30 main_v31 main_v32 (Host.divf : (⟨S8x2048, .f32⟩ : BufTy).Contents (Elt F) → (⟨S8x2048, .f32⟩ : BufTy).Contents (Elt F) → (⟨S8x2048, .f32⟩ : BufTy).Contents (Elt F)),
    StableHlo.binary main_v32 main_v0 main_v33 (mulf : (⟨S8x2048, .f32⟩ : BufTy).Contents (Elt F) → (⟨S8x2048, .f32⟩ : BufTy).Contents (Elt F) → (⟨S8x2048, .f32⟩ : BufTy).Contents (Elt F)),
    StableHlo.nullary main_cst_4 (constant S_ .f32 0x00000000#32),
    StableHlo.binary main_v0 main_cst_4 main_v34 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.nullary main_cst_5 (constant S_ .f32 0x3F800000#32),
    StableHlo.unary main_cst_5 main_v35 (broadcastInDim S8 ![] bcast_S_S8 : (⟨S_, .f32⟩ : BufTy).Contents (Elt F) → (⟨S8, .f32⟩ : BufTy).Contents (Elt F)),
    StableHlo.binary main_v34 main_v35 main_v36 (maximumf : (⟨S8, .f32⟩ : BufTy).Contents (Elt F) → (⟨S8, .f32⟩ : BufTy).Contents (Elt F) → (⟨S8, .f32⟩ : BufTy).Contents (Elt F)),
    StableHlo.nullary main_cst_6 (constant S_ .f32 0x00000000#32),
    StableHlo.binary main_v33 main_cst_6 main_v37 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.binary main_v37 main_v36 main_v38 (Host.divf : (⟨S8, .f32⟩ : BufTy).Contents (Elt F) → (⟨S8, .f32⟩ : BufTy).Contents (Elt F) → (⟨S8, .f32⟩ : BufTy).Contents (Elt F)),
    StableHlo.nullary main_cst_7 (constant S_ .f32 0x00000000#32),
    StableHlo.binary main_v38 main_cst_7 main_v39 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_8 (constant S_ .f32 0x41000000#32),
    StableHlo.binary main_v39 main_cst_8 main_v40 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v0 main_cst_9 main_v41 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.binary main_v41 main_cst_10 main_v42 (maximumf : (⟨S_, .f32⟩ : BufTy).Contents (Elt F) → (⟨S_, .f32⟩ : BufTy).Contents (Elt F) → (⟨S_, .f32⟩ : BufTy).Contents (Elt F)),
    StableHlo.binary main_v1 main_v0 main_v43 (mulf : (⟨S8x2048, .f32⟩ : BufTy).Contents (Elt F) → (⟨S8x2048, .f32⟩ : BufTy).Contents (Elt F) → (⟨S8x2048, .f32⟩ : BufTy).Contents (Elt F)),
    StableHlo.nullary main_cst_11 (constant S_ .f32 0x00000000#32),
    StableHlo.binary main_v43 main_cst_11 main_v44 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v44 main_v42 main_v45 (Host.divf : (⟨S_, .f32⟩ : BufTy).Contents (Elt F) → (⟨S_, .f32⟩ : BufTy).Contents (Elt F) → (⟨S_, .f32⟩ : BufTy).Contents (Elt F)),
    StableHlo.binary main_v2 main_v0 main_v46 (mulf : (⟨S8x2048, .f32⟩ : BufTy).Contents (Elt F) → (⟨S8x2048, .f32⟩ : BufTy).Contents (Elt F) → (⟨S8x2048, .f32⟩ : BufTy).Contents (Elt F)),
    StableHlo.nullary main_cst_12 (constant S_ .f32 0x00000000#32),
    StableHlo.binary main_v46 main_cst_12 main_v47 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v47 main_v42 main_v48 (Host.divf : (⟨S_, .f32⟩ : BufTy).Contents (Elt F) → (⟨S_, .f32⟩ : BufTy).Contents (Elt F) → (⟨S_, .f32⟩ : BufTy).Contents (Elt F)),
    StableHlo.unary main_v45 main_v49 (broadcastInDim S8x2048 ![] bcast_S_S8x2048 : (⟨S_, .f32⟩ : BufTy).Contents (Elt F) → (⟨S8x2048, .f32⟩ : BufTy).Contents (Elt F)),
    StableHlo.binary main_v1 main_v49 main_v50 (subf : (⟨S8x2048, .f32⟩ : BufTy).Contents (Elt F) → (⟨S8x2048, .f32⟩ : BufTy).Contents (Elt F) → (⟨S8x2048, .f32⟩ : BufTy).Contents (Elt F)),
    StableHlo.binary main_v50 main_v0 main_v51 (mulf : (⟨S8x2048, .f32⟩ : BufTy).Contents (Elt F) → (⟨S8x2048, .f32⟩ : BufTy).Contents (Elt F) → (⟨S8x2048, .f32⟩ : BufTy).Contents (Elt F)),
    StableHlo.unary main_v48 main_v52 (broadcastInDim S8x2048 ![] bcast_S_S8x2048 : (⟨S_, .f32⟩ : BufTy).Contents (Elt F) → (⟨S8x2048, .f32⟩ : BufTy).Contents (Elt F)),
    StableHlo.binary main_v2 main_v52 main_v53 (subf : (⟨S8x2048, .f32⟩ : BufTy).Contents (Elt F) → (⟨S8x2048, .f32⟩ : BufTy).Contents (Elt F) → (⟨S8x2048, .f32⟩ : BufTy).Contents (Elt F)),
    StableHlo.binary main_v53 main_v0 main_v54 (mulf : (⟨S8x2048, .f32⟩ : BufTy).Contents (Elt F) → (⟨S8x2048, .f32⟩ : BufTy).Contents (Elt F) → (⟨S8x2048, .f32⟩ : BufTy).Contents (Elt F)),
    StableHlo.binary main_v51 main_v54 main_v55 (mulf : (⟨S8x2048, .f32⟩ : BufTy).Contents (Elt F) → (⟨S8x2048, .f32⟩ : BufTy).Contents (Elt F) → (⟨S8x2048, .f32⟩ : BufTy).Contents (Elt F)),
    StableHlo.nullary main_cst_13 (constant S_ .f32 0x00000000#32),
    StableHlo.binary main_v55 main_cst_13 main_v56 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v51 main_v51 main_v57 (mulf : (⟨S8x2048, .f32⟩ : BufTy).Contents (Elt F) → (⟨S8x2048, .f32⟩ : BufTy).Contents (Elt F) → (⟨S8x2048, .f32⟩ : BufTy).Contents (Elt F)),
    StableHlo.nullary main_cst_14 (constant S_ .f32 0x00000000#32),
    StableHlo.binary main_v57 main_cst_14 main_v58 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v54 main_v54 main_v59 (mulf : (⟨S8x2048, .f32⟩ : BufTy).Contents (Elt F) → (⟨S8x2048, .f32⟩ : BufTy).Contents (Elt F) → (⟨S8x2048, .f32⟩ : BufTy).Contents (Elt F)),
    StableHlo.nullary main_cst_15 (constant S_ .f32 0x00000000#32),
    StableHlo.binary main_v59 main_cst_15 main_v60 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v58 main_v60 main_v61 (mulf : (⟨S_, .f32⟩ : BufTy).Contents (Elt F) → (⟨S_, .f32⟩ : BufTy).Contents (Elt F) → (⟨S_, .f32⟩ : BufTy).Contents (Elt F)),
    StableHlo.unary main_v61 main_v62 (Host.sqrt : (⟨S_, .f32⟩ : BufTy).Contents (Elt F) → (⟨S_, .f32⟩ : BufTy).Contents (Elt F)),
    StableHlo.nullary main_cst_16 (constant S_ .f32 0x00000000#32),
    StableHlo.binary main_v62 main_cst_16 main_v63 (cmpf .ogt : (⟨S_, .f32⟩ : BufTy).Contents (Elt F) → (⟨S_, .f32⟩ : BufTy).Contents (Elt F) → (⟨S_, .i1⟩ : BufTy).Contents (Elt F)),
    StableHlo.nullary main_cst_17 (constant S_ .f32 0x3F800000#32),
    StableHlo.TRef.unary (.of main_cst_17 : StableHlo.TRef sig ⟨S_, .f32⟩) (.of main_call0_v0 : StableHlo.TRef sig ⟨S_, .f32⟩) id,
    StableHlo.TRef.ternary (.of main_v63 : StableHlo.TRef sig ⟨S_, .i1⟩) (.of main_v62 : StableHlo.TRef sig ⟨S_, .f32⟩) (.of main_call0_v0 : StableHlo.TRef sig ⟨S_, .f32⟩) (.of main_v64 : StableHlo.TRef sig ⟨S_, .f32⟩) select,
    StableHlo.nullary main_cst_18 (constant S_ .f32 0x00000000#32),
    StableHlo.binary main_v62 main_cst_18 main_v65 (cmpf .ogt : (⟨S_, .f32⟩ : BufTy).Contents (Elt F) → (⟨S_, .f32⟩ : BufTy).Contents (Elt F) → (⟨S_, .i1⟩ : BufTy).Contents (Elt F)),
    StableHlo.binary main_v56 main_v64 main_v66 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32),
    StableHlo.TRef.unary (.of main_cst_19 : StableHlo.TRef sig ⟨S_, .f32⟩) (.of main_call1_v0 : StableHlo.TRef sig ⟨S_, .f32⟩) id,
    StableHlo.TRef.ternary (.of main_v65 : StableHlo.TRef sig ⟨S_, .i1⟩) (.of main_v66 : StableHlo.TRef sig ⟨S_, .f32⟩) (.of main_call1_v0 : StableHlo.TRef sig ⟨S_, .f32⟩) (.of main_v67 : StableHlo.TRef sig ⟨S_, .f32⟩) select,
    StableHlo.nullary main_cst_20 (constant S_ .f32 0x00000000#32),
    StableHlo.binary main_v1 main_cst_20 main_v68 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_21 (constant S_ .f32 0x46800000#32),
    StableHlo.binary main_v68 main_cst_21 main_v69 (Host.divf : (⟨S_, .f32⟩ : BufTy).Contents (Elt F) → (⟨S_, .f32⟩ : BufTy).Contents (Elt F) → (⟨S_, .f32⟩ : BufTy).Contents (Elt F)),
    StableHlo.nullary main_c_22 (constantI S_ 32 1#32),
    StableHlo.TRef.nullary (.of main_call2_call0_cst : StableHlo.TRef sig ⟨S_, .f32⟩) (constant S_ .f32 0x00000000#32),
    StableHlo.TRef.binary (.of main_v1 : StableHlo.TRef sig ⟨S8x2048, .f32⟩) (.of main_call2_call0_cst : StableHlo.TRef sig ⟨S_, .f32⟩) (.of main_call2_call0_v0 : StableHlo.TRef sig ⟨S_, .f32⟩) (fun x v => Host.reduceAdd x v reducesTo_S8x2048_S_d0_1 h_S_),
    StableHlo.TRef.unary (.of main_call2_call0_v0 : StableHlo.TRef sig ⟨S_, .f32⟩) (.of main_call2_call0_v1 : StableHlo.TRef sig ⟨S1x1, .f32⟩) (broadcastInDim S1x1 ![] bcast_S_S1x1),
    StableHlo.TRef.nullary (.of main_call2_call0_cst_0 : StableHlo.TRef sig ⟨S_, .f32⟩) (constant S_ .f32 0x46800000#32),
    StableHlo.TRef.unary (.of main_call2_call0_cst_0 : StableHlo.TRef sig ⟨S_, .f32⟩) (.of main_call2_call0_v2 : StableHlo.TRef sig ⟨S1x1, .f32⟩) (broadcastInDim S1x1 ![] bcast_S_S1x1),
    StableHlo.TRef.binary (.of main_call2_call0_v1 : StableHlo.TRef sig ⟨S1x1, .f32⟩) (.of main_call2_call0_v2 : StableHlo.TRef sig ⟨S1x1, .f32⟩) (.of main_call2_call0_v3 : StableHlo.TRef sig ⟨S1x1, .f32⟩) Host.divf,
    StableHlo.TRef.unary (.of main_call2_call0_v3 : StableHlo.TRef sig ⟨S1x1, .f32⟩) (.of main_call2_call0_v4 : StableHlo.TRef sig ⟨S8x2048, .f32⟩) (broadcastInDim S8x2048 ![0, 1] bcast_S1x1_S8x2048_0_1),
    StableHlo.TRef.binary (.of main_v1 : StableHlo.TRef sig ⟨S8x2048, .f32⟩) (.of main_call2_call0_v4 : StableHlo.TRef sig ⟨S8x2048, .f32⟩) (.of main_call2_call0_v5 : StableHlo.TRef sig ⟨S8x2048, .f32⟩) subf,
    StableHlo.TRef.binary (.of main_call2_call0_v5 : StableHlo.TRef sig ⟨S8x2048, .f32⟩) (.of main_call2_call0_v5 : StableHlo.TRef sig ⟨S8x2048, .f32⟩) (.of main_call2_call0_v6 : StableHlo.TRef sig ⟨S8x2048, .f32⟩) mulf,
    StableHlo.TRef.unary (.of main_c_22 : StableHlo.TRef sig ⟨S_, .i32⟩) (.of main_call2_call0_v7 : StableHlo.TRef sig ⟨S_, .f32⟩) (sitofp .f32),
    StableHlo.TRef.nullary (.of main_call2_call0_cst_1 : StableHlo.TRef sig ⟨S_, .f32⟩) (constant S_ .f32 0x46800000#32),
    StableHlo.TRef.binary (.of main_call2_call0_cst_1 : StableHlo.TRef sig ⟨S_, .f32⟩) (.of main_call2_call0_v7 : StableHlo.TRef sig ⟨S_, .f32⟩) (.of main_call2_call0_v8 : StableHlo.TRef sig ⟨S_, .f32⟩) subf,
    StableHlo.TRef.nullary (.of main_call2_call0_cst_2 : StableHlo.TRef sig ⟨S_, .f32⟩) (constant S_ .f32 0x00000000#32),
    StableHlo.TRef.binary (.of main_call2_call0_v6 : StableHlo.TRef sig ⟨S8x2048, .f32⟩) (.of main_call2_call0_cst_2 : StableHlo.TRef sig ⟨S_, .f32⟩) (.of main_call2_call0_v9 : StableHlo.TRef sig ⟨S_, .f32⟩) (fun x v => Host.reduceAdd x v reducesTo_S8x2048_S_d0_1 h_S_),
    StableHlo.TRef.binary (.of main_call2_call0_v9 : StableHlo.TRef sig ⟨S_, .f32⟩) (.of main_call2_call0_v8 : StableHlo.TRef sig ⟨S_, .f32⟩) (.of main_call2_call0_v10 : StableHlo.TRef sig ⟨S_, .f32⟩) Host.divf,
    StableHlo.TRef.nullary (.of main_call2_call0_cst_3 : StableHlo.TRef sig ⟨S_, .f32⟩) (constant S_ .f32 0x00000000#32),
    StableHlo.TRef.binary (.of main_call2_call0_v8 : StableHlo.TRef sig ⟨S_, .f32⟩) (.of main_call2_call0_cst_3 : StableHlo.TRef sig ⟨S_, .f32⟩) (.of main_call2_call0_v11 : StableHlo.TRef sig ⟨S_, .i1⟩) (cmpf .ogt),
    StableHlo.TRef.nullary (.of main_call2_call0_cst_4 : StableHlo.TRef sig ⟨S_, .f32⟩) (constant S_ .f32 0x7FC00000#32),
    StableHlo.TRef.unary (.of main_call2_call0_cst_4 : StableHlo.TRef sig ⟨S_, .f32⟩) (.of main_call2_call0_call0_v0 : StableHlo.TRef sig ⟨S_, .f32⟩) id,
    StableHlo.TRef.ternary (.of main_call2_call0_v11 : StableHlo.TRef sig ⟨S_, .i1⟩) (.of main_call2_call0_v10 : StableHlo.TRef sig ⟨S_, .f32⟩) (.of main_call2_call0_call0_v0 : StableHlo.TRef sig ⟨S_, .f32⟩) (.of main_call2_v0 : StableHlo.TRef sig ⟨S_, .f32⟩) select,
    StableHlo.TRef.unary (.of main_call2_v0 : StableHlo.TRef sig ⟨S_, .f32⟩) (.of main_v70 : StableHlo.TRef sig ⟨S_, .f32⟩) Host.sqrt,
    StableHlo.nullary main_cst_23 (constant S_ .f32 0x00000000#32),
    StableHlo.binary main_v2 main_cst_23 main_v71 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_24 (constant S_ .f32 0x46800000#32),
    StableHlo.binary main_v71 main_cst_24 main_v72 (Host.divf : (⟨S_, .f32⟩ : BufTy).Contents (Elt F) → (⟨S_, .f32⟩ : BufTy).Contents (Elt F) → (⟨S_, .f32⟩ : BufTy).Contents (Elt F)),
    StableHlo.nullary main_c_25 (constantI S_ 32 1#32),
    StableHlo.TRef.nullary (.of main_call3_call0_cst : StableHlo.TRef sig ⟨S_, .f32⟩) (constant S_ .f32 0x00000000#32),
    StableHlo.TRef.binary (.of main_v2 : StableHlo.TRef sig ⟨S8x2048, .f32⟩) (.of main_call3_call0_cst : StableHlo.TRef sig ⟨S_, .f32⟩) (.of main_call3_call0_v0 : StableHlo.TRef sig ⟨S_, .f32⟩) (fun x v => Host.reduceAdd x v reducesTo_S8x2048_S_d0_1 h_S_),
    StableHlo.TRef.unary (.of main_call3_call0_v0 : StableHlo.TRef sig ⟨S_, .f32⟩) (.of main_call3_call0_v1 : StableHlo.TRef sig ⟨S1x1, .f32⟩) (broadcastInDim S1x1 ![] bcast_S_S1x1),
    StableHlo.TRef.nullary (.of main_call3_call0_cst_0 : StableHlo.TRef sig ⟨S_, .f32⟩) (constant S_ .f32 0x46800000#32),
    StableHlo.TRef.unary (.of main_call3_call0_cst_0 : StableHlo.TRef sig ⟨S_, .f32⟩) (.of main_call3_call0_v2 : StableHlo.TRef sig ⟨S1x1, .f32⟩) (broadcastInDim S1x1 ![] bcast_S_S1x1),
    StableHlo.TRef.binary (.of main_call3_call0_v1 : StableHlo.TRef sig ⟨S1x1, .f32⟩) (.of main_call3_call0_v2 : StableHlo.TRef sig ⟨S1x1, .f32⟩) (.of main_call3_call0_v3 : StableHlo.TRef sig ⟨S1x1, .f32⟩) Host.divf,
    StableHlo.TRef.unary (.of main_call3_call0_v3 : StableHlo.TRef sig ⟨S1x1, .f32⟩) (.of main_call3_call0_v4 : StableHlo.TRef sig ⟨S8x2048, .f32⟩) (broadcastInDim S8x2048 ![0, 1] bcast_S1x1_S8x2048_0_1),
    StableHlo.TRef.binary (.of main_v2 : StableHlo.TRef sig ⟨S8x2048, .f32⟩) (.of main_call3_call0_v4 : StableHlo.TRef sig ⟨S8x2048, .f32⟩) (.of main_call3_call0_v5 : StableHlo.TRef sig ⟨S8x2048, .f32⟩) subf,
    StableHlo.TRef.binary (.of main_call3_call0_v5 : StableHlo.TRef sig ⟨S8x2048, .f32⟩) (.of main_call3_call0_v5 : StableHlo.TRef sig ⟨S8x2048, .f32⟩) (.of main_call3_call0_v6 : StableHlo.TRef sig ⟨S8x2048, .f32⟩) mulf,
    StableHlo.TRef.unary (.of main_c_25 : StableHlo.TRef sig ⟨S_, .i32⟩) (.of main_call3_call0_v7 : StableHlo.TRef sig ⟨S_, .f32⟩) (sitofp .f32),
    StableHlo.TRef.nullary (.of main_call3_call0_cst_1 : StableHlo.TRef sig ⟨S_, .f32⟩) (constant S_ .f32 0x46800000#32),
    StableHlo.TRef.binary (.of main_call3_call0_cst_1 : StableHlo.TRef sig ⟨S_, .f32⟩) (.of main_call3_call0_v7 : StableHlo.TRef sig ⟨S_, .f32⟩) (.of main_call3_call0_v8 : StableHlo.TRef sig ⟨S_, .f32⟩) subf,
    StableHlo.TRef.nullary (.of main_call3_call0_cst_2 : StableHlo.TRef sig ⟨S_, .f32⟩) (constant S_ .f32 0x00000000#32),
    StableHlo.TRef.binary (.of main_call3_call0_v6 : StableHlo.TRef sig ⟨S8x2048, .f32⟩) (.of main_call3_call0_cst_2 : StableHlo.TRef sig ⟨S_, .f32⟩) (.of main_call3_call0_v9 : StableHlo.TRef sig ⟨S_, .f32⟩) (fun x v => Host.reduceAdd x v reducesTo_S8x2048_S_d0_1 h_S_),
    StableHlo.TRef.binary (.of main_call3_call0_v9 : StableHlo.TRef sig ⟨S_, .f32⟩) (.of main_call3_call0_v8 : StableHlo.TRef sig ⟨S_, .f32⟩) (.of main_call3_call0_v10 : StableHlo.TRef sig ⟨S_, .f32⟩) Host.divf,
    StableHlo.TRef.nullary (.of main_call3_call0_cst_3 : StableHlo.TRef sig ⟨S_, .f32⟩) (constant S_ .f32 0x00000000#32),
    StableHlo.TRef.binary (.of main_call3_call0_v8 : StableHlo.TRef sig ⟨S_, .f32⟩) (.of main_call3_call0_cst_3 : StableHlo.TRef sig ⟨S_, .f32⟩) (.of main_call3_call0_v11 : StableHlo.TRef sig ⟨S_, .i1⟩) (cmpf .ogt),
    StableHlo.TRef.nullary (.of main_call3_call0_cst_4 : StableHlo.TRef sig ⟨S_, .f32⟩) (constant S_ .f32 0x7FC00000#32),
    StableHlo.TRef.unary (.of main_call3_call0_cst_4 : StableHlo.TRef sig ⟨S_, .f32⟩) (.of main_call3_call0_call0_v0 : StableHlo.TRef sig ⟨S_, .f32⟩) id,
    StableHlo.TRef.ternary (.of main_call3_call0_v11 : StableHlo.TRef sig ⟨S_, .i1⟩) (.of main_call3_call0_v10 : StableHlo.TRef sig ⟨S_, .f32⟩) (.of main_call3_call0_call0_v0 : StableHlo.TRef sig ⟨S_, .f32⟩) (.of main_call3_v0 : StableHlo.TRef sig ⟨S_, .f32⟩) select,
    StableHlo.TRef.unary (.of main_call3_v0 : StableHlo.TRef sig ⟨S_, .f32⟩) (.of main_v73 : StableHlo.TRef sig ⟨S_, .f32⟩) Host.sqrt,
    StableHlo.unary main_v40 main_v74 (broadcastInDim S1 ![] bcast_S_S1 : (⟨S_, .f32⟩ : BufTy).Contents (Elt F) → (⟨S1, .f32⟩ : BufTy).Contents (Elt F)),
    StableHlo.unary main_v67 main_v75 (broadcastInDim S1 ![] bcast_S_S1 : (⟨S_, .f32⟩ : BufTy).Contents (Elt F) → (⟨S1, .f32⟩ : BufTy).Contents (Elt F)),
    StableHlo.unary main_v69 main_v76 (broadcastInDim S1 ![] bcast_S_S1 : (⟨S_, .f32⟩ : BufTy).Contents (Elt F) → (⟨S1, .f32⟩ : BufTy).Contents (Elt F)),
    StableHlo.unary main_v70 main_v77 (broadcastInDim S1 ![] bcast_S_S1 : (⟨S_, .f32⟩ : BufTy).Contents (Elt F) → (⟨S1, .f32⟩ : BufTy).Contents (Elt F)),
    StableHlo.unary main_v72 main_v78 (broadcastInDim S1 ![] bcast_S_S1 : (⟨S_, .f32⟩ : BufTy).Contents (Elt F) → (⟨S1, .f32⟩ : BufTy).Contents (Elt F)),
    StableHlo.unary main_v73 main_v79 (broadcastInDim S1 ![] bcast_S_S1 : (⟨S_, .f32⟩ : BufTy).Contents (Elt F) → (⟨S1, .f32⟩ : BufTy).Contents (Elt F)),
    StableHlo.nary ![main_v74, main_v75, main_v76, main_v77, main_v78, main_v79] main_v80 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

set_option maxRecDepth 65536 in
/-- @main is that straight line: its two windows in sequence, the functions' definitions unfolded at their
    calls, both sides one chain of steps — by definitional unfolding. -/
theorem main_eq (c : Dev nD) : main (F := F) c = seq ops := by
  show (main_part0 (F := F) c >>= fun _ => main_part1 (F := F) c) = _
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., unary_bufs_sub .., binary_bufs_sub .., binary_bufs_sub .., unary_bufs_sub .., binary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub .., unary_bufs_sub .., nullary_bufs_sub .., binary_bufs_sub .., nullary_bufs_sub .., unary_bufs_sub .., ternary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., unary_bufs_sub .., unary_bufs_sub .., unary_bufs_sub .., unary_bufs_sub .., unary_bufs_sub .., nary_bufs_sub ..⟩

theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- The mask as floats and the two masked arrays. -/
abbrev opsHead : List (HloOp τ sig (Elt F)) :=
  [ StableHlo.unary main_arg2 main_v0 (sitofp .f32 : (⟨S8x2048, .i32⟩ : BufTy).Contents (Elt F) → (⟨S8x2048, .f32⟩ : BufTy).Contents (Elt F)),
    StableHlo.binary main_arg0 main_v0 main_v1 (mulf : (⟨S8x2048, .f32⟩ : BufTy).Contents (Elt F) → (⟨S8x2048, .f32⟩ : BufTy).Contents (Elt F) → (⟨S8x2048, .f32⟩ : BufTy).Contents (Elt F)),
    StableHlo.binary main_arg1 main_v0 main_v2 (mulf : (⟨S8x2048, .f32⟩ : BufTy).Contents (Elt F) → (⟨S8x2048, .f32⟩ : BufTy).Contents (Elt F) → (⟨S8x2048, .f32⟩ : BufTy).Contents (Elt F)) ]

/-- The per-token loss, from the masked arrays. -/
abbrev opsLoss : List (HloOp τ sig (Elt F)) :=
  [ StableHlo.unary main_v2 main_v3 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v2 main_v4 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v3 main_v5 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v4 main_v6 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v5 main_v6 main_v7 (subf : (⟨S8x2048x2048, .f32⟩ : BufTy).Contents (Elt F) → (⟨S8x2048x2048, .f32⟩ : BufTy).Contents (Elt F) → (⟨S8x2048x2048, .f32⟩ : BufTy).Contents (Elt F)),
    StableHlo.unary main_v1 main_v8 (broadcastInDim S8x2048x1 ![0, 1] bcast_S8x2048_S8x2048x1_0_1 : (⟨S8x2048, .f32⟩ : BufTy).Contents (Elt F) → (⟨S8x2048x1, .f32⟩ : BufTy).Contents (Elt F)),
    StableHlo.unary main_v1 main_v9 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v8 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v9 main_v11 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v10 main_v11 main_v12 (subf : (⟨S8x2048x2048, .f32⟩ : BufTy).Contents (Elt F) → (⟨S8x2048x2048, .f32⟩ : BufTy).Contents (Elt F) → (⟨S8x2048x2048, .f32⟩ : BufTy).Contents (Elt F)),
    StableHlo.unary main_v7 main_v13 (Host.sign : (⟨S8x2048x2048, .f32⟩ : BufTy).Contents (Elt F) → (⟨S8x2048x2048, .f32⟩ : BufTy).Contents (Elt F)),
    StableHlo.binary main_v12 main_v13 main_v14 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst (constant S_ .f32 0x3DCCCCCD#32),
    StableHlo.unary main_cst main_v15 (broadcastInDim S8x2048x2048 ![] bcast_S_S8x2048x2048 : (⟨S_, .f32⟩ : BufTy).Contents (Elt F) → (⟨S8x2048x2048, .f32⟩ : BufTy).Contents (Elt F)),
    StableHlo.binary main_v15 main_v14 main_v16 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_0 (constant S_ .f32 0x00000000#32),
    StableHlo.unary main_cst_0 main_v17 (broadcastInDim S8x2048x2048 ![] bcast_S_S8x2048x2048 : (⟨S_, .f32⟩ : BufTy).Contents (Elt F) → (⟨S8x2048x2048, .f32⟩ : BufTy).Contents (Elt F)),
    StableHlo.binary main_v16 main_v17 main_v18 (maximumf : (⟨S8x2048x2048, .f32⟩ : BufTy).Contents (Elt F) → (⟨S8x2048x2048, .f32⟩ : BufTy).Contents (Elt F) → (⟨S8x2048x2048, .f32⟩ : BufTy).Contents (Elt F)),
    StableHlo.nullary main_v19 (iotaInDim S2048x2048 32 0),
    StableHlo.nullary main_v20 (iotaInDim S2048x2048 32 1),
    StableHlo.nullary main_c (constantI S_ 32 0#32),
    StableHlo.unary main_c main_v21 (broadcastInDim S2048x2048 ![] bcast_S_S2048x2048 : (⟨S_, .i32⟩ : BufTy).Contents (Elt F) → (⟨S2048x2048, .i32⟩ : BufTy).Contents (Elt F)),
    StableHlo.binary main_v19 main_v21 main_v22 (addi : (⟨S2048x2048, .i32⟩ : BufTy).Contents (Elt F) → (⟨S2048x2048, .i32⟩ : BufTy).Contents (Elt F) → (⟨S2048x2048, .i32⟩ : BufTy).Contents (Elt F)),
    StableHlo.binary main_v22 main_v20 main_v23 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v23 main_v24 (uitofp .f32 : (⟨S2048x2048, .i1⟩ : BufTy).Contents (Elt F) → (⟨S2048x2048, .f32⟩ : BufTy).Contents (Elt F)),
    StableHlo.nullary main_cst_1 (constant S_ .f32 0x3F800000#32),
    StableHlo.unary main_cst_1 main_v25 (broadcastInDim S2048x2048 ![] bcast_S_S2048x2048 : (⟨S_, .f32⟩ : BufTy).Contents (Elt F) → (⟨S2048x2048, .f32⟩ : BufTy).Contents (Elt F)),
    StableHlo.binary main_v25 main_v24 main_v26 (subf : (⟨S2048x2048, .f32⟩ : BufTy).Contents (Elt F) → (⟨S2048x2048, .f32⟩ : BufTy).Contents (Elt F) → (⟨S2048x2048, .f32⟩ : BufTy).Contents (Elt F)),
    StableHlo.unary main_v26 main_v27 (broadcastInDim S1x2048x2048 ![1, 2] bcast_S2048x2048_S1x2048x2048_1_2 : (⟨S2048x2048, .f32⟩ : BufTy).Contents (Elt F) → (⟨S1x2048x2048, .f32⟩ : BufTy).Contents (Elt F)),
    StableHlo.unary main_v27 main_v28 (broadcastInDim S8x2048x2048 ![0, 1, 2] bcast_S1x2048x2048_S8x2048x2048_0_1_2 : (⟨S1x2048x2048, .f32⟩ : BufTy).Contents (Elt F) → (⟨S8x2048x2048, .f32⟩ : BufTy).Contents (Elt F)),
    StableHlo.binary main_v18 main_v28 main_v29 (mulf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_2 (constant S_ .f32 0x00000000#32),
    StableHlo.binary main_v29 main_cst_2 main_v30 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    StableHlo.nullary main_cst_3 (constant S_ .f32 0x44FFE000#32),
    StableHlo.unary main_cst_3 main_v31 (broadcastInDim S8x2048 ![] bcast_S_S8x2048 : (⟨S_, .f32⟩ : BufTy).Contents (Elt F) → (⟨S8x2048, .f32⟩ : BufTy).Contents (Elt F)),
    StableHlo.binary main_v30 main_v31 main_v32 (Host.divf : (⟨S8x2048, .f32⟩ : BufTy).Contents (Elt F) → (⟨S8x2048, .f32⟩ : BufTy).Contents (Elt F) → (⟨S8x2048, .f32⟩ : BufTy).Contents (Elt F)) ]

/-- The statistics, from the loss, the mask and the masked arrays. -/
abbrev opsTail : List (HloOp τ sig (Elt F)) :=
  [ StableHlo.binary main_v32 main_v0 main_v33 (mulf : (⟨S8x2048, .f32⟩ : BufTy).Contents (Elt F) → (⟨S8x2048, .f32⟩ : BufTy).Contents (Elt F) → (⟨S8x2048, .f32⟩ : BufTy).Contents (Elt F)),
    StableHlo.nullary main_cst_4 (constant S_ .f32 0x00000000#32),
    StableHlo.binary main_v0 main_cst_4 main_v34 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.nullary main_cst_5 (constant S_ .f32 0x3F800000#32),
    StableHlo.unary main_cst_5 main_v35 (broadcastInDim S8 ![] bcast_S_S8 : (⟨S_, .f32⟩ : BufTy).Contents (Elt F) → (⟨S8, .f32⟩ : BufTy).Contents (Elt F)),
    StableHlo.binary main_v34 main_v35 main_v36 (maximumf : (⟨S8, .f32⟩ : BufTy).Contents (Elt F) → (⟨S8, .f32⟩ : BufTy).Contents (Elt F) → (⟨S8, .f32⟩ : BufTy).Contents (Elt F)),
    StableHlo.nullary main_cst_6 (constant S_ .f32 0x00000000#32),
    StableHlo.binary main_v33 main_cst_6 main_v37 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.binary main_v37 main_v36 main_v38 (Host.divf : (⟨S8, .f32⟩ : BufTy).Contents (Elt F) → (⟨S8, .f32⟩ : BufTy).Contents (Elt F) → (⟨S8, .f32⟩ : BufTy).Contents (Elt F)),
    StableHlo.nullary main_cst_7 (constant S_ .f32 0x00000000#32),
    StableHlo.binary main_v38 main_cst_7 main_v39 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_8 (constant S_ .f32 0x41000000#32),
    StableHlo.binary main_v39 main_cst_8 main_v40 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v0 main_cst_9 main_v41 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.binary main_v41 main_cst_10 main_v42 (maximumf : (⟨S_, .f32⟩ : BufTy).Contents (Elt F) → (⟨S_, .f32⟩ : BufTy).Contents (Elt F) → (⟨S_, .f32⟩ : BufTy).Contents (Elt F)),
    StableHlo.binary main_v1 main_v0 main_v43 (mulf : (⟨S8x2048, .f32⟩ : BufTy).Contents (Elt F) → (⟨S8x2048, .f32⟩ : BufTy).Contents (Elt F) → (⟨S8x2048, .f32⟩ : BufTy).Contents (Elt F)),
    StableHlo.nullary main_cst_11 (constant S_ .f32 0x00000000#32),
    StableHlo.binary main_v43 main_cst_11 main_v44 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v44 main_v42 main_v45 (Host.divf : (⟨S_, .f32⟩ : BufTy).Contents (Elt F) → (⟨S_, .f32⟩ : BufTy).Contents (Elt F) → (⟨S_, .f32⟩ : BufTy).Contents (Elt F)),
    StableHlo.binary main_v2 main_v0 main_v46 (mulf : (⟨S8x2048, .f32⟩ : BufTy).Contents (Elt F) → (⟨S8x2048, .f32⟩ : BufTy).Contents (Elt F) → (⟨S8x2048, .f32⟩ : BufTy).Contents (Elt F)),
    StableHlo.nullary main_cst_12 (constant S_ .f32 0x00000000#32),
    StableHlo.binary main_v46 main_cst_12 main_v47 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v47 main_v42 main_v48 (Host.divf : (⟨S_, .f32⟩ : BufTy).Contents (Elt F) → (⟨S_, .f32⟩ : BufTy).Contents (Elt F) → (⟨S_, .f32⟩ : BufTy).Contents (Elt F)),
    StableHlo.unary main_v45 main_v49 (broadcastInDim S8x2048 ![] bcast_S_S8x2048 : (⟨S_, .f32⟩ : BufTy).Contents (Elt F) → (⟨S8x2048, .f32⟩ : BufTy).Contents (Elt F)),
    StableHlo.binary main_v1 main_v49 main_v50 (subf : (⟨S8x2048, .f32⟩ : BufTy).Contents (Elt F) → (⟨S8x2048, .f32⟩ : BufTy).Contents (Elt F) → (⟨S8x2048, .f32⟩ : BufTy).Contents (Elt F)),
    StableHlo.binary main_v50 main_v0 main_v51 (mulf : (⟨S8x2048, .f32⟩ : BufTy).Contents (Elt F) → (⟨S8x2048, .f32⟩ : BufTy).Contents (Elt F) → (⟨S8x2048, .f32⟩ : BufTy).Contents (Elt F)),
    StableHlo.unary main_v48 main_v52 (broadcastInDim S8x2048 ![] bcast_S_S8x2048 : (⟨S_, .f32⟩ : BufTy).Contents (Elt F) → (⟨S8x2048, .f32⟩ : BufTy).Contents (Elt F)),
    StableHlo.binary main_v2 main_v52 main_v53 (subf : (⟨S8x2048, .f32⟩ : BufTy).Contents (Elt F) → (⟨S8x2048, .f32⟩ : BufTy).Contents (Elt F) → (⟨S8x2048, .f32⟩ : BufTy).Contents (Elt F)),
    StableHlo.binary main_v53 main_v0 main_v54 (mulf : (⟨S8x2048, .f32⟩ : BufTy).Contents (Elt F) → (⟨S8x2048, .f32⟩ : BufTy).Contents (Elt F) → (⟨S8x2048, .f32⟩ : BufTy).Contents (Elt F)),
    StableHlo.binary main_v51 main_v54 main_v55 (mulf : (⟨S8x2048, .f32⟩ : BufTy).Contents (Elt F) → (⟨S8x2048, .f32⟩ : BufTy).Contents (Elt F) → (⟨S8x2048, .f32⟩ : BufTy).Contents (Elt F)),
    StableHlo.nullary main_cst_13 (constant S_ .f32 0x00000000#32),
    StableHlo.binary main_v55 main_cst_13 main_v56 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v51 main_v51 main_v57 (mulf : (⟨S8x2048, .f32⟩ : BufTy).Contents (Elt F) → (⟨S8x2048, .f32⟩ : BufTy).Contents (Elt F) → (⟨S8x2048, .f32⟩ : BufTy).Contents (Elt F)),
    StableHlo.nullary main_cst_14 (constant S_ .f32 0x00000000#32),
    StableHlo.binary main_v57 main_cst_14 main_v58 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v54 main_v54 main_v59 (mulf : (⟨S8x2048, .f32⟩ : BufTy).Contents (Elt F) → (⟨S8x2048, .f32⟩ : BufTy).Contents (Elt F) → (⟨S8x2048, .f32⟩ : BufTy).Contents (Elt F)),
    StableHlo.nullary main_cst_15 (constant S_ .f32 0x00000000#32),
    StableHlo.binary main_v59 main_cst_15 main_v60 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.binary main_v58 main_v60 main_v61 (mulf : (⟨S_, .f32⟩ : BufTy).Contents (Elt F) → (⟨S_, .f32⟩ : BufTy).Contents (Elt F) → (⟨S_, .f32⟩ : BufTy).Contents (Elt F)),
    StableHlo.unary main_v61 main_v62 (Host.sqrt : (⟨S_, .f32⟩ : BufTy).Contents (Elt F) → (⟨S_, .f32⟩ : BufTy).Contents (Elt F)),
    StableHlo.nullary main_cst_16 (constant S_ .f32 0x00000000#32),
    StableHlo.binary main_v62 main_cst_16 main_v63 (cmpf .ogt : (⟨S_, .f32⟩ : BufTy).Contents (Elt F) → (⟨S_, .f32⟩ : BufTy).Contents (Elt F) → (⟨S_, .i1⟩ : BufTy).Contents (Elt F)),
    StableHlo.nullary main_cst_17 (constant S_ .f32 0x3F800000#32),
    StableHlo.TRef.unary (.of main_cst_17 : StableHlo.TRef sig ⟨S_, .f32⟩) (.of main_call0_v0 : StableHlo.TRef sig ⟨S_, .f32⟩) id,
    StableHlo.TRef.ternary (.of main_v63 : StableHlo.TRef sig ⟨S_, .i1⟩) (.of main_v62 : StableHlo.TRef sig ⟨S_, .f32⟩) (.of main_call0_v0 : StableHlo.TRef sig ⟨S_, .f32⟩) (.of main_v64 : StableHlo.TRef sig ⟨S_, .f32⟩) select,
    StableHlo.nullary main_cst_18 (constant S_ .f32 0x00000000#32),
    StableHlo.binary main_v62 main_cst_18 main_v65 (cmpf .ogt : (⟨S_, .f32⟩ : BufTy).Contents (Elt F) → (⟨S_, .f32⟩ : BufTy).Contents (Elt F) → (⟨S_, .i1⟩ : BufTy).Contents (Elt F)),
    StableHlo.binary main_v56 main_v64 main_v66 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32),
    StableHlo.TRef.unary (.of main_cst_19 : StableHlo.TRef sig ⟨S_, .f32⟩) (.of main_call1_v0 : StableHlo.TRef sig ⟨S_, .f32⟩) id,
    StableHlo.TRef.ternary (.of main_v65 : StableHlo.TRef sig ⟨S_, .i1⟩) (.of main_v66 : StableHlo.TRef sig ⟨S_, .f32⟩) (.of main_call1_v0 : StableHlo.TRef sig ⟨S_, .f32⟩) (.of main_v67 : StableHlo.TRef sig ⟨S_, .f32⟩) select,
    StableHlo.nullary main_cst_20 (constant S_ .f32 0x00000000#32),
    StableHlo.binary main_v1 main_cst_20 main_v68 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_21 (constant S_ .f32 0x46800000#32),
    StableHlo.binary main_v68 main_cst_21 main_v69 (Host.divf : (⟨S_, .f32⟩ : BufTy).Contents (Elt F) → (⟨S_, .f32⟩ : BufTy).Contents (Elt F) → (⟨S_, .f32⟩ : BufTy).Contents (Elt F)),
    StableHlo.nullary main_c_22 (constantI S_ 32 1#32),
    StableHlo.TRef.nullary (.of main_call2_call0_cst : StableHlo.TRef sig ⟨S_, .f32⟩) (constant S_ .f32 0x00000000#32),
    StableHlo.TRef.binary (.of main_v1 : StableHlo.TRef sig ⟨S8x2048, .f32⟩) (.of main_call2_call0_cst : StableHlo.TRef sig ⟨S_, .f32⟩) (.of main_call2_call0_v0 : StableHlo.TRef sig ⟨S_, .f32⟩) (fun x v => Host.reduceAdd x v reducesTo_S8x2048_S_d0_1 h_S_),
    StableHlo.TRef.unary (.of main_call2_call0_v0 : StableHlo.TRef sig ⟨S_, .f32⟩) (.of main_call2_call0_v1 : StableHlo.TRef sig ⟨S1x1, .f32⟩) (broadcastInDim S1x1 ![] bcast_S_S1x1),
    StableHlo.TRef.nullary (.of main_call2_call0_cst_0 : StableHlo.TRef sig ⟨S_, .f32⟩) (constant S_ .f32 0x46800000#32),
    StableHlo.TRef.unary (.of main_call2_call0_cst_0 : StableHlo.TRef sig ⟨S_, .f32⟩) (.of main_call2_call0_v2 : StableHlo.TRef sig ⟨S1x1, .f32⟩) (broadcastInDim S1x1 ![] bcast_S_S1x1),
    StableHlo.TRef.binary (.of main_call2_call0_v1 : StableHlo.TRef sig ⟨S1x1, .f32⟩) (.of main_call2_call0_v2 : StableHlo.TRef sig ⟨S1x1, .f32⟩) (.of main_call2_call0_v3 : StableHlo.TRef sig ⟨S1x1, .f32⟩) Host.divf,
    StableHlo.TRef.unary (.of main_call2_call0_v3 : StableHlo.TRef sig ⟨S1x1, .f32⟩) (.of main_call2_call0_v4 : StableHlo.TRef sig ⟨S8x2048, .f32⟩) (broadcastInDim S8x2048 ![0, 1] bcast_S1x1_S8x2048_0_1),
    StableHlo.TRef.binary (.of main_v1 : StableHlo.TRef sig ⟨S8x2048, .f32⟩) (.of main_call2_call0_v4 : StableHlo.TRef sig ⟨S8x2048, .f32⟩) (.of main_call2_call0_v5 : StableHlo.TRef sig ⟨S8x2048, .f32⟩) subf,
    StableHlo.TRef.binary (.of main_call2_call0_v5 : StableHlo.TRef sig ⟨S8x2048, .f32⟩) (.of main_call2_call0_v5 : StableHlo.TRef sig ⟨S8x2048, .f32⟩) (.of main_call2_call0_v6 : StableHlo.TRef sig ⟨S8x2048, .f32⟩) mulf,
    StableHlo.TRef.unary (.of main_c_22 : StableHlo.TRef sig ⟨S_, .i32⟩) (.of main_call2_call0_v7 : StableHlo.TRef sig ⟨S_, .f32⟩) (sitofp .f32),
    StableHlo.TRef.nullary (.of main_call2_call0_cst_1 : StableHlo.TRef sig ⟨S_, .f32⟩) (constant S_ .f32 0x46800000#32),
    StableHlo.TRef.binary (.of main_call2_call0_cst_1 : StableHlo.TRef sig ⟨S_, .f32⟩) (.of main_call2_call0_v7 : StableHlo.TRef sig ⟨S_, .f32⟩) (.of main_call2_call0_v8 : StableHlo.TRef sig ⟨S_, .f32⟩) subf,
    StableHlo.TRef.nullary (.of main_call2_call0_cst_2 : StableHlo.TRef sig ⟨S_, .f32⟩) (constant S_ .f32 0x00000000#32),
    StableHlo.TRef.binary (.of main_call2_call0_v6 : StableHlo.TRef sig ⟨S8x2048, .f32⟩) (.of main_call2_call0_cst_2 : StableHlo.TRef sig ⟨S_, .f32⟩) (.of main_call2_call0_v9 : StableHlo.TRef sig ⟨S_, .f32⟩) (fun x v => Host.reduceAdd x v reducesTo_S8x2048_S_d0_1 h_S_),
    StableHlo.TRef.binary (.of main_call2_call0_v9 : StableHlo.TRef sig ⟨S_, .f32⟩) (.of main_call2_call0_v8 : StableHlo.TRef sig ⟨S_, .f32⟩) (.of main_call2_call0_v10 : StableHlo.TRef sig ⟨S_, .f32⟩) Host.divf,
    StableHlo.TRef.nullary (.of main_call2_call0_cst_3 : StableHlo.TRef sig ⟨S_, .f32⟩) (constant S_ .f32 0x00000000#32),
    StableHlo.TRef.binary (.of main_call2_call0_v8 : StableHlo.TRef sig ⟨S_, .f32⟩) (.of main_call2_call0_cst_3 : StableHlo.TRef sig ⟨S_, .f32⟩) (.of main_call2_call0_v11 : StableHlo.TRef sig ⟨S_, .i1⟩) (cmpf .ogt),
    StableHlo.TRef.nullary (.of main_call2_call0_cst_4 : StableHlo.TRef sig ⟨S_, .f32⟩) (constant S_ .f32 0x7FC00000#32),
    StableHlo.TRef.unary (.of main_call2_call0_cst_4 : StableHlo.TRef sig ⟨S_, .f32⟩) (.of main_call2_call0_call0_v0 : StableHlo.TRef sig ⟨S_, .f32⟩) id,
    StableHlo.TRef.ternary (.of main_call2_call0_v11 : StableHlo.TRef sig ⟨S_, .i1⟩) (.of main_call2_call0_v10 : StableHlo.TRef sig ⟨S_, .f32⟩) (.of main_call2_call0_call0_v0 : StableHlo.TRef sig ⟨S_, .f32⟩) (.of main_call2_v0 : StableHlo.TRef sig ⟨S_, .f32⟩) select,
    StableHlo.TRef.unary (.of main_call2_v0 : StableHlo.TRef sig ⟨S_, .f32⟩) (.of main_v70 : StableHlo.TRef sig ⟨S_, .f32⟩) Host.sqrt,
    StableHlo.nullary main_cst_23 (constant S_ .f32 0x00000000#32),
    StableHlo.binary main_v2 main_cst_23 main_v71 ((fun x v => Host.reduceAdd x v reducesTo_S8x2048_S_d0_1 h_S_) : (⟨S8x2048, .f32⟩ : BufTy).Contents (Elt F) → (⟨S_, .f32⟩ : BufTy).Contents (Elt F) → (⟨S_, .f32⟩ : BufTy).Contents (Elt F)),
    StableHlo.nullary main_cst_24 (constant S_ .f32 0x46800000#32),
    StableHlo.binary main_v71 main_cst_24 main_v72 (Host.divf : (⟨S_, .f32⟩ : BufTy).Contents (Elt F) → (⟨S_, .f32⟩ : BufTy).Contents (Elt F) → (⟨S_, .f32⟩ : BufTy).Contents (Elt F)),
    StableHlo.nullary main_c_25 (constantI S_ 32 1#32),
    StableHlo.TRef.nullary (.of main_call3_call0_cst : StableHlo.TRef sig ⟨S_, .f32⟩) (constant S_ .f32 0x00000000#32),
    StableHlo.TRef.binary (.of main_v2 : StableHlo.TRef sig ⟨S8x2048, .f32⟩) (.of main_call3_call0_cst : StableHlo.TRef sig ⟨S_, .f32⟩) (.of main_call3_call0_v0 : StableHlo.TRef sig ⟨S_, .f32⟩) (fun x v => Host.reduceAdd x v reducesTo_S8x2048_S_d0_1 h_S_),
    StableHlo.TRef.unary (.of main_call3_call0_v0 : StableHlo.TRef sig ⟨S_, .f32⟩) (.of main_call3_call0_v1 : StableHlo.TRef sig ⟨S1x1, .f32⟩) (broadcastInDim S1x1 ![] bcast_S_S1x1),
    StableHlo.TRef.nullary (.of main_call3_call0_cst_0 : StableHlo.TRef sig ⟨S_, .f32⟩) (constant S_ .f32 0x46800000#32),
    StableHlo.TRef.unary (.of main_call3_call0_cst_0 : StableHlo.TRef sig ⟨S_, .f32⟩) (.of main_call3_call0_v2 : StableHlo.TRef sig ⟨S1x1, .f32⟩) (broadcastInDim S1x1 ![] bcast_S_S1x1),
    StableHlo.TRef.binary (.of main_call3_call0_v1 : StableHlo.TRef sig ⟨S1x1, .f32⟩) (.of main_call3_call0_v2 : StableHlo.TRef sig ⟨S1x1, .f32⟩) (.of main_call3_call0_v3 : StableHlo.TRef sig ⟨S1x1, .f32⟩) Host.divf,
    StableHlo.TRef.unary (.of main_call3_call0_v3 : StableHlo.TRef sig ⟨S1x1, .f32⟩) (.of main_call3_call0_v4 : StableHlo.TRef sig ⟨S8x2048, .f32⟩) (broadcastInDim S8x2048 ![0, 1] bcast_S1x1_S8x2048_0_1),
    StableHlo.TRef.binary (.of main_v2 : StableHlo.TRef sig ⟨S8x2048, .f32⟩) (.of main_call3_call0_v4 : StableHlo.TRef sig ⟨S8x2048, .f32⟩) (.of main_call3_call0_v5 : StableHlo.TRef sig ⟨S8x2048, .f32⟩) subf,
    StableHlo.TRef.binary (.of main_call3_call0_v5 : StableHlo.TRef sig ⟨S8x2048, .f32⟩) (.of main_call3_call0_v5 : StableHlo.TRef sig ⟨S8x2048, .f32⟩) (.of main_call3_call0_v6 : StableHlo.TRef sig ⟨S8x2048, .f32⟩) mulf,
    StableHlo.TRef.unary (.of main_c_25 : StableHlo.TRef sig ⟨S_, .i32⟩) (.of main_call3_call0_v7 : StableHlo.TRef sig ⟨S_, .f32⟩) (sitofp .f32),
    StableHlo.TRef.nullary (.of main_call3_call0_cst_1 : StableHlo.TRef sig ⟨S_, .f32⟩) (constant S_ .f32 0x46800000#32),
    StableHlo.TRef.binary (.of main_call3_call0_cst_1 : StableHlo.TRef sig ⟨S_, .f32⟩) (.of main_call3_call0_v7 : StableHlo.TRef sig ⟨S_, .f32⟩) (.of main_call3_call0_v8 : StableHlo.TRef sig ⟨S_, .f32⟩) subf,
    StableHlo.TRef.nullary (.of main_call3_call0_cst_2 : StableHlo.TRef sig ⟨S_, .f32⟩) (constant S_ .f32 0x00000000#32),
    StableHlo.TRef.binary (.of main_call3_call0_v6 : StableHlo.TRef sig ⟨S8x2048, .f32⟩) (.of main_call3_call0_cst_2 : StableHlo.TRef sig ⟨S_, .f32⟩) (.of main_call3_call0_v9 : StableHlo.TRef sig ⟨S_, .f32⟩) (fun x v => Host.reduceAdd x v reducesTo_S8x2048_S_d0_1 h_S_),
    StableHlo.TRef.binary (.of main_call3_call0_v9 : StableHlo.TRef sig ⟨S_, .f32⟩) (.of main_call3_call0_v8 : StableHlo.TRef sig ⟨S_, .f32⟩) (.of main_call3_call0_v10 : StableHlo.TRef sig ⟨S_, .f32⟩) Host.divf,
    StableHlo.TRef.nullary (.of main_call3_call0_cst_3 : StableHlo.TRef sig ⟨S_, .f32⟩) (constant S_ .f32 0x00000000#32),
    StableHlo.TRef.binary (.of main_call3_call0_v8 : StableHlo.TRef sig ⟨S_, .f32⟩) (.of main_call3_call0_cst_3 : StableHlo.TRef sig ⟨S_, .f32⟩) (.of main_call3_call0_v11 : StableHlo.TRef sig ⟨S_, .i1⟩) (cmpf .ogt),
    StableHlo.TRef.nullary (.of main_call3_call0_cst_4 : StableHlo.TRef sig ⟨S_, .f32⟩) (constant S_ .f32 0x7FC00000#32),
    StableHlo.TRef.unary (.of main_call3_call0_cst_4 : StableHlo.TRef sig ⟨S_, .f32⟩) (.of main_call3_call0_call0_v0 : StableHlo.TRef sig ⟨S_, .f32⟩) id,
    StableHlo.TRef.ternary (.of main_call3_call0_v11 : StableHlo.TRef sig ⟨S_, .i1⟩) (.of main_call3_call0_v10 : StableHlo.TRef sig ⟨S_, .f32⟩) (.of main_call3_call0_call0_v0 : StableHlo.TRef sig ⟨S_, .f32⟩) (.of main_call3_v0 : StableHlo.TRef sig ⟨S_, .f32⟩) select,
    StableHlo.TRef.unary (.of main_call3_v0 : StableHlo.TRef sig ⟨S_, .f32⟩) (.of main_v73 : StableHlo.TRef sig ⟨S_, .f32⟩) Host.sqrt,
    StableHlo.unary main_v40 main_v74 (broadcastInDim S1 ![] bcast_S_S1 : (⟨S_, .f32⟩ : BufTy).Contents (Elt F) → (⟨S1, .f32⟩ : BufTy).Contents (Elt F)),
    StableHlo.unary main_v67 main_v75 (broadcastInDim S1 ![] bcast_S_S1 : (⟨S_, .f32⟩ : BufTy).Contents (Elt F) → (⟨S1, .f32⟩ : BufTy).Contents (Elt F)),
    StableHlo.unary main_v69 main_v76 (broadcastInDim S1 ![] bcast_S_S1 : (⟨S_, .f32⟩ : BufTy).Contents (Elt F) → (⟨S1, .f32⟩ : BufTy).Contents (Elt F)),
    StableHlo.unary main_v70 main_v77 (broadcastInDim S1 ![] bcast_S_S1 : (⟨S_, .f32⟩ : BufTy).Contents (Elt F) → (⟨S1, .f32⟩ : BufTy).Contents (Elt F)),
    StableHlo.unary main_v72 main_v78 (broadcastInDim S1 ![] bcast_S_S1 : (⟨S_, .f32⟩ : BufTy).Contents (Elt F) → (⟨S1, .f32⟩ : BufTy).Contents (Elt F)),
    StableHlo.unary main_v73 main_v79 (broadcastInDim S1 ![] bcast_S_S1 : (⟨S_, .f32⟩ : BufTy).Contents (Elt F) → (⟨S1, .f32⟩ : BufTy).Contents (Elt F)),
    StableHlo.nary ![main_v74, main_v75, main_v76, main_v77, main_v78, main_v79] main_v80 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

section Values
variable (V : Valuation τ sig (Elt F))

theorem head_v0 : after opsHead V (main_v0 : DevRef τ sig) = sitofp .f32 (V (main_arg2 : DevRef τ sig)) := by after_results
theorem head_v1 : after opsHead V (main_v1 : DevRef τ sig) = mulf (V (main_arg0 : DevRef τ sig)) (sitofp .f32 (V (main_arg2 : DevRef τ sig))) := by after_results
theorem head_v2 : after opsHead V (main_v2 : DevRef τ sig) = mulf (V (main_arg1 : DevRef τ sig)) (sitofp .f32 (V (main_arg2 : DevRef τ sig))) := by after_results
theorem head_arg0 : after opsHead V (main_arg0 : DevRef τ sig) = V (main_arg0 : DevRef τ sig) := by after_results
theorem head_arg1 : after opsHead V (main_arg1 : DevRef τ sig) = V (main_arg1 : DevRef τ sig) := by after_results
theorem head_arg2 : after opsHead V (main_arg2 : DevRef τ sig) = V (main_arg2 : DevRef τ sig) := by after_results

set_option maxRecDepth 8192 in
theorem loss_v32 : after opsLoss V (main_v32 : DevRef τ sig) = Cert.Hinge.lossRef (V (main_v1 : DevRef τ sig)) (V (main_v2 : DevRef τ sig)) := by
  after_results_simp
  rfl
theorem loss_v0 : after opsLoss V (main_v0 : DevRef τ sig) = V (main_v0 : DevRef τ sig) := by after_results_simp
theorem loss_v1 : after opsLoss V (main_v1 : DevRef τ sig) = V (main_v1 : DevRef τ sig) := by after_results_simp
theorem loss_v2 : after opsLoss V (main_v2 : DevRef τ sig) = V (main_v2 : DevRef τ sig) := by after_results_simp
theorem loss_arg0 : after opsLoss V (main_arg0 : DevRef τ sig) = V (main_arg0 : DevRef τ sig) := by after_results_simp
theorem loss_arg1 : after opsLoss V (main_arg1 : DevRef τ sig) = V (main_arg1 : DevRef τ sig) := by after_results_simp
theorem loss_arg2 : after opsLoss V (main_arg2 : DevRef τ sig) = V (main_arg2 : DevRef τ sig) := by after_results_simp

end Values

section TailValues
variable (V : Valuation τ sig (Elt F))

set_option maxRecDepth 65536 in
set_option maxHeartbeats 4000000 in
theorem tail_v80 : after opsTail V (main_v80 : DevRef τ sig)
    = Cert.Hinge.tailFn (V (main_v32 : DevRef τ sig)) (V (main_v0 : DevRef τ sig)) (V (main_v1 : DevRef τ sig)) (V (main_v2 : DevRef τ sig)) := by
  after_results_simp
  rfl

end TailValues

section Whole
variable (V : Valuation τ sig (Elt F))

theorem tail_arg0 : after opsTail V (main_arg0 : DevRef τ sig) = V (main_arg0 : DevRef τ sig) := by after_results_simp
theorem tail_arg1 : after opsTail V (main_arg1 : DevRef τ sig) = V (main_arg1 : DevRef τ sig) := by after_results_simp
theorem tail_arg2 : after opsTail V (main_arg2 : DevRef τ sig) = V (main_arg2 : DevRef τ sig) := by after_results_simp

/-- The line is its three stretches in order. -/
theorem ops_split : (ops : List (HloOp τ sig (Elt F))) = opsHead ++ (opsLoss ++ opsTail) := rfl

/-- The result buffer after the line: the reference's pure term of the arguments' contents. -/
theorem out_eq : after ops V (main_v80 : DevRef τ sig)
    = Cert.Hinge.refOut (V (main_arg0 : DevRef τ sig)) (V (main_arg1 : DevRef τ sig)) (V (main_arg2 : DevRef τ sig)) := by
  rw [ops_split, after_append, after_append, tail_v80, loss_v32, loss_v0, loss_v1, loss_v2, head_v0, head_v1, head_v2]
  rfl

theorem arg0_eq : after ops V (main_arg0 : DevRef τ sig) = V (main_arg0 : DevRef τ sig) := by
  rw [ops_split, after_append, after_append, tail_arg0, loss_arg0, head_arg0]
theorem arg1_eq : after ops V (main_arg1 : DevRef τ sig) = V (main_arg1 : DevRef τ sig) := by
  rw [ops_split, after_append, after_append, tail_arg1, loss_arg1, head_arg1]
theorem arg2_eq : after ops V (main_arg2 : DevRef τ sig) = V (main_arg2 : DevRef τ sig) := by
  rw [ops_split, after_append, after_append, tail_arg2, loss_arg2, head_arg2]

end Whole

/-- On every device, for any float values, from any memory with zero counters: every weakly fair execution
    of @main terminates with the result at `Cert.Hinge.refOut` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v80) = Cert.Hinge.refOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v80).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefValue

end
-- ==== Proof.Preserves.lean ====
/-
  The one rewrite of the idealization. The kernel builds ±1.0 from the sign bit of a difference (the difference's word
  masked to its top bit and or-ed into 1.0's word); the idealized program prints that as "−1 where the operand is below
  zero, else 1". What the rewrite assumes is the rule's statement at this site's shape [512, 2048] and format f32: at
  the bit patterns the window is ±1.0's word by the sign bit, and on the extended reals the replacement is ±1 by the
  order.
-/
import proofs.«121960_j87024627352243_2_alg».proof.Defs
import Idealize.ShloMosaic.PureOps.IdealRules

namespace Cert.Proof.Parts

open Idealize.ShloMosaic

/-- The ledger's one entry: the sign-bit rule's statement at [512, 2048], f32. -/
theorem preserves : Cert.preserves_Kernel_KernelIdeal :=
  IdealRules.sign_bit.statement Cert.KernelIdeal.S512x2048 .f32

end Cert.Proof.Parts
-- ==== Proof.lean ====
/-
  The certificate's claims, assembled.

  Both programs mask the values and the rewards, compute a per-token pairwise hinge loss over each row of 2048 tokens,
  and apply the same statistics to it. They differ in the loss only. The kernel sums the hinge term of a query against
  EVERY key of its row and takes the query's own term — the margin M — away afterwards; the reference multiplies each
  term by 1 − [i = j] before summing. For real entries (the precondition makes the inputs finite) the query's own term
  is exactly the positive real M and a masked sum is the sum less the masked term, so the two losses are equal entry by
  entry; on the extended reals this would fail at an infinite entry. The kernel is a pipeline over a grid of 8 × 4
  points in which two windows read one array (a block of 512 queries and the whole row of 2048 keys of the same
  array); its result array is one function of the two arrays it reads, block by block.
-/
import proofs.«121960_j87024627352243_2_alg».proof.Defs
import proofs.«121960_j87024627352243_2_alg».proof.Proof.Gen.Kernel
import proofs.«121960_j87024627352243_2_alg».proof.Proof.Gen.KernelIdeal
import proofs.«121960_j87024627352243_2_alg».proof.Proof.Gen.ReferenceIdeal
import proofs.«121960_j87024627352243_2_alg».proof.Proof.Gen.Pre_finite_inputs
import proofs.«121960_j87024627352243_2_alg».proof.Proof.KRunB
import proofs.«121960_j87024627352243_2_alg».proof.Proof.KRunI
import proofs.«121960_j87024627352243_2_alg».proof.Proof.KValue
import proofs.«121960_j87024627352243_2_alg».proof.Proof.RefRun
import proofs.«121960_j87024627352243_2_alg».proof.Proof.Preserves
import Idealize.ShloMosaic.Adequacy
import Idealize.ShloMosaic.Init

noncomputable section

namespace Cert.Proof

open Idealize.ShloMosaic Idealize.ShloMosaic.TcCoe Idealize.SL.Sem

namespace Parts

/-- The program as printed runs and leaves its arguments as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- On the extended reals, from finite inputs, both programs end with the reference's pure term of the three arguments:
    the kernel's result is that term because its loss array is the reference's (the law between the two arrangements
    of the hinge sum), the reference's by its run; the arguments agree, so the results are equal. -/
theorem algebraic : Cert.algebraic_KernelIdeal_ReferenceIdeal := by
  intro m ρ m' ρ' hpre hagree
  refine ⟨fun c => Cert.Hinge.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.Wout_v54 m c hpre), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2]

end Parts

theorem claim : Cert.Claim :=
  ⟨Cert.Kernel.Gen.facts, Cert.KernelIdeal.Gen.facts, Cert.ReferenceIdeal.Gen.facts, Cert.Pre_finite_inputs.Gen.facts,
    Parts.frame_kernel, Parts.frame_kernelIdeal, Parts.frame_referenceIdeal, Parts.preserves, Parts.algebraic⟩

end Cert.Proof

end
